-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S512x1, .i32⟩
  | .local _ .vmem, ⟨4, _⟩ => ⟨S512x1, .i32⟩
  | .local _ .vmem, ⟨5, _⟩ => ⟨S1x8192, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v31 : BitVec 32 := Scalar.muli arg7 c512_i32
  v31
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v31 : BitVec 32 := Scalar.muli arg7 c512_i32
  let v32 : BitVec 32 := v31
  let v33 : Index := Scalar.indexCast v32
  let c0_21 : Index := 0#32
  ![v33.toNat, 0]
def k0_off2 (k0_t1 : Fin k0_t1_loop.trips) : Fin 2 → Nat :=
  let c0_22 : Index := 0#32
  let c0_i32 : BitVec 32 := 0#32
  let c1_i32 : BitVec 32 := 1#32
  let arg7 : BitVec 32 := Scf.iv c0_i32 c1_i32 k0_t1
  let c512_i32 : BitVec 32 := 512#32
  let v31 : BitVec 32 := Scalar.muli arg7 c512_i32
  let v32 : BitVec 32 := v31
  let v35 : Index := Scalar.indexCast v32
  ![0, v35.toNat]
@[reducible] def k0_t2_loop : Scf.Loop 32 :=
  let c0_i32_10 : BitVec 32 := 0#32
  let c16_i32_11 : BitVec 32 := 16#32
  let v13 : BitVec 32 := Scalar.addi c0_i32_10 c16_i32_11
  let c1_i32_12 : BitVec 32 := 1#32
  ⟨c0_i32_10, v13, c1_i32_12⟩
def k0_mult2 (k0_t2 : Fin k0_t2_loop.trips) : BitVec 32 :=
  let c0_i32_10 : BitVec 32 := 0#32
  let c1_i32_12 : BitVec 32 := 1#32
  let arg7 : BitVec 32 := Scf.iv c0_i32_10 c1_i32_12 k0_t2
  let c512_i32 : BitVec 32 := 512#32
  let v31 : BitVec 32 := Scalar.muli arg7 c512_i32
  v31
def k0_off3 (k0_t2 : Fin k0_t2_loop.trips) : Fin 2 → Nat :=
  let c0_i32_10 : BitVec 32 := 0#32
  let c1_i32_12 : BitVec 32 := 1#32
  let arg7 : BitVec 32 := Scf.iv c0_i32_10 c1_i32_12 k0_t2
  let c512_i32 : BitVec 32 := 512#32
  let v31 : BitVec 32 := Scalar.muli arg7 c512_i32
  let v32 : BitVec 32 := v31
  let v33 : Index := Scalar.indexCast v32
  let c0_21 : Index := 0#32
  ![v33.toNat, 0]
def k0_off4 (k0_t2 : Fin k0_t2_loop.trips) : Fin 2 → Nat :=
  let c0_22 : Index := 0#32
  let c0_i32_10 : BitVec 32 := 0#32
  let c1_i32_12 : BitVec 32 := 1#32
  let arg7 : BitVec 32 := Scf.iv c0_i32_10 c1_i32_12 k0_t2
  let c512_i32 : BitVec 32 := 512#32
  let v31 : BitVec 32 := Scalar.muli arg7 c512_i32
  let v32 : BitVec 32 := v31
  let v35 : Index := Scalar.indexCast v32
  ![0, v35.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S8192x1 : S8192.ShapeCasts S8192x1
  shapeCasts_S8192_S1x8192 : S8192.ShapeCasts S1x8192
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x512 : 0 < S1x512.numel
  shapeCasts_S1x512_S1x512 : S1x512.ShapeCasts S1x512
  transposes_S512x128_p1_0_S128x512 : S512x128.Transposes [1, 0] S128x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S8192x1_S_d0_1 : S8192x1.ReducesTo [0, 1] S_
  h_S_ : 0 < S_.numel
  dot_S512x128_S128x512_S512x512_1_0_0_1_n_n_wf : DotDims.WF S512x128 S128x512 S512x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S8192x128.size a
  k0_off2_inb : ∀ k0_t1 : Fin k0_t1_loop.trips, ∀ a, (k0_off2 k0_t1) a + S1x512.size a ≤ S1x8192.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S512x128.size a ≤ S8192x128.size a
  k0_off4_inb : ∀ k0_t2 : Fin k0_t2_loop.trips, ∀ a, (k0_off4 k0_t2) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 103
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .i1⟩
  | .hbm, ⟨15, _⟩ => ⟨S8192, .i1⟩
  | .hbm, ⟨16, _⟩ => ⟨S_, .i1⟩
  | .hbm, ⟨17, _⟩ => ⟨S8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x1, .f32⟩
  | .hbm, ⟨34, _⟩ => ⟨S8192x8192, .f32⟩
  | .hbm, ⟨35, _⟩ => ⟨S8192x8192, .i1⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S8192x8192, .f32⟩
  | .hbm, ⟨42, _⟩ => ⟨S8192x8192, .i1⟩
  | .hbm, ⟨43, _⟩ => ⟨S8192x8192, .i1⟩
  | .hbm, ⟨44, _⟩ => ⟨S8192, .i1⟩
  | .hbm, ⟨45, _⟩ => ⟨S_, .i1⟩
  | .hbm, ⟨46, _⟩ => ⟨S8192, .i1⟩
  | .hbm, ⟨47, _⟩ => ⟨S8192, .i1⟩
  | .hbm, ⟨48, _⟩ => ⟨S_, .i1⟩
  | .hbm, ⟨49, _⟩ => ⟨S8192, .i1⟩
  | .hbm, ⟨50, _⟩ => ⟨S8192, .i1⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_15 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩
abbrev main_cst_16 : Ref sig .tc := ⟨.hbm, 75, rfl⟩
abbrev main_v47 : Ref sig .tc := ⟨.hbm, 76, rfl⟩
abbrev main_v48 : Ref sig .tc := ⟨.hbm, 77, rfl⟩
abbrev main_cst_17 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_18 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_19 : Ref sig .tc := ⟨.hbm, 86, rfl⟩
abbrev main_call4_v0 : Ref sig .tc := ⟨.hbm, 87, rfl⟩
abbrev main_call4_v1 : Ref sig .tc := ⟨.hbm, 88, rfl⟩
abbrev main_v55 : Ref sig .tc := ⟨.hbm, 89, rfl⟩
abbrev main_v56 : Ref sig .tc := ⟨.hbm, 90, rfl⟩
abbrev main_cst_20 : Ref sig .tc := ⟨.hbm, 91, rfl⟩
abbrev main_v57 : Ref sig .tc := ⟨.hbm, 92, rfl⟩
abbrev main_cst_21 : Ref sig .tc := ⟨.hbm, 93, rfl⟩
abbrev main_v58 : Ref sig .tc := ⟨.hbm, 94, rfl⟩
abbrev main_cst_22 : Ref sig .tc := ⟨.hbm, 95, rfl⟩
abbrev main_v59 : Ref sig .tc := ⟨.hbm, 96, rfl⟩
abbrev main_cst_23 : Ref sig .tc := ⟨.hbm, 97, rfl⟩
abbrev main_v60 : Ref sig .tc := ⟨.hbm, 98, rfl⟩
abbrev main_v61 : Ref sig .tc := ⟨.hbm, 99, rfl⟩
abbrev main_cst_24 : Ref sig .tc := ⟨.hbm, 100, rfl⟩
abbrev main_call5_v0 : Ref sig .tc := ⟨.hbm, 101, rfl⟩
abbrev main_v62 : Ref sig .tc := ⟨.hbm, 102, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KRun.lean ====
/-
  The kernel body of the program as printed on whole staging buffers, run once.

  One grid point handles a block of 512 anchor rows. The body loads that block of rows and the block's 512 labels, then walks
  the 8192 keys in sixteen chunks of 512 twice: the first walk carries, per anchor row, the least similarity among its
  positives, the greatest among its negatives, and whether it has any positive and any negative; the second walk carries the two
  weighted sums over the selected pairs and whether any pair was selected. Nothing is stored inside either walk: both only
  load chunks of the whole embedding matrix and of the whole label row, so each walk goes through by the invariant "the
  carried value before chunk k" and the two buffers it reads stay as they were. After the walks the body stores one column
  of 512 per-anchor losses into the first output buffer and one column of 512 validity flags into the second; each store
  covers its buffer. What the two buffers end with is found by the run itself, as the list of pieces each was stored with.
-/
import proofs.«175013_j38981123178915_2_alg».proof.Proof.Gen.Kernel.Launch
import proofs.«175013_j38981123178915_2_alg».proof.Proof.Gen.Kernel.Skeleton
import proofs.«175013_j38981123178915_2_alg».proof.Proof.Gen.Kernel.Loops
import proofs.«175013_j38981123178915_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two output buffers are stored with, and the body's triple: holding the four input buffers at their
    contents and the two output buffers at anything, the body runs to the continuation holding the inputs as they were and
    each output buffer with its pieces written. -/
noncomputable def bodyRun (c : Dev nD) (i : grid0.Coords)
    (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (x1 : Vec F S512x128 .f32) (x2 : Vec F S8192x128 .f32) (x3 : Vec F S512x1 .i32) (x4 : Vec F S1x8192 .i32) :
    Σ' (L5 : List (View.Piece (Elt F) S512x1 .f32)), { L6 : List (View.Piece (Elt F) S512x1 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E
              (cc0__loss_kernel i arg1 harg1 arg2 harg2 arg3 harg3 arg4 harg4 arg5 harg5 arg6 harg6) K } := by
  refine ⟨?_, ?_, fun E K => ?run⟩
  case run =>
    simp only [cc0__loss_kernel_eq_skeleton]; unfold cc0__loss_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2
    obtain rfl := harg3.eq_unread hf3; obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

end Cert.Kernel.Body

end
-- ==== Proof.KData.lean ====
/-
  The proof data of the one pipelined call of the program as printed, and its body obligation.

  The grid has sixteen points; point t stages rows [512 t, 512 t + 512) of the embedding matrix and of the label column, and,
  once, the whole embedding matrix and the whole label row (those two windows are fetched at the first point only and found
  again, unchanged, at every later point, because the body only reads them). The embedding matrix is handed to the call
  twice, so the two input windows on it each hold half of the share of that one array; an input array is never written, so
  nothing is lost by that. After the body at point t each input buffer holds the block it held before, and each of the
  two output buffers holds what the body's run stored into it, read back: the stores cover the buffer, so what was there
  before does not matter.
-/
import proofs.«175013_j38981123178915_2_alg».proof.Proof.KRun
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call is entered, and the windows' blocks -/

/-- Core c's buffer contents when the call is entered: the launch contents after the two reshapes of the labels. -/
abbrev V0 (c : Dev nD) : Valuation τ sig (Elt F) := StableHlo.after (List.flatten [hostOps0 (F := F)]) (fun b => m (c, b))
/-- The same read at a TensorCore reference. -/
abbrev V (c : Dev nD) (b : Ref sig .tc) : Buf (Elt F) ((c : Thread nD τ).loc b) := V0 m c (Proc.devRef .tc b)

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched window's
    block index has not moved), for any proof data whose array is the entry contents and whose body leaves the block in
    place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)

/-! ## What the body leaves in the two output buffers -/

/-- A whole view of the outputs' block shape, to read a piece list back through. -/
abbrev VO : View sig .tc .vmem S512x1 .f32 := (Memref.whole cc0_stg4_0 : Memref sig .tc .vmem S512x1 .f32).view

/-- The per-anchor losses of block t: the first output's pieces read back over junk. -/
def out4 (c : Dev nD) (t : Fin cfg0.N) : Vec F S512x1 .f32 :=
  VO.read (Elt F) (VO.writes (Elt F) VO.junk (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).1)
/-- The validity flags of block t: the second output's pieces read back over junk. -/
def out5 (c : Dev nD) (t : Fin cfg0.N) : Vec F S512x1 .f32 :=
  VO.read (Elt F) (VO.writes (Elt F) VO.junk (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.1)

/-- The one store into each output buffer is of the whole buffer, so the pieces cover it. -/
theorem cover4 (c : Dev nD) (t : Fin cfg0.N) (y : S512x1.Idx) :
    ∃ pc ∈ (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).1, y ∈ pc.1.set :=
  View.cover_of_tiledL (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).1 S512x1.size (by sl_kernel_rfl) y
theorem cover5 (c : Dev nD) (t : Fin cfg0.N) (y : S512x1.Idx) :
    ∃ pc ∈ (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.1, y ∈ pc.1.set :=
  View.cover_of_tiledL (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.1 S512x1.size (by sl_kernel_rfl) y

/-! ## The proof data -/

/-- The proof data on core c: the arrays as the call finds them; after the body at point t each input buffer at its block,
    each output buffer at what the run stored; the invariant is the scoped rest (here nothing), untouched;
    nothing owed; the two windows on the embedding matrix hold the two halves of its share, every other window the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = out4 m c t := by dsimp only [dats]
theorem after_5 (c : Dev nD) (t : Fin cfg0.N) : (dats m 0 c).after 5 t = out5 m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the input buffers hold their blocks, so the run applies; the invariant and what the core owes pass
    through unread; each output buffer ends at its pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold out4 out5
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 m c t)
  · unfold owns; iexists _; isplitr
    swap; · iexact H5
    ipureintro; exact View.read_writes_of_cover _ _ _ _ _ (cover5 m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KLaunch.lean ====
/-
  The run of the program as printed: the two reshapes of the labels, the pipelined call, and the host lines after it.

  The call's six windows stand on five arrays: the embedding matrix is behind two input windows. At the call's entry the
  matrix, held whole, is split into the two halves of its share, one per window; an input array is only read, so at the exit
  both halves are still there, at the entry contents. The host lines after the call read the two output arrays and write
  scalars of their own; they touch neither the embedding matrix nor the reshaped labels, so they run holding the two output
  arrays and the buffers that bypass the call, and the halves of the matrix wait beside them. The run ends with every
  window's array at what the write-backs left (an input array: its entry contents) and every bypassing buffer at what the
  host lines computed from the two output arrays.
-/
import proofs.«175013_j38981123178915_2_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The host lines after the call: the two sums, the comparison, the quotient, and the final selection. -/
abbrev tailOps : List (List (HloOp τ sig (Elt F))) := [hostOps1, hostOps1_1]

/-- @main is the reshapes, the call, the lines after it: it reduces to the call continued by those lines, at the contents the
    reshapes leave. -/
theorem hmain : Pipeline.HMainK (Ix := Unit) (Name := ℕ) (U := UR sig nD τ) (Lvl := ℕ) cfgs 0 defs₀ Variants.none m (main (F := F)) (V m)
      (fun _ => Pipeline.chain ((tailOps (F := F)).map StableHlo.seq)) :=
  Pipeline.hmain_around cfgs 0 defs₀ Variants.none m main [hostOps0] tailOps
    (List.forall_iff_forall_mem.mpr fun ops h => by simp only [List.mem_singleton] at h; subst h; exact hostOps0_sub)
    (List.forall_iff_forall_mem.mpr fun ops h => by simp only [List.mem_singleton] at h; subst h; exact hostOps0_fresh)
    (fun c => (main_chain c).trans rfl)

/-! ## The arrays, one by one -/

/-- A buffer whole, at the full share. -/
abbrev pt (c : Dev nD) (b : Ref sig .tc) (f : Buf (Elt F) ((c : Thread nD τ).loc b)) : sProp 𝕄 := ((c : Thread nD τ).loc b) ↦{fullShare} f

/-- The five distinct arrays behind the six windows. -/
theorem arrBufs_eq (c : Dev nD) (Wv : (b : Ref sig .tc) → Buf (Elt F) ((c : Thread nD τ).loc b)) : (Pipeline.arrBufs spec0 c Wv : sProp 𝕄)
    = iprop(pt c main_arg0 (Wv main_arg0) ∗ pt c main_v0 (Wv main_v0) ∗ pt c main_v1 (Wv main_v1) ∗ pt c main_v2_0 (Wv main_v2_0) ∗ pt c main_v2_1 (Wv main_v2_1)) := by
  unfold Pipeline.arrBufs
  rw [bigSep_eq_bigSepL_of_eq [main_arg0, main_v0, main_v1, main_v2_0, main_v2_1] (by decide) (by decide)]
  rfl

/-- The six windows' arrays as the proof data holds them: the embedding matrix at its two half shares. -/
theorem arrays_eq (c : Dev nD) (Fa : (w : Fin cfg0.W) → Buf (Elt F) ((cfg0.win w).arr.view.loc (c.tc : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ pt c main_v0 (Fa 2) ∗ pt c main_v1 (Fa 3) ∗ pt c main_v2_0 (Fa 4) ∗ pt c main_v2_1 (Fa 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- At the entry the embedding matrix, held whole, is shared between its two windows. -/
theorem hsplit (c : Dev nD) : (Pipeline.arrBufs spec0 c (V m c) : sProp 𝕄) ⊢ (dats m 0 c).arrays ((dats m 0 c).arrAt · 0) := by
  rw [arrBufs_eq, arrays_eq]
  iintro ⟨H0, H2, H3, H4, H5⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  isplitl [H4]; · iexact H4
  iexact H5

/-! ## The host lines after the call -/

/-- The buffers those lines touch: the two output arrays and the buffers that bypass the call. -/
abbrev tailBufs : Finset (DevRef τ sig) := {Proc.devRef .tc main_v2_0, Proc.devRef .tc main_v2_1, Proc.devRef .tc main_arg1, Proc.devRef .tc main_cst, Proc.devRef .tc main_v3, Proc.devRef .tc main_cst_0, Proc.devRef .tc main_v4, Proc.devRef .tc main_cst_1, Proc.devRef .tc main_v5, Proc.devRef .tc main_cst_2, Proc.devRef .tc main_v6, Proc.devRef .tc main_v7, Proc.devRef .tc main_cst_3, Proc.devRef .tc main_v8}

theorem tailBufs_eq (c : Dev nD) (Wv : Valuation τ sig (Elt F)) : (StableHlo.held (c : Thread nD τ) tailBufs Wv : sProp 𝕄)
    = iprop(pt c main_v2_0 (Wv (Proc.devRef .tc main_v2_0)) ∗ pt c main_v2_1 (Wv (Proc.devRef .tc main_v2_1)) ∗ pt c main_arg1 (Wv (Proc.devRef .tc main_arg1)) ∗ pt c main_cst (Wv (Proc.devRef .tc main_cst)) ∗ pt c main_v3 (Wv (Proc.devRef .tc main_v3)) ∗ pt c main_cst_0 (Wv (Proc.devRef .tc main_cst_0)) ∗ pt c main_v4 (Wv (Proc.devRef .tc main_v4)) ∗ pt c main_cst_1 (Wv (Proc.devRef .tc main_cst_1)) ∗ pt c main_v5 (Wv (Proc.devRef .tc main_v5)) ∗ pt c main_cst_2 (Wv (Proc.devRef .tc main_cst_2)) ∗ pt c main_v6 (Wv (Proc.devRef .tc main_v6)) ∗ pt c main_v7 (Wv (Proc.devRef .tc main_v7)) ∗ pt c main_cst_3 (Wv (Proc.devRef .tc main_cst_3)) ∗ pt c main_v8 (Wv (Proc.devRef .tc main_v8))) := by
  unfold StableHlo.held
  rw [bigSep_eq_bigSepL_of_eq [Proc.devRef .tc main_v2_0, Proc.devRef .tc main_v2_1, Proc.devRef .tc main_arg1, Proc.devRef .tc main_cst, Proc.devRef .tc main_v3, Proc.devRef .tc main_cst_0, Proc.devRef .tc main_v4, Proc.devRef .tc main_cst_1, Proc.devRef .tc main_v5, Proc.devRef .tc main_cst_2, Proc.devRef .tc main_v6, Proc.devRef .tc main_v7, Proc.devRef .tc main_cst_3, Proc.devRef .tc main_v8] (by decide) (by decide)]
  rfl

theorem tail_sub : ∀ ops ∈ (tailOps (F := F)), ∀ op ∈ ops, op.bufs ⊆ tailBufs := by
  intro ops hops op hop b hb
  simp only [tailOps, List.mem_cons, List.mem_nil_iff, _root_.or_false] at hops
  rcases hops with rfl | rfl
  · simp only [hostOps1, List.mem_cons, List.mem_nil_iff, _root_.or_false] at hop
    rcases hop with rfl | rfl | rfl | rfl | rfl | rfl | rfl | rfl | rfl | rfl <;>
      simp only [StableHlo.nullary_bufs, StableHlo.binary_bufs, Finset.mem_insert, Finset.mem_singleton] at hb <;>
      first | (subst hb; decide) | (rcases hb with rfl | rfl | rfl <;> decide)
  · simp only [hostOps1_1, List.mem_cons, List.mem_nil_iff, _root_.or_false] at hop
    subst hop
    have hb' : b ∈ ({Proc.devRef .tc main_v5, Proc.devRef .tc main_v7, Proc.devRef .tc main_cst_3, Proc.devRef .tc main_v8} : Finset (DevRef τ sig)) := hb
    simp only [Finset.mem_insert, Finset.mem_singleton] at hb'
    rcases hb' with rfl | rfl | rfl | rfl <;> decide

theorem tail_fresh : ∀ ops ∈ (tailOps (F := F)), ∀ op ∈ ops, op.fresh = ∅ := by
  intro ops hops op hop
  simp only [tailOps, List.mem_cons, List.mem_nil_iff, _root_.or_false] at hops
  rcases hops with rfl | rfl
  · exact (List.forall_iff_forall_mem.mp hostOps1_fresh) op hop
  · exact (List.forall_iff_forall_mem.mp hostOps1_1_fresh) op hop

/-- No line after the call writes an output array of the call. -/
theorem tail_keeps (b : Ref sig .tc) (hb : b = main_v2_0 ∨ b = main_v2_1 ∨ b = main_arg1) : ∀ op ∈ (tailOps (F := F)).flatten, Proc.devRef .tc b ∉ op.writes := by
  intro op hop
  simp only [tailOps, List.flatten_cons, List.flatten_nil, List.append_nil, hostOps1, hostOps1_1, List.cons_append, List.nil_append,
    List.mem_cons, List.mem_nil_iff, _root_.or_false] at hop
  rcases hb with rfl | rfl | rfl <;> rcases hop with rfl | rfl | rfl | rfl | rfl | rfl | rfl | rfl | rfl | rfl | rfl <;>
    first
    | (simp only [StableHlo.nullary_writes, StableHlo.binary_writes, Finset.mem_singleton]; exact StableHlo.devRef_ne_of_ne (by decide))
    | (show ¬ _ ∈ ({Proc.devRef .tc main_v8} : Finset (DevRef τ sig)); simp only [Finset.mem_singleton]; exact StableHlo.devRef_ne_of_ne (by decide))

/-- The buffer contents when the call returns: as it found them, but for the two output arrays; -/
abbrev W0 (c : Dev nD) : Valuation τ sig (Elt F) :=
  Function.update (Function.update (V0 m c) (Proc.devRef .tc main_v2_0) ((dats m 0 c).arrAt 4 cfg0.N)) (Proc.devRef .tc main_v2_1) ((dats m 0 c).arrAt 5 cfg0.N)
/-- and after the host lines that follow. -/
abbrev W1 (c : Dev nD) : Valuation τ sig (Elt F) := StableHlo.after (tailOps (F := F)).flatten (W0 m c)

theorem W0_out5 (c : Dev nD) : W0 m c (Proc.devRef .tc main_v2_1) = (dats m 0 c).arrAt 5 cfg0.N := Function.update_self ..
theorem W0_out4 (c : Dev nD) : W0 m c (Proc.devRef .tc main_v2_0) = (dats m 0 c).arrAt 4 cfg0.N := by
  unfold W0; rw [Function.update_of_ne (StableHlo.devRef_ne_of_ne (by decide))]; exact Function.update_self ..
theorem W0_rest (c : Dev nD) (b : Ref sig .tc) (h4 : b ≠ main_v2_0) (h5 : b ≠ main_v2_1) : W0 m c (Proc.devRef .tc b) = V m c b := by
  unfold W0; rw [Function.update_of_ne (StableHlo.devRef_ne_of_ne h5), Function.update_of_ne (StableHlo.devRef_ne_of_ne h4)]
theorem W1_out4 (c : Dev nD) : StableHlo.after (tailOps (F := F)).flatten (W0 m c) (Proc.devRef .tc main_v2_0) = (dats m 0 c).arrAt 4 cfg0.N := by
  rw [StableHlo.after_of_forall_not_mem _ _ (tail_keeps main_v2_0 (.inl rfl)), W0_out4]
theorem W1_out5 (c : Dev nD) : StableHlo.after (tailOps (F := F)).flatten (W0 m c) (Proc.devRef .tc main_v2_1) = (dats m 0 c).arrAt 5 cfg0.N := by
  rw [StableHlo.after_of_forall_not_mem _ _ (tail_keeps main_v2_1 (.inr (.inl rfl))), W0_out5]

/-- The call's two output arrays and the bypassing buffers, at the exit contents, are what the lines after the call hold; -/
theorem tail_fwd (c : Dev nD) : (iprop(pt c main_v2_0 ((dats m 0 c).arrAt 4 cfg0.N) ∗ pt c main_v2_1 ((dats m 0 c).arrAt 5 cfg0.N) ∗ pt c main_arg1 (V m c main_arg1) ∗ pt c main_cst (V m c main_cst) ∗ pt c main_v3 (V m c main_v3) ∗ pt c main_cst_0 (V m c main_cst_0) ∗ pt c main_v4 (V m c main_v4) ∗ pt c main_cst_1 (V m c main_cst_1) ∗ pt c main_v5 (V m c main_v5) ∗ pt c main_cst_2 (V m c main_cst_2) ∗ pt c main_v6 (V m c main_v6) ∗ pt c main_v7 (V m c main_v7) ∗ pt c main_cst_3 (V m c main_cst_3) ∗ pt c main_v8 (V m c main_v8)) : sProp 𝕄) ⊢ StableHlo.held (c : Thread nD τ) tailBufs (W0 m c) := by
  rw [tailBufs_eq, W0_out4, W0_out5, W0_rest m c main_arg1 (by decide) (by decide), W0_rest m c main_cst (by decide) (by decide), W0_rest m c main_v3 (by decide) (by decide), W0_rest m c main_cst_0 (by decide) (by decide), W0_rest m c main_v4 (by decide) (by decide), W0_rest m c main_cst_1 (by decide) (by decide), W0_rest m c main_v5 (by decide) (by decide), W0_rest m c main_cst_2 (by decide) (by decide), W0_rest m c main_v6 (by decide) (by decide), W0_rest m c main_v7 (by decide) (by decide), W0_rest m c main_cst_3 (by decide) (by decide), W0_rest m c main_v8 (by decide) (by decide)]
/-- and what they hold afterwards is the two output arrays as they were and the bypassing buffers at what the lines computed. -/
theorem tail_back (c : Dev nD) : (StableHlo.held (c : Thread nD τ) tailBufs (StableHlo.after (tailOps (F := F)).flatten (W0 m c)) : sProp 𝕄)
    ⊢ iprop(pt c main_v2_0 ((dats m 0 c).arrAt 4 cfg0.N) ∗ pt c main_v2_1 ((dats m 0 c).arrAt 5 cfg0.N) ∗ pt c main_arg1 (W1 m c (Proc.devRef .tc main_arg1)) ∗ pt c main_cst (W1 m c (Proc.devRef .tc main_cst)) ∗ pt c main_v3 (W1 m c (Proc.devRef .tc main_v3)) ∗ pt c main_cst_0 (W1 m c (Proc.devRef .tc main_cst_0)) ∗ pt c main_v4 (W1 m c (Proc.devRef .tc main_v4)) ∗ pt c main_cst_1 (W1 m c (Proc.devRef .tc main_cst_1)) ∗ pt c main_v5 (W1 m c (Proc.devRef .tc main_v5)) ∗ pt c main_cst_2 (W1 m c (Proc.devRef .tc main_cst_2)) ∗ pt c main_v6 (W1 m c (Proc.devRef .tc main_v6)) ∗ pt c main_v7 (W1 m c (Proc.devRef .tc main_v7)) ∗ pt c main_cst_3 (W1 m c (Proc.devRef .tc main_cst_3)) ∗ pt c main_v8 (W1 m c (Proc.devRef .tc main_v8))) := by
  rw [tailBufs_eq, W1_out4, W1_out5]

set_option backward.isDefEq.respectTransparency.types false in
/-- From the call's exit — the arrays as the write-backs left them, the bypassing buffers as the call found them — the lines
    after it run, and hand back the arrays as they were and the bypassing buffers at what the lines computed. -/
theorem htail (c : Dev nD) (Q' : PUnit → sProp 𝕄) :
    iprop((iprop((dats m 0 c).arrays ((dats m 0 c).arrAt · cfg0.N) ∗ Pipeline.unscopedRest spec0 c (fun b => W1 m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => Cfg.toPCfg (Val := Elt F) (cfgs q)) (defs₀ (F := F))) (Variants.lift Variants.none) (c.tc : Thread nD τ) none) Set.univ
          (Pipeline.chain ((tailOps (F := F)).map StableHlo.seq)) Q' := by
  rw [arrays_eq, unscopedRest0_eq, unscopedRest0_eq]
  iintro ⟨Hk, Hb, ⟨Ha0, Ha1, Ha2, Ha3, Ha4, Ha5⟩, ⟨R0, R1, R2, R3, R4, R5, R6, R7, R8, R9, R10, R11⟩⟩
  rw [← List.append_nil ((tailOps (F := F)).map StableHlo.seq)]
  iapply (Pipeline.wp_seqs_then (fun q => Cfg.toPCfg (Val := Elt F) (cfgs q)) (defs₀ (F := F)) Variants.none c tailBufs [] tailOps tail_sub tail_fresh (W0 m c)) $$ [Hb Ha4 Ha5 R0 R1 R2 R3 R4 R5 R6 R7 R8 R9 R10 R11]
  · isplitl [Hb]; · iexact Hb
    iapply (tail_fwd m c)
    isplitl [Ha4]; · iexact Ha4
    isplitl [Ha5]; · iexact Ha5
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iintro ⟨Hb, Hh⟩
  rw [Pipeline.chain_nil, wp_pure]
  ihave Hh2 := (tail_back m c) $$ Hh
  icases Hh2 with ⟨Ha4, Ha5, R0, R1, R2, R3, R4, R5, R6, R7, R8, R9, R10, R11⟩
  imodintro
  iapply Hk
  isplitl [Ha0 Ha1 Ha2 Ha3 Ha4 Ha5]
  · isplitl [Ha0]; · iexact Ha0
    isplitl [Ha1]; · iexact Ha1
    isplitl [Ha2]; · iexact Ha2
    isplitl [Ha3]; · iexact Ha3
    isplitl [Ha4]; · iexact Ha4
    iexact Ha5
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

/-! ## The run -/

/-- What the run ends with: every window's array at what the write-backs left, every bypassing buffer at what the lines
    after the call computed. -/
def RunPost (r : PUnit × MemSt nD τ sig (Elt F)) : Prop := ∀ c : Dev nD,
  (∀ w : Fin cfg0.W, r.2.mem ((cfg0.win w).arr.view.loc (c.tc : Thread nD τ)) = (dats m 0 c).arrAt w cfg0.N)
  ∧ (∀ b ∈ Pipeline.restRefs sig spec0, r.2.mem ((c.tc : Thread nD τ).loc b) = W1 m c (Proc.devRef .tc b))

set_option backward.isDefEq.respectTransparency.types false in
/-- At the compiled mesh, for any float values, from any memory with zero counters: every weakly fair execution of @main
    terminates, nothing faulting, and ends as `RunPost` says. -/
theorem run_main : θ_run defs (onTc (τ := τ) (main (F := F))) ⟨m, fun _ => 0, ρ⟩ (RunPost m) :=
  Pipeline.θ_run_region_noSem_pf_tail (fun q => Cfg.toPCfg (Val := Elt F) (cfgs q)) (fun q => (cfgs q).toPCfg_adm) (dats m) () cellOf_inj (0 : Fin 1)
    winFacts₀0 (Pipeline.PreFacts.none _) emb₁ defs₀ Variants.none m ρ main (fun _ => Pipeline.chain ((tailOps (F := F)).map StableHlo.seq))
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest spec0 c (V m c)) (Z' := fun c => Pipeline.unscopedRest spec0 c (fun b => W1 m c (Proc.devRef .tc b)))
    (hX := fun c => by
      show (Pipeline.unscopedRestP Pipeline.Prefetch.none spec0 c (V m c) : sProp 𝕄) ⊢ _
      rw [Pipeline.unscopedRestP_none]
      iintro H; isplitr; · iempintro
      iexact H)
    (hin := fun c => by
      show _ ⊢ (Pipeline.scopedRest spec0 c : sProp 𝕄)
      iintro ⟨-, -, HR⟩; iexact HR)
    (hout := fun c => by
      show (Pipeline.scopedRest spec0 c : sProp 𝕄) ⊢ _
      iintro HR; isplitr; · iempintro
      iexact HR)
    (htail := htail m)
    (QY := fun c s => ∀ b ∈ Pipeline.restRefs sig spec0, s.mem ((c.tc : Thread nD τ).loc b) = W1 m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => W1 m c (Proc.devRef .tc b)) s')
      isplitl [HU] <;> iassumption)
    (hQ := fun s h c => ⟨(h c).1, (h c).2.2⟩)

end Cert.Kernel.Body

end
-- ==== Proof.KFrame.lean ====
/-
  The frame of the program as printed: it runs to the end, nothing faulting, and its two argument arrays end as they began.
  The embedding matrix is an input array of the call (its final contents are its entry contents, which the reshapes before the
  call did not touch); the label vector bypasses the call, and no host line writes it.
-/
import proofs.«175013_j38981123178915_2_alg».proof.Proof.KLaunch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes before the call write only their own results. -/
theorem pre_keeps (b : Ref sig .tc) (h0 : b ≠ main_v0) (h1 : b ≠ main_v1) :
    ∀ op ∈ (List.flatten [hostOps0 (F := F)]), Proc.devRef .tc b ∉ op.writes := by
  intro op hop
  simp only [List.flatten_cons, List.flatten_nil, List.append_nil, hostOps0, List.mem_cons, List.mem_nil_iff, _root_.or_false] at hop
  rcases hop with rfl | rfl <;> simp only [StableHlo.reshape_writes, Finset.mem_singleton]
  · exact StableHlo.devRef_ne_of_ne h0
  · exact StableHlo.devRef_ne_of_ne h1

/-- So every other buffer is, at the call's entry, as launched. -/
theorem V_keep (c : Dev nD) (b : Ref sig .tc) (h0 : b ≠ main_v0) (h1 : b ≠ main_v1) : V m c b = m ((c : Thread nD τ).loc b) := by
  show StableHlo.after (List.flatten [hostOps0 (F := F)]) (fun b => m (c, b)) (Proc.devRef .tc b) = _
  rw [StableHlo.after_of_forall_not_mem _ _ (pre_keeps b h0 h1)]

/-- The label vector after the host lines that follow the call: as launched. -/
theorem W1_arg1 (c : Dev nD) : W1 m c (Proc.devRef .tc main_arg1) = m ((c : Thread nD τ).loc main_arg1) := by
  show StableHlo.after (tailOps (F := F)).flatten (W0 m c) (Proc.devRef .tc main_arg1) = _
  rw [StableHlo.after_of_forall_not_mem _ _ (tail_keeps main_arg1 (.inr (.inr rfl))), W0_rest m c main_arg1 (by decide) (by decide)]
  exact V_keep m c main_arg1 (by decide) (by decide)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_keep m c main_arg0 (by decide) (by decide)))),
     ((h c).2 main_arg1 (by decide)).trans (W1_arg1 m c)⟩) (run_main m ρ)

end Cert.Kernel.Body

end
-- ==== Proof.KIRun.lean ====
/-
  The kernel body of the idealized program on whole staging buffers, run once.

  One grid point handles a block of 512 anchor rows. The body loads that block of rows and the block's 512 labels, then walks
  the 8192 keys in sixteen chunks of 512 twice: the first walk carries, per anchor row, the least similarity among its
  positives, the greatest among its negatives, and whether it has any positive and any negative; the second walk carries the two
  weighted sums over the selected pairs and whether any pair was selected. Nothing is stored inside either walk: both only
  load chunks of the whole embedding matrix and of the whole label row, so each walk goes through by the invariant "the
  carried value before chunk k" and the two buffers it reads stay as they were. After the walks the body stores one column
  of 512 per-anchor losses into the first output buffer and one column of 512 validity flags into the second; each store
  covers its buffer. What the two buffers end with is found by the run itself, as the list of pieces each was stored with.
-/
import proofs.«175013_j38981123178915_2_alg».proof.Proof.Gen.KernelIdeal.Launch
import proofs.«175013_j38981123178915_2_alg».proof.Proof.Gen.KernelIdeal.Skeleton
import proofs.«175013_j38981123178915_2_alg».proof.Proof.Gen.KernelIdeal.Loops
import proofs.«175013_j38981123178915_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two output buffers are stored with, and the body's triple: holding the four input buffers at their
    contents and the two output buffers at anything, the body runs to the continuation holding the inputs as they were and
    each output buffer with its pieces written. -/
noncomputable def bodyRun (c : Dev nD) (i : grid0.Coords)
    (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (x1 : Vec F S512x128 .f32) (x2 : Vec F S8192x128 .f32) (x3 : Vec F S512x1 .i32) (x4 : Vec F S1x8192 .i32) :
    Σ' (L5 : List (View.Piece (Elt F) S512x1 .f32)), { L6 : List (View.Piece (Elt F) S512x1 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E
              (cc0__loss_kernel i arg1 harg1 arg2 harg2 arg3 harg3 arg4 harg4 arg5 harg5 arg6 harg6) K } := by
  refine ⟨?_, ?_, fun E K => ?run⟩
  case run =>
    simp only [cc0__loss_kernel_eq_skeleton]; unfold cc0__loss_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2
    obtain rfl := harg3.eq_unread hf3; obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

end Cert.KernelIdeal.Body

end
-- ==== Proof.KIData.lean ====
/-
  The proof data of the one pipelined call of the idealized program, and its body obligation.

  The grid has sixteen points; point t stages rows [512 t, 512 t + 512) of the embedding matrix and of the label column, and,
  once, the whole embedding matrix and the whole label row (those two windows are fetched at the first point only and found
  again, unchanged, at every later point, because the body only reads them). The embedding matrix is handed to the call
  twice, so the two input windows on it each hold half of the share of that one array; an input array is never written, so
  nothing is lost by that. After the body at point t each input buffer holds the block it held before, and each of the
  two output buffers holds what the body's run stored into it, read back: the stores cover the buffer, so what was there
  before does not matter.
-/
import proofs.«175013_j38981123178915_2_alg».proof.Proof.KIRun
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call is entered, and the windows' blocks -/

/-- Core c's buffer contents when the call is entered: the launch contents after the two reshapes of the labels. -/
abbrev V0 (c : Dev nD) : Valuation τ sig (Elt F) := StableHlo.after (List.flatten [hostOps0 (F := F)]) (fun b => m (c, b))
/-- The same read at a TensorCore reference. -/
abbrev V (c : Dev nD) (b : Ref sig .tc) : Buf (Elt F) ((c : Thread nD τ).loc b) := V0 m c (Proc.devRef .tc b)

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched window's
    block index has not moved), for any proof data whose array is the entry contents and whose body leaves the block in
    place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)

/-! ## What the body leaves in the two output buffers -/

/-- A whole view of the outputs' block shape, to read a piece list back through. -/
abbrev VO : View sig .tc .vmem S512x1 .f32 := (Memref.whole cc0_stg4_0 : Memref sig .tc .vmem S512x1 .f32).view

/-- The per-anchor losses of block t: the first output's pieces read back over junk. -/
def out4 (c : Dev nD) (t : Fin cfg0.N) : Vec F S512x1 .f32 :=
  VO.read (Elt F) (VO.writes (Elt F) VO.junk (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).1)
/-- The validity flags of block t: the second output's pieces read back over junk. -/
def out5 (c : Dev nD) (t : Fin cfg0.N) : Vec F S512x1 .f32 :=
  VO.read (Elt F) (VO.writes (Elt F) VO.junk (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.1)

/-- The one store into each output buffer is of the whole buffer, so the pieces cover it. -/
theorem cover4 (c : Dev nD) (t : Fin cfg0.N) (y : S512x1.Idx) :
    ∃ pc ∈ (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).1, y ∈ pc.1.set :=
  View.cover_of_tiledL (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).1 S512x1.size (by sl_kernel_rfl) y
theorem cover5 (c : Dev nD) (t : Fin cfg0.N) (y : S512x1.Idx) :
    ∃ pc ∈ (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.1, y ∈ pc.1.set :=
  View.cover_of_tiledL (bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.1 S512x1.size (by sl_kernel_rfl) y

/-! ## The proof data -/

/-- The proof data on core c: the arrays as the call finds them; after the body at point t each input buffer at its block,
    each output buffer at what the run stored; the invariant is the scoped rest (here nothing), untouched;
    nothing owed; the two windows on the embedding matrix hold the two halves of its share, every other window the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = out4 m c t := by dsimp only [dats]
theorem after_5 (c : Dev nD) (t : Fin cfg0.N) : (dats m 0 c).after 5 t = out5 m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the input buffers hold their blocks, so the run applies; the invariant and what the core owes pass
    through unread; each output buffer ends at its pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold out4 out5
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 m c t)
  · unfold owns; iexists _; isplitr
    swap; · iexact H5
    ipureintro; exact View.read_writes_of_cover _ _ _ _ _ (cover5 m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KILaunch.lean ====
/-
  The run of the idealized program: the two reshapes of the labels, the pipelined call, and the host lines after it.

  The call's six windows stand on five arrays: the embedding matrix is behind two input windows. At the call's entry the
  matrix, held whole, is split into the two halves of its share, one per window; an input array is only read, so at the exit
  both halves are still there, at the entry contents. The host lines after the call read the two output arrays and write
  scalars of their own; they touch neither the embedding matrix nor the reshaped labels, so they run holding the two output
  arrays and the buffers that bypass the call, and the halves of the matrix wait beside them. The run ends with every
  window's array at what the write-backs left (an input array: its entry contents) and every bypassing buffer at what the
  host lines computed from the two output arrays.
-/
import proofs.«175013_j38981123178915_2_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The host lines after the call: the two sums, the comparison, the quotient, and the final selection. -/
abbrev tailOps : List (List (HloOp τ sig (Elt F))) := [hostOps1, hostOps1_1]

/-- @main is the reshapes, the call, the lines after it: it reduces to the call continued by those lines, at the contents the
    reshapes leave. -/
theorem hmain : Pipeline.HMainK (Ix := Unit) (Name := ℕ) (U := UR sig nD τ) (Lvl := ℕ) cfgs 0 defs₀ Variants.none m (main (F := F)) (V m)
      (fun _ => Pipeline.chain ((tailOps (F := F)).map StableHlo.seq)) :=
  Pipeline.hmain_around cfgs 0 defs₀ Variants.none m main [hostOps0] tailOps
    (List.forall_iff_forall_mem.mpr fun ops h => by simp only [List.mem_singleton] at h; subst h; exact hostOps0_sub)
    (List.forall_iff_forall_mem.mpr fun ops h => by simp only [List.mem_singleton] at h; subst h; exact hostOps0_fresh)
    (fun c => (main_chain c).trans rfl)

/-! ## The arrays, one by one -/

/-- A buffer whole, at the full share. -/
abbrev pt (c : Dev nD) (b : Ref sig .tc) (f : Buf (Elt F) ((c : Thread nD τ).loc b)) : sProp 𝕄 := ((c : Thread nD τ).loc b) ↦{fullShare} f

/-- The five distinct arrays behind the six windows. -/
theorem arrBufs_eq (c : Dev nD) (Wv : (b : Ref sig .tc) → Buf (Elt F) ((c : Thread nD τ).loc b)) : (Pipeline.arrBufs spec0 c Wv : sProp 𝕄)
    = iprop(pt c main_arg0 (Wv main_arg0) ∗ pt c main_v0 (Wv main_v0) ∗ pt c main_v1 (Wv main_v1) ∗ pt c main_v2_0 (Wv main_v2_0) ∗ pt c main_v2_1 (Wv main_v2_1)) := by
  unfold Pipeline.arrBufs
  rw [bigSep_eq_bigSepL_of_eq [main_arg0, main_v0, main_v1, main_v2_0, main_v2_1] (by decide) (by decide)]
  rfl

/-- The six windows' arrays as the proof data holds them: the embedding matrix at its two half shares. -/
theorem arrays_eq (c : Dev nD) (Fa : (w : Fin cfg0.W) → Buf (Elt F) ((cfg0.win w).arr.view.loc (c.tc : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ pt c main_v0 (Fa 2) ∗ pt c main_v1 (Fa 3) ∗ pt c main_v2_0 (Fa 4) ∗ pt c main_v2_1 (Fa 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- At the entry the embedding matrix, held whole, is shared between its two windows. -/
theorem hsplit (c : Dev nD) : (Pipeline.arrBufs spec0 c (V m c) : sProp 𝕄) ⊢ (dats m 0 c).arrays ((dats m 0 c).arrAt · 0) := by
  rw [arrBufs_eq, arrays_eq]
  iintro ⟨H0, H2, H3, H4, H5⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  isplitl [H4]; · iexact H4
  iexact H5

/-! ## The host lines after the call -/

/-- The buffers those lines touch: the two output arrays and the buffers that bypass the call. -/
abbrev tailBufs : Finset (DevRef τ sig) := {Proc.devRef .tc main_v2_0, Proc.devRef .tc main_v2_1, Proc.devRef .tc main_arg1, Proc.devRef .tc main_cst, Proc.devRef .tc main_v3, Proc.devRef .tc main_cst_0, Proc.devRef .tc main_v4, Proc.devRef .tc main_cst_1, Proc.devRef .tc main_v5, Proc.devRef .tc main_cst_2, Proc.devRef .tc main_v6, Proc.devRef .tc main_v7, Proc.devRef .tc main_cst_3, Proc.devRef .tc main_v8}

theorem tailBufs_eq (c : Dev nD) (Wv : Valuation τ sig (Elt F)) : (StableHlo.held (c : Thread nD τ) tailBufs Wv : sProp 𝕄)
    = iprop(pt c main_v2_0 (Wv (Proc.devRef .tc main_v2_0)) ∗ pt c main_v2_1 (Wv (Proc.devRef .tc main_v2_1)) ∗ pt c main_arg1 (Wv (Proc.devRef .tc main_arg1)) ∗ pt c main_cst (Wv (Proc.devRef .tc main_cst)) ∗ pt c main_v3 (Wv (Proc.devRef .tc main_v3)) ∗ pt c main_cst_0 (Wv (Proc.devRef .tc main_cst_0)) ∗ pt c main_v4 (Wv (Proc.devRef .tc main_v4)) ∗ pt c main_cst_1 (Wv (Proc.devRef .tc main_cst_1)) ∗ pt c main_v5 (Wv (Proc.devRef .tc main_v5)) ∗ pt c main_cst_2 (Wv (Proc.devRef .tc main_cst_2)) ∗ pt c main_v6 (Wv (Proc.devRef .tc main_v6)) ∗ pt c main_v7 (Wv (Proc.devRef .tc main_v7)) ∗ pt c main_cst_3 (Wv (Proc.devRef .tc main_cst_3)) ∗ pt c main_v8 (Wv (Proc.devRef .tc main_v8))) := by
  unfold StableHlo.held
  rw [bigSep_eq_bigSepL_of_eq [Proc.devRef .tc main_v2_0, Proc.devRef .tc main_v2_1, Proc.devRef .tc main_arg1, Proc.devRef .tc main_cst, Proc.devRef .tc main_v3, Proc.devRef .tc main_cst_0, Proc.devRef .tc main_v4, Proc.devRef .tc main_cst_1, Proc.devRef .tc main_v5, Proc.devRef .tc main_cst_2, Proc.devRef .tc main_v6, Proc.devRef .tc main_v7, Proc.devRef .tc main_cst_3, Proc.devRef .tc main_v8] (by decide) (by decide)]
  rfl

theorem tail_sub : ∀ ops ∈ (tailOps (F := F)), ∀ op ∈ ops, op.bufs ⊆ tailBufs := by
  intro ops hops op hop b hb
  simp only [tailOps, List.mem_cons, List.mem_nil_iff, _root_.or_false] at hops
  rcases hops with rfl | rfl
  · simp only [hostOps1, List.mem_cons, List.mem_nil_iff, _root_.or_false] at hop
    rcases hop with rfl | rfl | rfl | rfl | rfl | rfl | rfl | rfl | rfl | rfl <;>
      simp only [StableHlo.nullary_bufs, StableHlo.binary_bufs, Finset.mem_insert, Finset.mem_singleton] at hb <;>
      first | (subst hb; decide) | (rcases hb with rfl | rfl | rfl <;> decide)
  · simp only [hostOps1_1, List.mem_cons, List.mem_nil_iff, _root_.or_false] at hop
    subst hop
    have hb' : b ∈ ({Proc.devRef .tc main_v5, Proc.devRef .tc main_v7, Proc.devRef .tc main_cst_3, Proc.devRef .tc main_v8} : Finset (DevRef τ sig)) := hb
    simp only [Finset.mem_insert, Finset.mem_singleton] at hb'
    rcases hb' with rfl | rfl | rfl | rfl <;> decide

theorem tail_fresh : ∀ ops ∈ (tailOps (F := F)), ∀ op ∈ ops, op.fresh = ∅ := by
  intro ops hops op hop
  simp only [tailOps, List.mem_cons, List.mem_nil_iff, _root_.or_false] at hops
  rcases hops with rfl | rfl
  · exact (List.forall_iff_forall_mem.mp hostOps1_fresh) op hop
  · exact (List.forall_iff_forall_mem.mp hostOps1_1_fresh) op hop

/-- No line after the call writes an output array of the call. -/
theorem tail_keeps (b : Ref sig .tc) (hb : b = main_v2_0 ∨ b = main_v2_1 ∨ b = main_arg1) : ∀ op ∈ (tailOps (F := F)).flatten, Proc.devRef .tc b ∉ op.writes := by
  intro op hop
  simp only [tailOps, List.flatten_cons, List.flatten_nil, List.append_nil, hostOps1, hostOps1_1, List.cons_append, List.nil_append,
    List.mem_cons, List.mem_nil_iff, _root_.or_false] at hop
  rcases hb with rfl | rfl | rfl <;> rcases hop with rfl | rfl | rfl | rfl | rfl | rfl | rfl | rfl | rfl | rfl | rfl <;>
    first
    | (simp only [StableHlo.nullary_writes, StableHlo.binary_writes, Finset.mem_singleton]; exact StableHlo.devRef_ne_of_ne (by decide))
    | (show ¬ _ ∈ ({Proc.devRef .tc main_v8} : Finset (DevRef τ sig)); simp only [Finset.mem_singleton]; exact StableHlo.devRef_ne_of_ne (by decide))

/-- The buffer contents when the call returns: as it found them, but for the two output arrays; -/
abbrev W0 (c : Dev nD) : Valuation τ sig (Elt F) :=
  Function.update (Function.update (V0 m c) (Proc.devRef .tc main_v2_0) ((dats m 0 c).arrAt 4 cfg0.N)) (Proc.devRef .tc main_v2_1) ((dats m 0 c).arrAt 5 cfg0.N)
/-- and after the host lines that follow. -/
abbrev W1 (c : Dev nD) : Valuation τ sig (Elt F) := StableHlo.after (tailOps (F := F)).flatten (W0 m c)

theorem W0_out5 (c : Dev nD) : W0 m c (Proc.devRef .tc main_v2_1) = (dats m 0 c).arrAt 5 cfg0.N := Function.update_self ..
theorem W0_out4 (c : Dev nD) : W0 m c (Proc.devRef .tc main_v2_0) = (dats m 0 c).arrAt 4 cfg0.N := by
  unfold W0; rw [Function.update_of_ne (StableHlo.devRef_ne_of_ne (by decide))]; exact Function.update_self ..
theorem W0_rest (c : Dev nD) (b : Ref sig .tc) (h4 : b ≠ main_v2_0) (h5 : b ≠ main_v2_1) : W0 m c (Proc.devRef .tc b) = V m c b := by
  unfold W0; rw [Function.update_of_ne (StableHlo.devRef_ne_of_ne h5), Function.update_of_ne (StableHlo.devRef_ne_of_ne h4)]
theorem W1_out4 (c : Dev nD) : StableHlo.after (tailOps (F := F)).flatten (W0 m c) (Proc.devRef .tc main_v2_0) = (dats m 0 c).arrAt 4 cfg0.N := by
  rw [StableHlo.after_of_forall_not_mem _ _ (tail_keeps main_v2_0 (.inl rfl)), W0_out4]
theorem W1_out5 (c : Dev nD) : StableHlo.after (tailOps (F := F)).flatten (W0 m c) (Proc.devRef .tc main_v2_1) = (dats m 0 c).arrAt 5 cfg0.N := by
  rw [StableHlo.after_of_forall_not_mem _ _ (tail_keeps main_v2_1 (.inr (.inl rfl))), W0_out5]

/-- The call's two output arrays and the bypassing buffers, at the exit contents, are what the lines after the call hold; -/
theorem tail_fwd (c : Dev nD) : (iprop(pt c main_v2_0 ((dats m 0 c).arrAt 4 cfg0.N) ∗ pt c main_v2_1 ((dats m 0 c).arrAt 5 cfg0.N) ∗ pt c main_arg1 (V m c main_arg1) ∗ pt c main_cst (V m c main_cst) ∗ pt c main_v3 (V m c main_v3) ∗ pt c main_cst_0 (V m c main_cst_0) ∗ pt c main_v4 (V m c main_v4) ∗ pt c main_cst_1 (V m c main_cst_1) ∗ pt c main_v5 (V m c main_v5) ∗ pt c main_cst_2 (V m c main_cst_2) ∗ pt c main_v6 (V m c main_v6) ∗ pt c main_v7 (V m c main_v7) ∗ pt c main_cst_3 (V m c main_cst_3) ∗ pt c main_v8 (V m c main_v8)) : sProp 𝕄) ⊢ StableHlo.held (c : Thread nD τ) tailBufs (W0 m c) := by
  rw [tailBufs_eq, W0_out4, W0_out5, W0_rest m c main_arg1 (by decide) (by decide), W0_rest m c main_cst (by decide) (by decide), W0_rest m c main_v3 (by decide) (by decide), W0_rest m c main_cst_0 (by decide) (by decide), W0_rest m c main_v4 (by decide) (by decide), W0_rest m c main_cst_1 (by decide) (by decide), W0_rest m c main_v5 (by decide) (by decide), W0_rest m c main_cst_2 (by decide) (by decide), W0_rest m c main_v6 (by decide) (by decide), W0_rest m c main_v7 (by decide) (by decide), W0_rest m c main_cst_3 (by decide) (by decide), W0_rest m c main_v8 (by decide) (by decide)]
/-- and what they hold afterwards is the two output arrays as they were and the bypassing buffers at what the lines computed. -/
theorem tail_back (c : Dev nD) : (StableHlo.held (c : Thread nD τ) tailBufs (StableHlo.after (tailOps (F := F)).flatten (W0 m c)) : sProp 𝕄)
    ⊢ iprop(pt c main_v2_0 ((dats m 0 c).arrAt 4 cfg0.N) ∗ pt c main_v2_1 ((dats m 0 c).arrAt 5 cfg0.N) ∗ pt c main_arg1 (W1 m c (Proc.devRef .tc main_arg1)) ∗ pt c main_cst (W1 m c (Proc.devRef .tc main_cst)) ∗ pt c main_v3 (W1 m c (Proc.devRef .tc main_v3)) ∗ pt c main_cst_0 (W1 m c (Proc.devRef .tc main_cst_0)) ∗ pt c main_v4 (W1 m c (Proc.devRef .tc main_v4)) ∗ pt c main_cst_1 (W1 m c (Proc.devRef .tc main_cst_1)) ∗ pt c main_v5 (W1 m c (Proc.devRef .tc main_v5)) ∗ pt c main_cst_2 (W1 m c (Proc.devRef .tc main_cst_2)) ∗ pt c main_v6 (W1 m c (Proc.devRef .tc main_v6)) ∗ pt c main_v7 (W1 m c (Proc.devRef .tc main_v7)) ∗ pt c main_cst_3 (W1 m c (Proc.devRef .tc main_cst_3)) ∗ pt c main_v8 (W1 m c (Proc.devRef .tc main_v8))) := by
  rw [tailBufs_eq, W1_out4, W1_out5]

set_option backward.isDefEq.respectTransparency.types false in
/-- From the call's exit — the arrays as the write-backs left them, the bypassing buffers as the call found them — the lines
    after it run, and hand back the arrays as they were and the bypassing buffers at what the lines computed. -/
theorem htail (c : Dev nD) (Q' : PUnit → sProp 𝕄) :
    iprop((iprop((dats m 0 c).arrays ((dats m 0 c).arrAt · cfg0.N) ∗ Pipeline.unscopedRest spec0 c (fun b => W1 m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => Cfg.toPCfg (Val := Elt F) (cfgs q)) (defs₀ (F := F))) (Variants.lift Variants.none) (c.tc : Thread nD τ) none) Set.univ
          (Pipeline.chain ((tailOps (F := F)).map StableHlo.seq)) Q' := by
  rw [arrays_eq, unscopedRest0_eq, unscopedRest0_eq]
  iintro ⟨Hk, Hb, ⟨Ha0, Ha1, Ha2, Ha3, Ha4, Ha5⟩, ⟨R0, R1, R2, R3, R4, R5, R6, R7, R8, R9, R10, R11⟩⟩
  rw [← List.append_nil ((tailOps (F := F)).map StableHlo.seq)]
  iapply (Pipeline.wp_seqs_then (fun q => Cfg.toPCfg (Val := Elt F) (cfgs q)) (defs₀ (F := F)) Variants.none c tailBufs [] tailOps tail_sub tail_fresh (W0 m c)) $$ [Hb Ha4 Ha5 R0 R1 R2 R3 R4 R5 R6 R7 R8 R9 R10 R11]
  · isplitl [Hb]; · iexact Hb
    iapply (tail_fwd m c)
    isplitl [Ha4]; · iexact Ha4
    isplitl [Ha5]; · iexact Ha5
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iintro ⟨Hb, Hh⟩
  rw [Pipeline.chain_nil, wp_pure]
  ihave Hh2 := (tail_back m c) $$ Hh
  icases Hh2 with ⟨Ha4, Ha5, R0, R1, R2, R3, R4, R5, R6, R7, R8, R9, R10, R11⟩
  imodintro
  iapply Hk
  isplitl [Ha0 Ha1 Ha2 Ha3 Ha4 Ha5]
  · isplitl [Ha0]; · iexact Ha0
    isplitl [Ha1]; · iexact Ha1
    isplitl [Ha2]; · iexact Ha2
    isplitl [Ha3]; · iexact Ha3
    isplitl [Ha4]; · iexact Ha4
    iexact Ha5
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

/-! ## The run -/

/-- What the run ends with: every window's array at what the write-backs left, every bypassing buffer at what the lines
    after the call computed. -/
def RunPost (r : PUnit × MemSt nD τ sig (Elt F)) : Prop := ∀ c : Dev nD,
  (∀ w : Fin cfg0.W, r.2.mem ((cfg0.win w).arr.view.loc (c.tc : Thread nD τ)) = (dats m 0 c).arrAt w cfg0.N)
  ∧ (∀ b ∈ Pipeline.restRefs sig spec0, r.2.mem ((c.tc : Thread nD τ).loc b) = W1 m c (Proc.devRef .tc b))

set_option backward.isDefEq.respectTransparency.types false in
/-- At the compiled mesh, for any float values, from any memory with zero counters: every weakly fair execution of @main
    terminates, nothing faulting, and ends as `RunPost` says. -/
theorem run_main : θ_run defs (onTc (τ := τ) (main (F := F))) ⟨m, fun _ => 0, ρ⟩ (RunPost m) :=
  Pipeline.θ_run_region_noSem_pf_tail (fun q => Cfg.toPCfg (Val := Elt F) (cfgs q)) (fun q => (cfgs q).toPCfg_adm) (dats m) () cellOf_inj (0 : Fin 1)
    winFacts₀0 (Pipeline.PreFacts.none _) emb₁ defs₀ Variants.none m ρ main (fun _ => Pipeline.chain ((tailOps (F := F)).map StableHlo.seq))
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest spec0 c (V m c)) (Z' := fun c => Pipeline.unscopedRest spec0 c (fun b => W1 m c (Proc.devRef .tc b)))
    (hX := fun c => by
      show (Pipeline.unscopedRestP Pipeline.Prefetch.none spec0 c (V m c) : sProp 𝕄) ⊢ _
      rw [Pipeline.unscopedRestP_none]
      iintro H; isplitr; · iempintro
      iexact H)
    (hin := fun c => by
      show _ ⊢ (Pipeline.scopedRest spec0 c : sProp 𝕄)
      iintro ⟨-, -, HR⟩; iexact HR)
    (hout := fun c => by
      show (Pipeline.scopedRest spec0 c : sProp 𝕄) ⊢ _
      iintro HR; isplitr; · iempintro
      iexact HR)
    (htail := htail m)
    (QY := fun c s => ∀ b ∈ Pipeline.restRefs sig spec0, s.mem ((c.tc : Thread nD τ).loc b) = W1 m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => W1 m c (Proc.devRef .tc b)) s')
      isplitl [HU] <;> iassumption)
    (hQ := fun s h c => ⟨(h c).1, (h c).2.2⟩)

end Cert.KernelIdeal.Body

end
-- ==== Proof.KIFrame.lean ====
/-
  The frame of the idealized program: it runs to the end, nothing faulting, and its two argument arrays end as they began.
  The embedding matrix is an input array of the call (its final contents are its entry contents, which the reshapes before the
  call did not touch); the label vector bypasses the call, and no host line writes it.
-/
import proofs.«175013_j38981123178915_2_alg».proof.Proof.KILaunch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes before the call write only their own results. -/
theorem pre_keeps (b : Ref sig .tc) (h0 : b ≠ main_v0) (h1 : b ≠ main_v1) :
    ∀ op ∈ (List.flatten [hostOps0 (F := F)]), Proc.devRef .tc b ∉ op.writes := by
  intro op hop
  simp only [List.flatten_cons, List.flatten_nil, List.append_nil, hostOps0, List.mem_cons, List.mem_nil_iff, _root_.or_false] at hop
  rcases hop with rfl | rfl <;> simp only [StableHlo.reshape_writes, Finset.mem_singleton]
  · exact StableHlo.devRef_ne_of_ne h0
  · exact StableHlo.devRef_ne_of_ne h1

/-- So every other buffer is, at the call's entry, as launched. -/
theorem V_keep (c : Dev nD) (b : Ref sig .tc) (h0 : b ≠ main_v0) (h1 : b ≠ main_v1) : V m c b = m ((c : Thread nD τ).loc b) := by
  show StableHlo.after (List.flatten [hostOps0 (F := F)]) (fun b => m (c, b)) (Proc.devRef .tc b) = _
  rw [StableHlo.after_of_forall_not_mem _ _ (pre_keeps b h0 h1)]

/-- The label vector after the host lines that follow the call: as launched. -/
theorem W1_arg1 (c : Dev nD) : W1 m c (Proc.devRef .tc main_arg1) = m ((c : Thread nD τ).loc main_arg1) := by
  show StableHlo.after (tailOps (F := F)).flatten (W0 m c) (Proc.devRef .tc main_arg1) = _
  rw [StableHlo.after_of_forall_not_mem _ _ (tail_keeps main_arg1 (.inr (.inr rfl))), W0_rest m c main_arg1 (by decide) (by decide)]
  exact V_keep m c main_arg1 (by decide) (by decide)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_keep m c main_arg0 (by decide) (by decide)))),
     ((h c).2 main_arg1 (by decide)).trans (W1_arg1 m c)⟩) (run_main m ρ)

end Cert.KernelIdeal.Body

end
-- ==== Proof.KIFold.lean ====
/-
  The arithmetic of one grid point of the idealized kernel, as a pure function of four blocks: the point's 512 rows v0 of the
  embedding matrix, its 512 labels v1, the whole matrix x2 and the whole label row x4.

  The keys are walked in sixteen chunks of 512. The first walk carries, from (+∞, −∞, no, no), per anchor row: the least
  similarity among positives so far, the greatest among negatives so far, whether a positive was seen, whether a negative was
  seen. The second walk, given the first walk's two extremes, carries from (0, 0, no, no): the weighted sum over selected
  positives so far, that over selected negatives so far, whether a positive was selected, whether a negative was selected.
  One step of either walk is the kernel's own arithmetic on the chunk (the payload terms of the generated skeleton); the
  point's two outputs are the kernel's final arithmetic on what the two walks end with.
-/
import proofs.«175013_j38981123178915_2_alg».proof.Proof.Gen.KernelIdeal.Skeleton
import Idealize.ShloMosaic.Lib.ValueIdx

noncomputable section

namespace Cert.KernelIdeal.Fold

open Cert.KernelIdeal Cert.KernelIdeal.Gen
open Idealize.ShloMosaic Idealize.ShloMosaic.ValueIdx

variable {F : FTy → Type} [FloatOps F]

/-- Rows [512 k, 512 k + 512) of a matrix of 8192 rows. -/
def xchunk (x2 : Vec F S8192x128 .f32) (k : Fin 16) : Vec F S512x128 .f32 :=
  fun y => x2 (ix2 (⟨512 * k.val + (y 0).val, by have := idx2_lt0 y; have := k.isLt; omega⟩ : Fin 8192) (⟨(y 1).val, idx2_lt1 y⟩ : Fin 128))
/-- Entries [512 k, 512 k + 512) of a row of 8192 labels. -/
def tchunk (x4 : Vec F S1x8192 .i32) (k : Fin 16) : Vec F S1x512 .i32 :=
  fun y => x4 (ix2 (0 : Fin 1) (⟨512 * k.val + (y 1).val, by have := idx2_lt1 y; have := k.isLt; omega⟩ : Fin 8192))

/-- Labels [512 t, 512 t + 512) of a label vector, as the column the point stages; the whole vector as the row it stages. -/
def lblBlock (tg : IVec S8192 32) (t : Fin 16) : Vec F S512x1 .i32 :=
  fun y => tg (ix1 (⟨512 * t.val + (y 0).val, by have := idx2_lt0 y; have := t.isLt; omega⟩ : Fin 8192))
def lblRow (tg : IVec S8192 32) : Vec F S1x8192 .i32 :=
  fun y => tg (ix1 (⟨(y 1).val, idx2_lt1 y⟩ : Fin 8192))

/-- What a walk carries: two columns of 512 floats and two columns of 512 bits. -/
abbrev Carry (F : FTy → Type) [FloatOps F] : Type := FVec F S512x1 .f32 × FVec F S512x1 .f32 × IVec S512x1 1 × IVec S512x1 1

/-- One step of the first walk on a chunk (xc, tc). -/
def step1 (v0 : Vec F S512x128 .f32) (v1 : Vec F S512x1 .i32) (xc : Vec F S512x128 .f32) (tc : Vec F S1x512 .i32) (a : Carry F) : Carry F :=
  (k0_pay5 v0 (k0_pay15 (F := F) v1) a.1 xc tc, k0_pay6 v0 (k0_pay15 (F := F) v1) a.2.1 xc tc,
   k0_pay7 v0 (k0_pay15 (F := F) v1) a.2.2.1 xc tc, k0_pay20 a.2.2.2 (k0_pay8 (k0_pay15 (F := F) v1) tc))

/-- The first walk before chunk k. -/
def carry1 (v0 : Vec F S512x128 .f32) (v1 : Vec F S512x1 .i32) (x2 : Vec F S8192x128 .f32) (x4 : Vec F S1x8192 .i32) : ℕ → Carry F
  | 0 => (k0_pay16 (F := F), k0_pay17 (F := F), k0_pay18, k0_pay19)
  | k + 1 => if h : k < 16 then step1 v0 v1 (xchunk x2 ⟨k, h⟩) (tchunk x4 ⟨k, h⟩) (carry1 v0 v1 x2 x4 k) else carry1 v0 v1 x2 x4 k

/-- One step of the second walk on a chunk, given the first walk's two extremes lo (least positive) and hi (greatest negative). -/
def step2 (v0 : Vec F S512x128 .f32) (v1 : Vec F S512x1 .i32) (lo hi : FVec F S512x1 .f32) (xc : Vec F S512x128 .f32) (tc : Vec F S1x512 .i32)
    (a : Carry F) : Carry F :=
  (k0_pay13 v0 (k0_pay15 (F := F) v1) hi a.1 xc tc, k0_pay25 a.2.1 (k0_pay14 v0 (k0_pay15 (F := F) v1) lo xc tc),
   k0_pay26 (F := F) a.2.2.1 (k0_pay12 v0 (k0_pay15 (F := F) v1) hi xc tc), k0_pay27 (F := F) a.2.2.2 (k0_pay11 v0 (k0_pay15 (F := F) v1) lo xc tc))

/-- The second walk before chunk k. -/
def carry2 (v0 : Vec F S512x128 .f32) (v1 : Vec F S512x1 .i32) (lo hi : FVec F S512x1 .f32) (x2 : Vec F S8192x128 .f32) (x4 : Vec F S1x8192 .i32) :
    ℕ → Carry F
  | 0 => (k0_pay21 (F := F), k0_pay22 (F := F), k0_pay23, k0_pay24)
  | k + 1 => if h : k < 16 then step2 v0 v1 lo hi (xchunk x2 ⟨k, h⟩) (tchunk x4 ⟨k, h⟩) (carry2 v0 v1 lo hi x2 x4 k) else carry2 v0 v1 lo hi x2 x4 k

/-- The point's first output: the 512 per-anchor losses. -/
def blockLoss (v0 : Vec F S512x128 .f32) (v1 : Vec F S512x1 .i32) (x2 : Vec F S8192x128 .f32) (x4 : Vec F S1x8192 .i32) : FVec F S512x1 .f32 :=
  let a := carry1 v0 v1 x2 x4 16
  let b := carry2 v0 v1 a.1 a.2.1 x2 x4 16
  k0_pay29 a.2.2.1 a.2.2.2 b.1 b.2.1 b.2.2.1 b.2.2.2
/-- The point's second output: the 512 validity flags. -/
def blockValid (v0 : Vec F S512x128 .f32) (v1 : Vec F S512x1 .i32) (x2 : Vec F S8192x128 .f32) (x4 : Vec F S1x8192 .i32) : FVec F S512x1 .f32 :=
  let a := carry1 v0 v1 x2 x4 16
  let b := carry2 v0 v1 a.1 a.2.1 x2 x4 16
  k0_pay30 (F := F) a.2.2.1 a.2.2.2 b.2.2.1 b.2.2.2

end Cert.KernelIdeal.Fold

end
-- ==== Proof.KIOpen.lean ====
/-
  The body's run, opened: what the run found is the pure description of the point's arithmetic.

  A load of chunk k of the whole embedding matrix through the staging buffer is rows [512 k, 512 k + 512) of the matrix, and
  likewise for the label row; so one trip of either walk, as the run found it, is one step of the pure walk, the carried
  value before trip k is the pure walk before chunk k, and the two outputs are the pure outputs on the point's four blocks.
-/
import proofs.«175013_j38981123178915_2_alg».proof.Proof.KIData
import proofs.«175013_j38981123178915_2_alg».proof.Proof.KIFold
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Fold Idealize.ShloMosaic.ValueIdx

/-! ## The chunk offsets in closed form -/

theorem trips1 : k0_t1_loop.trips = 16 := by decide
theorem trips2 : k0_t2_loop.trips = 16 := by decide
theorem off1_eq : ∀ k : Fin k0_t1_loop.trips, k0_off1 k = ![512 * k.val, 0] := by decide +kernel
theorem off2_eq : ∀ k : Fin k0_t1_loop.trips, k0_off2 k = ![0, 512 * k.val] := by decide +kernel
theorem off3_eq : ∀ k : Fin k0_t2_loop.trips, k0_off3 k = ![512 * k.val, 0] := by decide +kernel
theorem off4_eq : ∀ k : Fin k0_t2_loop.trips, k0_off4 k = ![0, 512 * k.val] := by decide +kernel

/-! ## A chunk load is the chunk -/

theorem loadX (off : Fin 2 → Nat) (inb : ∀ a, off a + S512x128.size a ≤ S8192x128.size a) (k : Fin 16) (hoff : off = ![512 * k.val, 0])
    {arg2 : Memref sig .tc .vmem S8192x128 .f32} (harg2 : arg2.IsWhole) (x2 : Vec F S8192x128 .f32) :
    View.readAt (Elt F) arg2.view (Rect.unit (s := S8192x128) off S512x128.size inb).toLoadRect (harg2.unread x2) = xchunk x2 k := by
  subst hoff
  rw [View.readAt_eq_ld, harg2.read_unread]
  funext y
  unfold xchunk
  show x2 _ = x2 _
  congr 1
  funext a; apply Fin.ext
  match a with
  | ⟨0, _⟩ => show 512 * k.val + 1 * (y 0).val = 512 * k.val + (y 0).val; omega
  | ⟨1, _⟩ => show 0 + 1 * (y 1).val = (y 1).val; omega

theorem loadT (off : Fin 2 → Nat) (inb : ∀ a, off a + S1x512.size a ≤ S1x8192.size a) (k : Fin 16) (hoff : off = ![0, 512 * k.val])
    {arg4 : Memref sig .tc .vmem S1x8192 .i32} (harg4 : arg4.IsWhole) (x4 : Vec F S1x8192 .i32) :
    View.readAt (Elt F) arg4.view (Rect.unit (s := S1x8192) off S1x512.size inb).toLoadRect (harg4.unread x4) = tchunk x4 k := by
  subst hoff
  rw [View.readAt_eq_ld, harg4.read_unread]
  funext y
  unfold tchunk
  show x4 _ = x4 _
  congr 1
  funext a; apply Fin.ext
  match a with
  | ⟨0, _⟩ => show 0 + 1 * (y 0).val = (0 : Fin 1).val; have := idx2_lt0 y; omega
  | ⟨1, _⟩ => show 512 * k.val + 1 * (y 1).val = 512 * k.val + (y 1).val; omega

/-! ## One trip is one step -/

theorem trip1_eq (c : Dev nD) (i : grid0.Coords) (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (v0 : Vec F S512x128 .f32) (v1 : Vec F S512x1 .i32) (X2 : BufTy.Contents (Elt F) arg2.view.ty) (X4 : BufTy.Contents (Elt F) arg4.view.ty)
    (k : Fin k0_t1_loop.trips) (acc : Carry F) :
    tripR_k0_t1 (F := F) Variants.none c none i arg1 harg1 arg2 harg2 arg3 harg3 arg4 harg4 arg5 harg5 arg6 harg6 v0 v1 X2 X4 k acc
      = step1 v0 v1 (View.readAt (Elt F) arg2.view (Rect.unit (s := S8192x128) (k0_off1 k) S512x128.size (k0_off1_inb k)).toLoadRect X2)
          (View.readAt (Elt F) arg4.view (Rect.unit (s := S1x8192) (k0_off2 k) S1x512.size (k0_off2_inb k)).toLoadRect X4) acc := by
  unfold tripR_k0_t1 trip_k0_t1
  dsimp only
  sl_unfold_run_names
  rfl

theorem trip2_eq (c : Dev nD) (i : grid0.Coords) (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (v0 : Vec F S512x128 .f32) (v1 : Vec F S512x1 .i32) (lo hi : FVec F S512x1 .f32) (X2 : BufTy.Contents (Elt F) arg2.view.ty) (X4 : BufTy.Contents (Elt F) arg4.view.ty)
    (k : Fin k0_t2_loop.trips) (acc : Carry F) :
    tripR_k0_t2 (F := F) Variants.none c none i arg1 harg1 arg2 harg2 arg3 harg3 arg4 harg4 arg5 harg5 arg6 harg6 v0 v1 lo hi X2 X4 k acc
      = step2 v0 v1 lo hi (View.readAt (Elt F) arg2.view (Rect.unit (s := S8192x128) (k0_off3 k) S512x128.size (k0_off3_inb k)).toLoadRect X2)
          (View.readAt (Elt F) arg4.view (Rect.unit (s := S1x8192) (k0_off4 k) S1x512.size (k0_off4_inb k)).toLoadRect X4) acc := by
  unfold tripR_k0_t2 trip_k0_t2
  dsimp only
  sl_unfold_run_names
  rfl

/-! ## The carried value before trip k is the pure walk before chunk k -/

theorem st1_eq (c : Dev nD) (i : grid0.Coords) (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (v0 : Vec F S512x128 .f32) (v1 : Vec F S512x1 .i32) (x2 : Vec F S8192x128 .f32) (x4 : Vec F S1x8192 .i32) :
    ∀ n, n ≤ 16 → st_k0_t1 (F := F) Variants.none c none i arg1 harg1 arg2 harg2 arg3 harg3 arg4 harg4 arg5 harg5 arg6 harg6 v0 v1 (harg2.unread x2) (harg4.unread x4)
        (k0_pay16 (F := F), k0_pay17 (F := F), k0_pay18, k0_pay19) n = carry1 v0 v1 x2 x4 n := by
  intro n
  induction n with
  | zero => intro _; rfl
  | succ n ih =>
    intro hn
    have hn' : n < 16 := by omega
    have hk : n < k0_t1_loop.trips := by rw [trips1]; exact hn'
    have hs := st_k0_t1_succ (F := F) Variants.none c none i arg1 harg1 arg2 harg2 arg3 harg3 arg4 harg4 arg5 harg5 arg6 harg6 v0 v1 (harg2.unread x2) (harg4.unread x4)
      (k0_pay16 (F := F), k0_pay17 (F := F), k0_pay18, k0_pay19) ⟨n, hk⟩
    rw [show (⟨n, hk⟩ : Fin k0_t1_loop.trips).val + 1 = n + 1 from rfl] at hs
    rw [hs, ih (by omega), trip1_eq, loadX _ _ ⟨n, hn'⟩ (off1_eq ⟨n, hk⟩), loadT _ _ ⟨n, hn'⟩ (off2_eq ⟨n, hk⟩)]
    rw [carry1, dif_pos hn']

theorem st2_eq (c : Dev nD) (i : grid0.Coords) (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (v0 : Vec F S512x128 .f32) (v1 : Vec F S512x1 .i32) (lo hi : FVec F S512x1 .f32) (x2 : Vec F S8192x128 .f32) (x4 : Vec F S1x8192 .i32) :
    ∀ n, n ≤ 16 → st_k0_t2 (F := F) Variants.none c none i arg1 harg1 arg2 harg2 arg3 harg3 arg4 harg4 arg5 harg5 arg6 harg6 v0 v1 lo hi (harg2.unread x2) (harg4.unread x4)
        (k0_pay21 (F := F), k0_pay22 (F := F), k0_pay23, k0_pay24) n = carry2 v0 v1 lo hi x2 x4 n := by
  intro n
  induction n with
  | zero => intro _; rfl
  | succ n ih =>
    intro hn
    have hn' : n < 16 := by omega
    have hk : n < k0_t2_loop.trips := by rw [trips2]; exact hn'
    have hs := st_k0_t2_succ (F := F) Variants.none c none i arg1 harg1 arg2 harg2 arg3 harg3 arg4 harg4 arg5 harg5 arg6 harg6 v0 v1 lo hi (harg2.unread x2) (harg4.unread x4)
      (k0_pay21 (F := F), k0_pay22 (F := F), k0_pay23, k0_pay24) ⟨n, hk⟩
    rw [show (⟨n, hk⟩ : Fin k0_t2_loop.trips).val + 1 = n + 1 from rfl] at hs
    rw [hs, ih (by omega), trip2_eq, loadX _ _ ⟨n, hn'⟩ (off3_eq ⟨n, hk⟩), loadT _ _ ⟨n, hn'⟩ (off4_eq ⟨n, hk⟩)]
    rw [carry2, dif_pos hn']

/-! ## What the run found, and the two outputs -/

theorem zeros2 : (![0, 0] : Fin 2 → Nat) = fun _ => 0 := by funext a; fin_cases a <;> rfl

/-- The point's own rows and labels, loaded whole, are the staging buffers' contents. -/
theorem loadRows {arg1 : Memref sig .tc .vmem S512x128 .f32} (harg1 : arg1.IsWhole) (x1 : Vec F S512x128 .f32) :
    View.readAt (Elt F) arg1.view (Rect.unit (s := S512x128) ![0, 0] S512x128.size inb_S512x128_S512x128_0_0).toLoadRect (harg1.unread x1) = x1 := by
  rw [View.readAt_eq_ld, harg1.read_unread]; exact View.ld_unit_zero zeros2 _ x1
theorem loadLabels {arg3 : Memref sig .tc .vmem S512x1 .i32} (harg3 : arg3.IsWhole) (x3 : Vec F S512x1 .i32) :
    View.readAt (Elt F) arg3.view (Rect.unit (s := S512x1) ![0, 0] S512x1.size inb_S512x1_S512x1_0_0).toLoadRect (harg3.unread x3) = x3 := by
  rw [View.readAt_eq_ld, harg3.read_unread]; exact View.ld_unit_zero zeros2 _ x3

theorem tripsLit : Scf.trips (0#32) (Scalar.addi 0#32 16#32) 1#32 = 16 := by decide

/-- The first output is stored once, whole, with the pure losses of the point's blocks; -/
theorem pieces_loss (c : Dev nD) (i : grid0.Coords) (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (x1 : Vec F S512x128 .f32) (x2 : Vec F S8192x128 .f32) (x3 : Vec F S512x1 .i32) (x4 : Vec F S1x8192 .i32) :
    (bodyRun c i arg1 harg1 arg2 harg2 arg3 harg3 arg4 harg4 arg5 harg5 arg6 harg6 x1 x2 x3 x4).1
      = [⟨Rect.unit (s := S512x1) ![0, 0] S512x1.size inb_S512x1_S512x1_0_0, blockLoss x1 x3 x2 x4⟩] := by
  unfold bodyRun
  dsimp only
  sl_unfold_run_names
  rw [tripsLit, loadRows, loadLabels, st1_eq c i arg1 harg1 arg2 harg2 arg3 harg3 arg4 harg4 arg5 harg5 arg6 harg6 x1 x3 x2 x4 16 le_rfl]
  rw [st2_eq c i arg1 harg1 arg2 harg2 arg3 harg3 arg4 harg4 arg5 harg5 arg6 harg6 x1 x3 _ _ x2 x4 16 le_rfl]
  rfl
/-- and the second with the pure validity flags. -/
theorem pieces_valid (c : Dev nD) (i : grid0.Coords) (arg1 : Memref sig .tc .vmem S512x128 .f32) (harg1 : arg1.IsWhole) (arg2 : Memref sig .tc .vmem S8192x128 .f32) (harg2 : arg2.IsWhole)
    (arg3 : Memref sig .tc .vmem S512x1 .i32) (harg3 : arg3.IsWhole) (arg4 : Memref sig .tc .vmem S1x8192 .i32) (harg4 : arg4.IsWhole)
    (arg5 : Memref sig .tc .vmem S512x1 .f32) (harg5 : arg5.IsWhole) (arg6 : Memref sig .tc .vmem S512x1 .f32) (harg6 : arg6.IsWhole)
    (x1 : Vec F S512x128 .f32) (x2 : Vec F S8192x128 .f32) (x3 : Vec F S512x1 .i32) (x4 : Vec F S1x8192 .i32) :
    (bodyRun c i arg1 harg1 arg2 harg2 arg3 harg3 arg4 harg4 arg5 harg5 arg6 harg6 x1 x2 x3 x4).2.1
      = [⟨Rect.unit (s := S512x1) ![0, 0] S512x1.size inb_S512x1_S512x1_0_0, blockValid x1 x3 x2 x4⟩] := by
  unfold bodyRun
  dsimp only
  sl_unfold_run_names
  rw [tripsLit, loadRows, loadLabels, st1_eq c i arg1 harg1 arg2 harg2 arg3 harg3 arg4 harg4 arg5 harg5 arg6 harg6 x1 x3 x2 x4 16 le_rfl]
  rw [st2_eq c i arg1 harg1 arg2 harg2 arg3 harg3 arg4 harg4 arg5 harg5 arg6 harg6 x1 x3 _ _ x2 x4 16 le_rfl]
  rfl

variable (m : (ℓ : Loc nD τ sig) → Buf (Elt F) ℓ)

/-- After the body at point t the first output buffer holds the pure losses of the point's four blocks, -/
theorem out4_eq [∀ e, Nonempty (Elt F e)] (c : Dev nD) (t : Fin cfg0.N) :
    out4 m c t = blockLoss (iblk m c 0 t) (iblk m c 2 t) (iblk m c 1 t) (iblk m c 3 t) := by
  unfold out4
  rw [View.read_writes_eq_canon _ _ _ (cover4 m c t), pieces_loss]
  exact View.canon_unit_zero zeros2 _ _
/-- and the second the pure validity flags. -/
theorem out5_eq [∀ e, Nonempty (Elt F e)] (c : Dev nD) (t : Fin cfg0.N) :
    out5 m c t = blockValid (iblk m c 0 t) (iblk m c 2 t) (iblk m c 1 t) (iblk m c 3 t) := by
  unfold out5
  rw [View.read_writes_eq_canon _ _ _ (cover5 m c t), pieces_valid]
  exact View.canon_unit_zero zeros2 _ _

end Cert.KernelIdeal.Body

end
-- ==== Proof.Spec.lean ====
/-
  What both programs compute, as one function of the embedding matrix x (8192 rows of 128 extended reals) and the label
  vector (8192 words).

  For anchors i and keys j: the similarity is the inner product of rows i and j; j is a positive of i when the labels agree and
  the similarity is below one, a negative when the labels differ. Per anchor: the least similarity among its positives
  (+∞ if none) and the greatest among its negatives (−∞ if none); a negative is selected when its similarity plus ε exceeds
  that least positive, a positive when its similarity minus ε is below that greatest negative; the anchor is valid when it
  has a positive, a negative, a selected positive and a selected negative. Its loss is log(1 + Σ over selected positives of
  exp(−2 (s − ½))) / 2 + log(1 + Σ over selected negatives of exp(5 (s − ½))) / 5 when valid, else zero. The result is the
  sum of the losses over the number of valid anchors (at least one), or zero when no anchor is valid. The constants are the
  values of the float words the two programs share, kept as those words.
-/
import Idealize.ShloMosaic.PureOps.Ideal
import Idealize.ShloMosaic.Lib.ValueIdx

noncomputable section

namespace Cert.Spec

open Idealize.ShloMosaic Idealize.ShloMosaic.ValueIdx
open scoped BigOperators
open Classical

abbrev SX : Shape := ⟨2, ![8192, 128]⟩
abbrev ST : Shape := ⟨1, ![8192]⟩

/-- The shared float words. -/
def cOne : EReal := Ideal.ofBits .f32 0x3F800000#32
def cEps : EReal := Ideal.ofBits .f32 0x3E4CCCCD#32
def cHalf : EReal := Ideal.ofBits .f32 0x3F000000#32
def cMinusTwo : EReal := Ideal.ofBits .f32 0xC0000000#32
def cFive : EReal := Ideal.ofBits .f32 0x40A00000#32
def cTwo : EReal := Ideal.ofBits .f32 0x40000000#32
def cZero : EReal := Ideal.ofBits .f32 0x00000000#32
def cPosInf : EReal := Ideal.ofBits .f32 0x7F800000#32
def cNegInf : EReal := Ideal.ofBits .f32 0xFF800000#32

variable (x : SX.Idx → EReal) (tg : ST.Idx → BitVec 32)

/-- The inner product of rows i and j. -/
def sim (i j : Fin 8192) : EReal := ∑ k : Fin 128, x (ix2 i k) * x (ix2 j k)
/-- The two labels agree. -/
def same (i j : Fin 8192) : Prop := tg (ix1 i) = tg (ix1 j)
/-- j is a positive of i; a negative of i. -/
def pos (i j : Fin 8192) : Prop := same tg i j ∧ sim x i j < cOne
def neg (i j : Fin 8192) : Prop := ¬ same tg i j
/-- The least similarity among i's positives; the greatest among its negatives. -/
def minPos (i : Fin 8192) : EReal := Finset.univ.inf fun j => if pos x tg i j then sim x i j else cPosInf
def maxNeg (i : Fin 8192) : EReal := Finset.univ.sup fun j => if neg tg i j then sim x i j else cNegInf
/-- The selected negatives and positives. -/
def negSel (i j : Fin 8192) : Prop := neg tg i j ∧ minPos x tg i < sim x i j + cEps
def posSel (i j : Fin 8192) : Prop := pos x tg i j ∧ sim x i j - cEps < maxNeg x tg i
/-- The anchor is valid. -/
def valid (i : Fin 8192) : Prop :=
  (∃ j, pos x tg i j) ∧ (∃ j, neg tg i j) ∧ (∃ j, posSel x tg i j) ∧ (∃ j, negSel x tg i j)
/-- The two weighted sums. -/
def posSum (i : Fin 8192) : EReal := ∑ j, if posSel x tg i j then Ideal.exp (cMinusTwo * (sim x i j - cHalf)) else cZero
def negSum (i : Fin 8192) : EReal := ∑ j, if negSel x tg i j then Ideal.exp (cFive * (sim x i j - cHalf)) else cZero
/-- The anchor's loss, and its validity as a number. -/
def perAnchor (i : Fin 8192) : EReal :=
  if valid x tg i then Ideal.div (Ideal.log1p (posSum x tg i)) cTwo + Ideal.div (Ideal.log1p (negSum x tg i)) cFive else cZero
def validF (i : Fin 8192) : EReal := if valid x tg i then 1 else 0
/-- The count of valid anchors, the sum of the losses, and the result. -/
def count : EReal := ∑ i, validF x tg i
def total : EReal := ∑ i, perAnchor x tg i
def result : EReal := if cZero < count x tg then Ideal.div (total x tg) (max (count x tg) cOne) else cZero

end Cert.Spec

end
-- ==== Proof.KIValue.lean ====
/-
  The idealized kernel's two output arrays as whole functions of the argument arrays.

  Point t stages rows [512 t, 512 t + 512) of the embedding matrix and of the reshaped label column, the whole matrix and the
  whole reshaped label row; the two reshapes of the label vector only re-index it. So, given what the pure description of
  one point computes at a row (the two facts taken here as hypotheses), block t of the first output array is the per-anchor
  losses of anchors 512 t … 512 t + 511 and block t of the second their validity flags; the sixteen blocks tile the arrays
  (row r lies in block r / 512), so after the last write-back each array is one function of the anchor's number.
-/
import proofs.«175013_j38981123178915_2_alg».proof.Proof.KIOpen
import proofs.«175013_j38981123178915_2_alg».proof.Proof.KIFrame
import proofs.«175013_j38981123178915_2_alg».proof.Proof.Spec
import Idealize.ShloMosaic.PureOps.Ideal.Laws
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Fold Idealize.ShloMosaic.ValueIdx

/-! ## The blocks -/

theorem N16 : cfg0.N = 16 := N_0

/-- The block indices of the six windows at point t, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A grid point as a number below sixteen. -/
abbrev pt16 (t : Fin cfg0.N) : Fin 16 := ⟨t.val, lt_of_lt_of_eq t.isLt N16⟩

/-- Window 0's block at point t: rows [512 t, 512 t + 512) of the embedding matrix. -/
theorem iblk0_eq (c : Dev nD) (t : Fin cfg0.N) : iblk m c 0 t = xchunk (V m c main_arg0) (pt16 t) := by
  obtain ⟨e00, e01, -⟩ := idx_facts t
  funext y
  show V m c main_arg0 (((cfg0.win 0).blk t).view.emb y) = V m c main_arg0 _
  congr 1
  funext a; apply Fin.ext
  match a with
  | ⟨0, _⟩ => show win0_0.index t (0 : Fin 2) * 512 + 1 * (y 0).val = 512 * t.val + (y 0).val; omega
  | ⟨1, _⟩ => show win0_0.index t (1 : Fin 2) * 128 + 1 * (y 1).val = (y 1).val; omega

/-- Window 1's block at every point: the whole embedding matrix. -/
theorem iblk1_eq (c : Dev nD) (t : Fin cfg0.N) : iblk m c 1 t = V m c main_arg0 := by
  obtain ⟨-, -, e10, e11, -⟩ := idx_facts t
  funext y
  show V m c main_arg0 (((cfg0.win 1).blk t).view.emb y) = V m c main_arg0 y
  congr 1
  funext a; apply Fin.ext
  match a with
  | ⟨0, _⟩ => show win0_1.index t (0 : Fin 2) * 8192 + 1 * (y 0).val = (y 0).val; omega
  | ⟨1, _⟩ => show win0_1.index t (1 : Fin 2) * 128 + 1 * (y 1).val = (y 1).val; omega

/-- The two reshapes of the label vector, as the call finds them. -/
theorem V_col (c : Dev nD) : (V m c main_v0 : S8192x1.Idx → BitVec 32) = shapeCast S8192x1 (m ((c : Thread nD τ).loc main_arg1)) shapeCasts_S8192_S8192x1 := by
  show StableHlo.after (List.flatten [hostOps0 (F := F)]) (fun b => m (c, b)) (Proc.devRef .tc main_v0) = _
  simp only [hostOps0, List.flatten_cons, List.flatten_nil, List.append_nil]
  after_results
  rfl
theorem V_row (c : Dev nD) : (V m c main_v1 : S1x8192.Idx → BitVec 32) = shapeCast S1x8192 (m ((c : Thread nD τ).loc main_arg1)) shapeCasts_S8192_S1x8192 := by
  show StableHlo.after (List.flatten [hostOps0 (F := F)]) (fun b => m (c, b)) (Proc.devRef .tc main_v1) = _
  simp only [hostOps0, List.flatten_cons, List.flatten_nil, List.append_nil]
  after_results
  rfl

/-- Window 2's block at point t: labels [512 t, 512 t + 512). -/
theorem iblk2_eq (c : Dev nD) (t : Fin cfg0.N) : iblk m c 2 t = lblBlock (F := F) (m ((c : Thread nD τ).loc main_arg1)) (pt16 t) := by
  obtain ⟨-, -, -, -, e20, e21, -⟩ := idx_facts t
  funext y
  show V m c main_v0 (((cfg0.win 2).blk t).view.emb y) = _
  rw [V_col]
  unfold lblBlock
  refine shapeCast_apply _ _ _ _ ?_
  show (S8192.rowMajor (ix1 (⟨512 * (pt16 t).val + (y 0).val, _⟩ : Fin 8192))).val = (S8192x1.rowMajor (((cfg0.win 2).blk t).view.emb y)).val
  rw [Shape.rowMajor_val_two, Shape.rowMajor_val_one]
  show 512 * t.val + (y 0).val = (win0_2.index t (0 : Fin 2) * 512 + 1 * (y 0).val) * 1 + (win0_2.index t (1 : Fin 2) * 1 + 1 * (y 1).val)
  have := idx2_lt1 y
  omega

/-- Window 3's block at every point: the whole label row. -/
theorem iblk3_eq (c : Dev nD) (t : Fin cfg0.N) : iblk m c 3 t = lblRow (F := F) (m ((c : Thread nD τ).loc main_arg1)) := by
  obtain ⟨-, -, -, -, -, -, e30, e31, -⟩ := idx_facts t
  funext y
  show V m c main_v1 (((cfg0.win 3).blk t).view.emb y) = _
  rw [V_row]
  unfold lblRow
  refine shapeCast_apply _ _ _ _ ?_
  show (S8192.rowMajor (ix1 (⟨(y 1).val, _⟩ : Fin 8192))).val = (S1x8192.rowMajor (((cfg0.win 3).blk t).view.emb y)).val
  rw [Shape.rowMajor_val_two, Shape.rowMajor_val_one]
  show (y 1).val = (win0_3.index t (0 : Fin 2) * 1 + 1 * (y 0).val) * 8192 + (win0_3.index t (1 : Fin 2) * 8192 + 1 * (y 1).val)
  have := idx2_lt0 y
  omega

/-! ## The two output arrays after the last write-back (extended reals) -/

section AtIdeal

variable (mI : (ℓ : Loc nD τ sig) → Buf (Elt Ideal) ℓ) (c : Dev nD)

/-- The two argument arrays as launched: the embedding matrix and the label vector. -/
abbrev xA : Cert.Spec.SX.Idx → EReal := mI ((c : Thread nD τ).loc main_arg0)
abbrev tgA : Cert.Spec.ST.Idx → BitVec 32 := mI ((c : Thread nD τ).loc main_arg1)

/-- What the pure description of one point computes at row r of block t: the two facts this module takes as hypotheses. -/
def LossFact : Prop := ∀ (x : Cert.Spec.SX.Idx → EReal) (tg : Cert.Spec.ST.Idx → BitVec 32) (t : Fin 16) (r : Fin 512),
  blockLoss (F := Ideal) (xchunk x t) (lblBlock tg t) x (lblRow tg) (ix2 r (0 : Fin 1))
    = Cert.Spec.perAnchor x tg (⟨512 * t.val + r.val, by have := t.isLt; have := r.isLt; omega⟩ : Fin 8192)
def ValidFact : Prop := ∀ (x : Cert.Spec.SX.Idx → EReal) (tg : Cert.Spec.ST.Idx → BitVec 32) (t : Fin 16) (r : Fin 512),
  blockValid (F := Ideal) (xchunk x t) (lblBlock tg t) x (lblRow tg) (ix2 r (0 : Fin 1))
    = Cert.Spec.validF x tg (⟨512 * t.val + r.val, by have := t.isLt; have := r.isLt; omega⟩ : Fin 8192)

/-- The per-anchor losses and the validity flags as columns of 8192. -/
def lossCol : S8192x1.Idx → EReal := fun i => Cert.Spec.perAnchor (xA mI c) (tgA mI c) (⟨(i 0).val, idx2_lt0 i⟩ : Fin 8192)
def validCol : S8192x1.Idx → EReal := fun i => Cert.Spec.validF (xA mI c) (tgA mI c) (⟨(i 0).val, idx2_lt0 i⟩ : Fin 8192)

/-- What point t writes back into the first output array is block t of the losses' column; -/
theorem flushed4_eq (hL : LossFact) (t : Fin cfg0.N) :
    (dats mI 0 c).flushed 4 t = ((cfg0.win 4).blk t).view.read (Elt Ideal) (lossCol mI c) := by
  obtain ⟨-, -, -, -, -, -, -, -, e40, e41, -, -⟩ := idx_facts t
  show (cfg0.win 4).cut (grid0.coords t) ((dats mI 0 c).after 4 t) = _
  rw [after_4, out4_eq, iblk0_eq, iblk1_eq, iblk2_eq, iblk3_eq, V_keep mI c main_arg0 (by decide) (by decide)]
  funext y
  obtain ⟨r, u, rfl⟩ : ∃ (r : Fin 512) (u : Fin 1), y = ix2 r u := ⟨y 0, y 1, eq_ix2 y⟩
  obtain rfl : u = 0 := Subsingleton.elim _ _
  show blockLoss (F := Ideal) (xchunk (xA mI c) (pt16 t)) (lblBlock (tgA mI c) (pt16 t)) (xA mI c) (lblRow (tgA mI c)) (ix2 r 0)
    = lossCol mI c (((cfg0.win 4).blk t).view.emb (ix2 r 0))
  rw [hL]
  unfold lossCol
  refine congrArg (Cert.Spec.perAnchor (xA mI c) (tgA mI c)) (Fin.ext ?_)
  show 512 * t.val + r.val = win0_4.index t (0 : Fin 2) * 512 + 1 * r.val
  omega
/-- into the second, block t of the flags' column. -/
theorem flushed5_eq (hV : ValidFact) (t : Fin cfg0.N) :
    (dats mI 0 c).flushed 5 t = ((cfg0.win 5).blk t).view.read (Elt Ideal) (validCol mI c) := by
  obtain ⟨-, -, -, -, -, -, -, -, -, -, e50, e51⟩ := idx_facts t
  show (cfg0.win 5).cut (grid0.coords t) ((dats mI 0 c).after 5 t) = _
  rw [after_5, out5_eq, iblk0_eq, iblk1_eq, iblk2_eq, iblk3_eq, V_keep mI c main_arg0 (by decide) (by decide)]
  funext y
  obtain ⟨r, u, rfl⟩ : ∃ (r : Fin 512) (u : Fin 1), y = ix2 r u := ⟨y 0, y 1, eq_ix2 y⟩
  obtain rfl : u = 0 := Subsingleton.elim _ _
  show blockValid (F := Ideal) (xchunk (xA mI c) (pt16 t)) (lblBlock (tgA mI c) (pt16 t)) (xA mI c) (lblRow (tgA mI c)) (ix2 r 0)
    = validCol mI c (((cfg0.win 5).blk t).view.emb (ix2 r 0))
  rw [hV]
  unfold validCol
  refine congrArg (Cert.Spec.validF (xA mI c) (tgA mI c)) (Fin.ext ?_)
  show 512 * t.val + r.val = win0_5.index t (0 : Fin 2) * 512 + 1 * r.val
  omega

/-- An index of an output array is in point t's block iff each coordinate is in the block's range. -/
theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2_0).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v2_1).slice (win0_5.rect t)).set ↔ _
  rw [View.set_slice_whole, Rect.mem_set_unit]
  exact Iff.rfl

/-- Row r lies in the block of point r / 512. -/
theorem covered4 (i : S8192x1.Idx) : ∃ t : Fin cfg0.N, (cfg0.win 4).flush t = true ∧ i ∈ ((cfg0.win 4).blk t).view.set := by
  have hi0 := idx2_lt0 i
  have hi1 := idx2_lt1 i
  have hN := N16
  let t : Fin cfg0.N := ⟨(i 0).val / 512, by omega⟩
  obtain ⟨-, -, -, -, -, -, -, -, e40, e41, -, -⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; rw [e40]; show (i 0).val / 512 * 512 ≤ (i 0).val ∧ (i 0).val < (i 0).val / 512 * 512 + 512; omega
  | ⟨1, _⟩ => show win0_4.index t (1 : Fin 2) * 1 ≤ (i 1).val ∧ (i 1).val < win0_4.index t (1 : Fin 2) * 1 + 1; omega
theorem covered5 (i : S8192x1.Idx) : ∃ t : Fin cfg0.N, (cfg0.win 5).flush t = true ∧ i ∈ ((cfg0.win 5).blk t).view.set := by
  have hi0 := idx2_lt0 i
  have hi1 := idx2_lt1 i
  have hN := N16
  let t : Fin cfg0.N := ⟨(i 0).val / 512, by omega⟩
  obtain ⟨-, -, -, -, -, -, -, -, -, -, e50, e51⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e50]; show (i 0).val / 512 * 512 ≤ (i 0).val ∧ (i 0).val < (i 0).val / 512 * 512 + 512; omega
  | ⟨1, _⟩ => show win0_5.index t (1 : Fin 2) * 1 ≤ (i 1).val ∧ (i 1).val < win0_5.index t (1 : Fin 2) * 1 + 1; omega

/-- THE OUTPUT ARRAYS after the last write-back: the losses' column and the flags' column. -/
theorem final4 (hL : LossFact) : (dats mI 0 c).arrAt 4 cfg0.N = lossCol mI c :=
  (dats mI 0 c).arrAt_eq_of_cover 4 (lossCol mI c) (fun t _ => flushed4_eq mI c hL t) (covered4)
theorem final5 (hV : ValidFact) : (dats mI 0 c).arrAt 5 cfg0.N = validCol mI c :=
  (dats mI 0 c).arrAt_eq_of_cover 5 (validCol mI c) (fun t _ => flushed5_eq mI c hV t) (covered5)

end AtIdeal

end Cert.KernelIdeal.Body

end
-- ==== Proof.RefSpec.lean ====
/-
  The reference program's result is the specification's result.

  For the 8192 × 8192 pairs (anchor i, key j) the reference forms the inner product of rows i and j (the matrix times its
  transpose), the word "the labels agree", and from these the positive and the negative word. Along the key axis it folds,
  per anchor: by `or` from the zero bit, whether a positive and whether a negative exists; by the minimum from +∞, the least
  similarity among the positives; by the maximum from −∞, the greatest among the negatives. From those come the two selection
  words, their existence per anchor, the validity bit, the two sums of exponentials over the selected keys, the anchor's
  loss, and at the end the count of valid anchors, the sum of the losses and their quotient.

  Each value is read at an index, (i, j) or i, and identified with the specification's definition of the same name:
  a one-bit word is 1 exactly when its proposition holds; a fold by `or` from 0 is 1 exactly when some word is 1; a fold by
  the minimum from ⊤ is the infimum over the keys, and by the maximum from ⊥ the supremum; a sum started at the zero word
  is the plain sum; a select on a bit is the `if` on its proposition; the bit read as a number is 1 or 0.
-/
import proofs.«175013_j38981123178915_2_alg».proof.Proof.RefReadP
import proofs.«175013_j38981123178915_2_alg».proof.Proof.Spec
import Idealize.ShloMosaic.PureOps.Reduce
import Idealize.ShloMosaic.PureOps.Ideal.Laws
import Idealize.ShloMosaic.Lib.ValueIdx

noncomputable section

namespace Cert.RefSpec

open Cert.ReferenceIdeal Cert.ReferenceIdeal.Gen Cert.ReferenceIdeal.ReadP
open Idealize.ShloMosaic Idealize.ShloMosaic.ValueIdx
open Cert.Spec
open scoped BigOperators
open Classical

/-! ## One-bit words -/

theorem ofBool_eq_one (b : Bool) : BitVec.ofBool b = 1#1 ↔ b = true := by
  cases b <;> decide

theorem cmpi_eq_iff (a b : BitVec 32) : IntOp.cmpi .eq a b = 1#1 ↔ a = b := by
  simp [IntOp.cmpi, ofBool_eq_one]

theorem andi_iff (a b : BitVec 1) : IntOp.andi a b = 1#1 ↔ a = 1#1 ∧ b = 1#1 := by
  revert a b; decide

theorem ori_iff (a b : BitVec 1) : IntOp.ori a b = 1#1 ↔ a = 1#1 ∨ b = 1#1 := by
  revert a b; decide

theorem not_iff (a : BitVec 1) : ~~~a = 1#1 ↔ ¬ a = 1#1 := by
  revert a; decide

theorem cmp_olt_iff (a b : EReal) : Ideal.cmp .olt a b = 1#1 ↔ a < b := by
  simp [Ideal.cmp, ofBool_eq_one]

theorem cmp_ogt_iff (a b : EReal) : Ideal.cmp .ogt a b = 1#1 ↔ b < a := by
  simp [Ideal.cmp, ofBool_eq_one]

/-- A fold by `or` from the zero bit is one exactly when some word is. -/
theorem fold_ori_iff {ι : Type} (S : Finset ι) (f : ι → BitVec 1) :
    S.fold IntOp.ori 0#1 f = 1#1 ↔ ∃ k ∈ S, f k = 1#1 := by
  induction S using Finset.cons_induction with
  | empty => simp
  | cons a S ha ih =>
    rw [Finset.fold_cons, ori_iff, ih]
    constructor
    · rintro (h | ⟨k, hk, h⟩)
      · exact ⟨a, Finset.mem_cons_self a S, h⟩
      · exact ⟨k, Finset.mem_cons.2 (Or.inr hk), h⟩
    · rintro ⟨k, hk, h⟩
      rcases Finset.mem_cons.1 hk with rfl | hk
      · exact Or.inl h
      · exact Or.inr ⟨k, hk, h⟩

/-- A fold by the minimum from the top is the infimum; by the maximum from the bottom, the supremum. -/
theorem fold_min_eq_inf {ι : Type} (S : Finset ι) (f : ι → EReal) :
    S.fold (FloatOps.minimumf (F := Ideal) (φ := .f32)) (⊤ : EReal) f = S.inf f := by
  induction S using Finset.cons_induction with
  | empty => simp
  | cons a S ha ih =>
    rw [Finset.fold_cons, Finset.inf_cons, ih]; rfl

theorem fold_max_eq_sup {ι : Type} (S : Finset ι) (f : ι → EReal) :
    S.fold (FloatOps.maximumf (F := Ideal) (φ := .f32)) (⊥ : EReal) f = S.sup f := by
  induction S using Finset.cons_induction with
  | empty => simp
  | cons a S ha ih =>
    rw [Finset.fold_cons, Finset.sup_cons, ih]; rfl

theorem posInf_eq : Ideal.ofBits .f32 0x7F800000#32 = (⊤ : EReal) := by
  simp [Ideal.ofBits, Ideal.ieee]

theorem negInf_eq : Ideal.ofBits .f32 0xFF800000#32 = (⊥ : EReal) := by
  simp [Ideal.ofBits, Ideal.ieee]

/-! ## The pairwise words, at anchor `i` and key `j` -/

section Pairs

variable (x : (⟨S8192x128, .f32⟩ : BufTy).Contents (Elt Ideal)) (tg : (⟨S8192, .i32⟩ : BufTy).Contents (Elt Ideal))

/-- The product with the transpose, at `(i, j)`, is the inner product of rows `i` and `j`. -/
theorem v1_eq (i j : Fin 8192) : val_main_v1 (F := Ideal) x (ix2 i j) = sim x i j := by
  rw [val_main_v1_apply]
  unfold sim
  refine Finset.sum_congr rfl fun k _ => ?_
  rw [val_main_v0_apply]
  congr 1 <;> exact congrArg x (funext fun a => match a with | ⟨0, _⟩ => rfl | ⟨1, _⟩ => rfl)

theorem v6_iff (i j : Fin 8192) : val_main_v6 (F := Ideal) tg (ix2 i j) = 1#1 ↔ same tg i j := by
  rw [val_main_v6_apply, cmpi_eq_iff, val_main_v4_apply, val_main_v2_apply, val_main_v5_apply, val_main_v3_apply]
  have e1 : idx_main_v2 (idx_main_v4 (ix2 i j)) = ix1 i := funext fun a => match a with | ⟨0, _⟩ => rfl
  have e2 : idx_main_v3 (idx_main_v5 (ix2 i j)) = ix1 j := funext fun a => match a with | ⟨0, _⟩ => rfl
  rw [e1, e2]
  rfl

theorem v8_iff (i j : Fin 8192) : val_main_v8 (F := Ideal) x (ix2 i j) = 1#1 ↔ sim x i j < cOne := by
  rw [val_main_v8_apply, Ideal.cmpf_def, cmp_olt_iff, v1_eq, val_main_v7_apply, val_main_cst_apply]
  rfl

theorem v9_iff (i j : Fin 8192) : val_main_v9 (F := Ideal) x tg (ix2 i j) = 1#1 ↔ pos x tg i j := by
  rw [val_main_v9_apply, andi_iff, v6_iff, v8_iff]
  rfl

theorem v10_iff (i j : Fin 8192) : val_main_v10 (F := Ideal) tg (ix2 i j) = 1#1 ↔ neg tg i j := by
  rw [val_main_v10_apply, not_iff, v6_iff]
  rfl

theorem v13_eq (i j : Fin 8192) :
    val_main_v13 (F := Ideal) x tg (ix2 i j) = if pos x tg i j then sim x i j else cPosInf := by
  rw [val_main_v13_apply, v1_eq, val_main_call0_v1_apply, val_main_call0_v0_apply, val_main_cst_1_apply]
  by_cases h : pos x tg i j
  · rw [if_pos h, (v9_iff x tg i j).2 h]; exact select_one _ _
  · rw [if_neg h, eq_zero_of_ne_one (mt (v9_iff x tg i j).1 h)]; exact select_zero _ _

theorem v15_eq (i j : Fin 8192) :
    val_main_v15 (F := Ideal) x tg (ix2 i j) = if neg tg i j then sim x i j else cNegInf := by
  rw [val_main_v15_apply, v1_eq, val_main_call1_v1_apply, val_main_call1_v0_apply, val_main_cst_3_apply]
  by_cases h : neg tg i j
  · rw [if_pos h, (v10_iff tg i j).2 h]; exact select_one _ _
  · rw [if_neg h, eq_zero_of_ne_one (mt (v10_iff tg i j).1 h)]; exact select_zero _ _

end Pairs

/-! ## A reduction along the key axis, read at an anchor -/

theorem red : S8192x8192.Reduces [1] S8192 := by decide

/-- The index over anchor `i` with key coordinate `k`. -/
theorem lift_eq (i k : Fin 8192) : red.lift (ix1 i) k = ix2 i k :=
  funext fun a => match a with | ⟨0, _⟩ => rfl | ⟨1, _⟩ => rfl

/-- A reduce along axis 1 with a commutative and associative body is, at anchor `i`, the fold over the keys. -/
theorem reduce_row {α : Type} (f : α → α → α) [Std.Commutative f] [Std.Associative f] (y : S8192x8192.Idx → α)
    (init : S_.Idx → α) (i : Fin 8192) :
    Host.reduce f y init reducesTo_S8192x8192_S8192_d1 h_S_ (ix1 i)
      = (Finset.univ : Finset (Fin 8192)).fold f (init (Shape.Idx.first h_S_)) (fun k => y (ix2 i k)) := by
  refine (Host.reduce_eq_fold_single f y init reducesTo_S8192x8192_S8192_d1 red h_S_ (ix1 i)).trans ?_
  exact congrArg (fun g => (Finset.univ : Finset (Fin 8192)).fold f (init (Shape.Idx.first h_S_)) g)
    (funext fun k => congrArg y (lift_eq i k))

section Rows

variable (x : (⟨S8192x128, .f32⟩ : BufTy).Contents (Elt Ideal)) (tg : (⟨S8192, .i32⟩ : BufTy).Contents (Elt Ideal))

theorem v11_iff (i : Fin 8192) : val_main_v11 (F := Ideal) x tg (ix1 i) = 1#1 ↔ ∃ j, pos x tg i j := by
  unfold val_main_v11
  rw [reduce_row, val_main_c_apply, fold_ori_iff]
  simp only [Finset.mem_univ, true_and]
  exact exists_congr fun j => v9_iff x tg i j

theorem v12_iff (i : Fin 8192) : val_main_v12 (F := Ideal) tg (ix1 i) = 1#1 ↔ ∃ j, neg tg i j := by
  unfold val_main_v12
  rw [reduce_row, val_main_c_0_apply, fold_ori_iff]
  simp only [Finset.mem_univ, true_and]
  exact exists_congr fun j => v10_iff tg i j

theorem v14_eq (i : Fin 8192) : val_main_v14 (F := Ideal) x tg (ix1 i) = minPos x tg i := by
  unfold val_main_v14
  rw [reduce_row, val_main_cst_2_apply, Ideal.ofBits_def, posInf_eq, fold_min_eq_inf]
  exact congrArg (Finset.univ.inf) (funext fun j => v13_eq x tg i j)

theorem v16_eq (i : Fin 8192) : val_main_v16 (F := Ideal) x tg (ix1 i) = maxNeg x tg i := by
  unfold val_main_v16
  rw [reduce_row, val_main_cst_4_apply, Ideal.ofBits_def, negInf_eq, fold_max_eq_sup]
  exact congrArg (Finset.univ.sup) (funext fun j => v15_eq x tg i j)

end Rows

/-! ## The selected pairs and the valid anchors -/

section Select

variable (x : (⟨S8192x128, .f32⟩ : BufTy).Contents (Elt Ideal)) (tg : (⟨S8192, .i32⟩ : BufTy).Contents (Elt Ideal))

theorem v18_eq (i j : Fin 8192) : val_main_v18 (F := Ideal) x (ix2 i j) = sim x i j + cEps := by
  rw [val_main_v18_apply, Ideal.addf_def, v1_eq, val_main_v17_apply, val_main_cst_5_apply]
  rfl

theorem v20_eq (i j : Fin 8192) : val_main_v20 (F := Ideal) x tg (ix2 i j) = minPos x tg i := by
  rw [val_main_v20_apply, val_main_v19_apply]
  have e : idx_main_v19 (idx_main_v20 (ix2 i j)) = ix1 i := funext fun a => match a with | ⟨0, _⟩ => rfl
  rw [e, v14_eq]

theorem v22_iff (i j : Fin 8192) : val_main_v22 (F := Ideal) x tg (ix2 i j) = 1#1 ↔ negSel x tg i j := by
  rw [val_main_v22_apply, andi_iff, v10_iff, val_main_v21_apply, Ideal.cmpf_def, cmp_ogt_iff, v18_eq, v20_eq]
  rfl

theorem v24_eq (i j : Fin 8192) : val_main_v24 (F := Ideal) x (ix2 i j) = sim x i j - cEps := by
  rw [val_main_v24_apply, Ideal.subf_def, v1_eq, val_main_v23_apply, val_main_cst_6_apply]
  rfl

theorem v26_eq (i j : Fin 8192) : val_main_v26 (F := Ideal) x tg (ix2 i j) = maxNeg x tg i := by
  rw [val_main_v26_apply, val_main_v25_apply]
  have e : idx_main_v25 (idx_main_v26 (ix2 i j)) = ix1 i := funext fun a => match a with | ⟨0, _⟩ => rfl
  rw [e, v16_eq]

theorem v28_iff (i j : Fin 8192) : val_main_v28 (F := Ideal) x tg (ix2 i j) = 1#1 ↔ posSel x tg i j := by
  rw [val_main_v28_apply, andi_iff, v9_iff, val_main_v27_apply, Ideal.cmpf_def, cmp_olt_iff, v24_eq, v26_eq]
  rfl

theorem v30_iff (i : Fin 8192) : val_main_v30 (F := Ideal) x tg (ix1 i) = 1#1 ↔ ∃ j, negSel x tg i j := by
  unfold val_main_v30
  rw [reduce_row, val_main_c_7_apply, fold_ori_iff]
  simp only [Finset.mem_univ, true_and]
  exact exists_congr fun j => v22_iff x tg i j

theorem v32_iff (i : Fin 8192) : val_main_v32 (F := Ideal) x tg (ix1 i) = 1#1 ↔ ∃ j, posSel x tg i j := by
  unfold val_main_v32
  rw [reduce_row, val_main_c_8_apply, fold_ori_iff]
  simp only [Finset.mem_univ, true_and]
  exact exists_congr fun j => v28_iff x tg i j

theorem v33_iff (i : Fin 8192) : val_main_v33 (F := Ideal) x tg (ix1 i) = 1#1 ↔ valid x tg i := by
  rw [val_main_v33_apply, andi_iff, val_main_v31_apply, andi_iff, val_main_v29_apply, andi_iff,
    v11_iff, v12_iff, v30_iff, v32_iff]
  unfold valid
  constructor
  · rintro ⟨⟨⟨h1, h2⟩, h3⟩, h4⟩; exact ⟨h1, h2, h4, h3⟩
  · rintro ⟨h1, h2, h4, h3⟩; exact ⟨⟨⟨h1, h2⟩, h3⟩, h4⟩

end Select

/-! ## The weighted sums and the anchor's loss -/

section Sums

variable (x : (⟨S8192x128, .f32⟩ : BufTy).Contents (Elt Ideal)) (tg : (⟨S8192, .i32⟩ : BufTy).Contents (Elt Ideal))

theorem v38_eq (i j : Fin 8192) :
    val_main_v38 (F := Ideal) x (ix2 i j) = Ideal.exp (cMinusTwo * (sim x i j - cHalf)) := by
  rw [val_main_v38_apply, Ideal.hostUnary_exp_def, val_main_v37_apply, Ideal.mulf_def, val_main_v36_apply,
    val_main_cst_10_apply, val_main_v35_apply, Ideal.subf_def, v1_eq, val_main_v34_apply, val_main_cst_9_apply]
  rfl

theorem v39_eq (i j : Fin 8192) :
    val_main_v39 (F := Ideal) x tg (ix2 i j)
      = if posSel x tg i j then Ideal.exp (cMinusTwo * (sim x i j - cHalf)) else cZero := by
  rw [val_main_v39_apply, v38_eq, val_main_call2_v1_apply, val_main_call2_v0_apply, val_main_cst_11_apply]
  by_cases h : posSel x tg i j
  · rw [if_pos h, (v28_iff x tg i j).2 h]; exact select_one _ _
  · rw [if_neg h, eq_zero_of_ne_one (mt (v28_iff x tg i j).1 h)]; exact select_zero _ _

theorem v40_eq (i : Fin 8192) : val_main_v40 (F := Ideal) x tg (ix1 i) = posSum x tg i := by
  rw [val_main_v40_apply, val_main_cst_12_apply, Ideal.ofBits_def, Ideal.ofBits_zero_f32, zero_add]
  unfold posSum
  refine Finset.sum_congr rfl fun k _ => ?_
  have e : idx_main_v40 (ix1 i) k = ix2 i k := funext fun a => match a with | ⟨0, _⟩ => rfl | ⟨1, _⟩ => rfl
  rw [e, v39_eq]

theorem v45_eq (i j : Fin 8192) :
    val_main_v45 (F := Ideal) x (ix2 i j) = Ideal.exp (cFive * (sim x i j - cHalf)) := by
  rw [val_main_v45_apply, Ideal.hostUnary_exp_def, val_main_v44_apply, Ideal.mulf_def, val_main_v43_apply,
    val_main_cst_14_apply, val_main_v42_apply, Ideal.subf_def, v1_eq, val_main_v41_apply, val_main_cst_13_apply]
  rfl

theorem v46_eq (i j : Fin 8192) :
    val_main_v46 (F := Ideal) x tg (ix2 i j)
      = if negSel x tg i j then Ideal.exp (cFive * (sim x i j - cHalf)) else cZero := by
  rw [val_main_v46_apply, v45_eq, val_main_call3_v1_apply, val_main_call3_v0_apply, val_main_cst_15_apply]
  by_cases h : negSel x tg i j
  · rw [if_pos h, (v22_iff x tg i j).2 h]; exact select_one _ _
  · rw [if_neg h, eq_zero_of_ne_one (mt (v22_iff x tg i j).1 h)]; exact select_zero _ _

theorem v47_eq (i : Fin 8192) : val_main_v47 (F := Ideal) x tg (ix1 i) = negSum x tg i := by
  rw [val_main_v47_apply, val_main_cst_16_apply, Ideal.ofBits_def, Ideal.ofBits_zero_f32, zero_add]
  unfold negSum
  refine Finset.sum_congr rfl fun k _ => ?_
  have e : idx_main_v47 (ix1 i) k = ix2 i k := funext fun a => match a with | ⟨0, _⟩ => rfl | ⟨1, _⟩ => rfl
  rw [e, v46_eq]

theorem v54_eq (i : Fin 8192) :
    val_main_v54 (F := Ideal) x tg (ix1 i)
      = Ideal.div (Ideal.log1p (posSum x tg i)) cTwo + Ideal.div (Ideal.log1p (negSum x tg i)) cFive := by
  rw [val_main_v54_apply, Ideal.addf_def, val_main_v50_apply, Ideal.hostDivf_def, val_main_v48_apply,
    Ideal.hostUnary_log1p_def, v40_eq, val_main_v49_apply, val_main_cst_17_apply,
    val_main_v53_apply, Ideal.hostDivf_def, val_main_v51_apply, Ideal.hostUnary_log1p_def, v47_eq,
    val_main_v52_apply, val_main_cst_18_apply]
  rfl

theorem v55_eq (i : Fin 8192) : val_main_v55 (F := Ideal) x tg (ix1 i) = perAnchor x tg i := by
  rw [val_main_v55_apply, v54_eq, val_main_call4_v1_apply, val_main_call4_v0_apply, val_main_cst_19_apply]
  unfold perAnchor
  by_cases h : valid x tg i
  · rw [if_pos h, (v33_iff x tg i).2 h]; exact select_one _ _
  · rw [if_neg h, eq_zero_of_ne_one (mt (v33_iff x tg i).1 h)]; exact select_zero _ _

theorem v56_eq (i : Fin 8192) : val_main_v56 (F := Ideal) x tg (ix1 i) = validF x tg i := by
  rw [val_main_v56_apply]
  unfold validF
  by_cases h : valid x tg i
  · rw [if_pos h, (v33_iff x tg i).2 h]
    show (((1#1 : BitVec 1).toNat : ℝ) : EReal) = 1
    simp
  · rw [if_neg h, eq_zero_of_ne_one (mt (v33_iff x tg i).1 h)]
    show (((0#1 : BitVec 1).toNat : ℝ) : EReal) = 0
    simp

end Sums

/-! ## The count, the total and the result -/

/-- A sum over the rank-one indices is the sum over their coordinates. -/
theorem sum_idx1 (g : S8192.Idx → EReal) : ∑ j : S8192.Idx, g j = ∑ i : Fin 8192, g (ix1 i) := by
  let e : Fin 8192 ≃ S8192.Idx :=
    { toFun := fun i => ix1 i
      invFun := fun j => j 0
      left_inv := fun _ => rfl
      right_inv := fun j => (eq_ix1 j).symm }
  exact (Equiv.sum_comp e g).symm

section Totals

variable (x : (⟨S8192x128, .f32⟩ : BufTy).Contents (Elt Ideal)) (tg : (⟨S8192, .i32⟩ : BufTy).Contents (Elt Ideal))

theorem v57_eq (i0 : S_.Idx) : val_main_v57 (F := Ideal) x tg i0 = Spec.count x tg := by
  rw [val_main_v57_apply, val_main_cst_20_apply, Ideal.ofBits_def, Ideal.ofBits_zero_f32, zero_add, sum_idx1]
  unfold Spec.count
  exact Finset.sum_congr rfl fun i _ => v56_eq x tg i

theorem v59_eq (i0 : S_.Idx) : val_main_v59 (F := Ideal) x tg i0 = Spec.total x tg := by
  rw [val_main_v59_apply, val_main_cst_22_apply, Ideal.ofBits_def, Ideal.ofBits_zero_f32, zero_add, sum_idx1]
  unfold Spec.total
  exact Finset.sum_congr rfl fun i _ => v55_eq x tg i

theorem v58_iff (i0 : S_.Idx) : val_main_v58 (F := Ideal) x tg i0 = 1#1 ↔ cZero < Spec.count x tg := by
  rw [val_main_v58_apply, Ideal.cmpf_def, cmp_ogt_iff, v57_eq, val_main_cst_21_apply]
  rfl

theorem v61_eq (i0 : S_.Idx) :
    val_main_v61 (F := Ideal) x tg i0 = Ideal.div (Spec.total x tg) (max (Spec.count x tg) cOne) := by
  rw [val_main_v61_apply, Ideal.hostDivf_def, v59_eq, val_main_v60_apply, Ideal.maximumf_def, v57_eq,
    val_main_cst_23_apply]
  rfl

/-- The reference's result is the specification's. -/
theorem ref_result (x : (⟨S8192x128, .f32⟩ : BufTy).Contents (Elt Ideal))
    (tg : (⟨S8192, .i32⟩ : BufTy).Contents (Elt Ideal)) :
    val_main_v62 (F := Ideal) x tg = fun _ => Spec.result x tg := by
  funext i0
  rw [val_main_v62_apply, v61_eq, val_main_call5_v0_apply, val_main_cst_24_apply]
  unfold Spec.result
  by_cases h : cZero < Spec.count x tg
  · rw [if_pos h, (v58_iff x tg i0).2 h]; exact select_one _ _
  · rw [if_neg h, eq_zero_of_ne_one (mt (v58_iff x tg i0).1 h)]; exact select_zero _ _

end Totals

end Cert.RefSpec

end
-- ==== Proof.KITail.lean ====
/-
  The idealized kernel's result.

  The host lines after the call sum the validity flags (the count of valid anchors) and the per-anchor losses, and return the
  quotient of the sum of losses by the count (at least one), or zero when the count is not positive. On the two columns the
  call leaves, a sum over the column shape [8192, 1] is the sum over the 8192 anchors, so the result is the specification's.
-/
import proofs.«175013_j38981123178915_2_alg».proof.Proof.KIValue
import proofs.«175013_j38981123178915_2_alg».proof.Proof.RefSpec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Fold Idealize.ShloMosaic.ValueIdx
open scoped BigOperators

/-! ## The host lines after the call, as one function of the two output arrays -/

/-- The count of the flags, the sum of the losses, their guarded quotient. -/
def tailFn (pa vf : FVec F S8192x1 .f32) : FVec F S_ .f32 :=
  select (cmpf .ogt (Host.reduceAdd vf (constant S_ .f32 0x00000000#32) reducesTo_S8192x1_S_d0_1 h_S_) (constant S_ .f32 0x00000000#32))
    (Host.divf (Host.reduceAdd pa (constant S_ .f32 0x00000000#32) reducesTo_S8192x1_S_d0_1 h_S_)
      (maximumf (Host.reduceAdd vf (constant S_ .f32 0x00000000#32) reducesTo_S8192x1_S_d0_1 h_S_) (constant S_ .f32 0x3F800000#32)))
    (constant S_ .f32 0x00000000#32)

/-- The result buffer after the run's host lines is that function of the two output arrays as the call left them. -/
theorem W1_result (c : Dev nD) :
    W1 m c (Proc.devRef .tc main_v8) = tailFn ((dats m 0 c).arrAt 4 cfg0.N) ((dats m 0 c).arrAt 5 cfg0.N) := by
  show StableHlo.after (tailOps (F := F)).flatten (W0 m c) (Proc.devRef .tc main_v8) = _
  simp only [tailOps, hostOps1, hostOps1_1, List.flatten_cons, List.flatten_nil, List.append_nil, List.cons_append, List.nil_append]
  after_results
  rw [W0_out4, W0_out5]
  rfl

section AtIdeal

variable (mI : (ℓ : Loc nD τ sig) → Buf (Elt Ideal) ℓ) (c : Dev nD)

/-- A sum over the column shape is the sum over its 8192 rows. -/
theorem sum_col (g : S8192x1.Idx → EReal) : ∑ j : S8192x1.Idx, g j = ∑ i : Fin 8192, g (ix2 i (0 : Fin 1)) := by
  rw [sum_idx2]
  exact Finset.sum_congr rfl fun i _ => Fin.sum_univ_one _

theorem count_eq (i0 : S_.Idx) :
    Host.reduceAdd (F := Ideal) (validCol mI c) (constant S_ .f32 0x00000000#32) reducesTo_S8192x1_S_d0_1 h_S_ i0 = Cert.Spec.count (xA mI c) (tgA mI c) := by
  generalize hy : validCol mI c = y0
  simp only [Host.reduceAdd, Ideal.hostReduceAdd_def]
  rw [Ideal.hostReduceAdd_total reducesTo_S8192x1_S_d0_1 (fun b => b.elim0) y0 _ i0]
  subst hy
  show Ideal.ofBits .f32 0x00000000#32 + _ = _
  rw [Ideal.ofBits_zero_f32, zero_add, sum_col]
  rfl

theorem total_eq (i0 : S_.Idx) :
    Host.reduceAdd (F := Ideal) (lossCol mI c) (constant S_ .f32 0x00000000#32) reducesTo_S8192x1_S_d0_1 h_S_ i0 = Cert.Spec.total (xA mI c) (tgA mI c) := by
  generalize hy : lossCol mI c = y0
  simp only [Host.reduceAdd, Ideal.hostReduceAdd_def]
  rw [Ideal.hostReduceAdd_total reducesTo_S8192x1_S_d0_1 (fun b => b.elim0) y0 _ i0]
  subst hy
  show Ideal.ofBits .f32 0x00000000#32 + _ = _
  rw [Ideal.ofBits_zero_f32, zero_add, sum_col]
  rfl

/-- On the two columns the host lines give the specification's result. -/
theorem tail_result : tailFn (F := Ideal) (lossCol mI c) (validCol mI c) = fun _ => Cert.Spec.result (xA mI c) (tgA mI c) := by
  funext i0
  show Scalar.select (FloatOps.cmpf .ogt (Host.reduceAdd (F := Ideal) (validCol mI c) (constant S_ .f32 0x00000000#32) reducesTo_S8192x1_S_d0_1 h_S_ i0) (FloatOps.ofBits .f32 0x00000000#32))
      (FloatOps.hostDivf (Host.reduceAdd (F := Ideal) (lossCol mI c) (constant S_ .f32 0x00000000#32) reducesTo_S8192x1_S_d0_1 h_S_ i0)
        (FloatOps.maximumf (Host.reduceAdd (F := Ideal) (validCol mI c) (constant S_ .f32 0x00000000#32) reducesTo_S8192x1_S_d0_1 h_S_ i0) (FloatOps.ofBits .f32 0x3F800000#32)))
      (FloatOps.ofBits .f32 0x00000000#32) = _
  rw [count_eq, total_eq, Ideal.cmpf_def, Ideal.hostDivf_def, Ideal.maximumf_def]
  show Scalar.select (Ideal.cmp .ogt (Cert.Spec.count (xA mI c) (tgA mI c)) Cert.Spec.cZero)
      (Ideal.div (Cert.Spec.total (xA mI c) (tgA mI c)) (max (Cert.Spec.count (xA mI c) (tgA mI c)) Cert.Spec.cOne)) Cert.Spec.cZero = _
  unfold Cert.Spec.result
  by_cases h : Cert.Spec.cZero < Cert.Spec.count (xA mI c) (tgA mI c)
  · rw [if_pos h, (Cert.RefSpec.cmp_ogt_iff _ _).2 h]; exact select_one _ _
  · rw [if_neg h, eq_zero_of_ne_one (mt (Cert.RefSpec.cmp_ogt_iff _ _).1 h)]; exact select_zero _ _

/-- THE KERNEL'S VALUE RUN: every weakly fair execution of the idealized program terminates, nothing faulting, with the result
    at the specification's result of the argument arrays and the argument arrays unchanged. -/
theorem run_value (hL : LossFact) (hV : ValidFact) (ρ : Dev nD → PrngReg) :
    θ_run defs (onTc (τ := τ) (main (F := Ideal))) ⟨mI, fun _ => 0, ρ⟩ (fun r => ∀ c : Dev nD,
      r.2.mem ((c.tc : Thread nD τ).loc main_v8) = (fun _ => Cert.Spec.result (xA mI c) (tgA mI c))
      ∧ r.2.mem ((c.tc : Thread nD τ).loc main_arg0) = mI ((c.tc : Thread nD τ).loc main_arg0)
      ∧ r.2.mem ((c.tc : Thread nD τ).loc main_arg1) = mI ((c.tc : Thread nD τ).loc main_arg1)) :=
  (θ_run defs _ _).mono (fun _ h c =>
    ⟨((h c).2 main_v8 (by decide)).trans ((W1_result mI c).trans (by rw [final4 mI c hL, final5 mI c hV]; exact tail_result mI c)),
     ((h c).1 0).trans (((dats mI 0 c).arrAt_in 0 rfl _).trans ((A_eq mI c 0).trans (V_keep mI c main_arg0 (by decide) (by decide)))),
     ((h c).2 main_arg1 (by decide)).trans (W1_arg1 mI c)⟩) (run_main mI ρ)

end AtIdeal

end Cert.KernelIdeal.Body

end
-- ==== Proof.KIWalk1.lean ====
/-
  The first walk of one grid point, at the exact (extended-real) reading of the floats.

  Block t holds anchors 512 t + r (r < 512); the keys are walked in sixteen chunks of 512, chunk k holding keys 512 k + j.
  For one chunk, at row r and lane j: the product of the block's row r with the transposed chunk is the inner product
  of the two embedding rows, i.e. the similarity of anchor 512 t + r and key 512 k + j; the label comparison holds
  exactly when the two labels agree; the positive mask is "labels agree and similarity below one", the negative mask
  "labels differ". A minimum over the lanes from +∞ is the infimum over j < 512, a maximum from −∞ the supremum, and
  "select(mask, 1, 0), maximised from −∞, is above 0" holds exactly when some lane has the mask.

  So one step of the walk sends the carried (least positive, greatest negative, positive seen, negative seen) at row r to
  (min with the chunk's infimum, max with the chunk's supremum, or with "some positive in the chunk", or with "some
  negative in the chunk"). By induction on k, before chunk k the four components are the infimum / supremum / existence
  over the keys below 512 k (the keys below 512 (k + 1) are those below 512 k together with chunk k); the walk starts
  from (+∞, −∞, no, no), the values over the empty set of keys, and after sixteen chunks every key is below 512 · 16.
  Hence the walk ends, at row r, with the specification's least positive similarity, greatest negative similarity,
  "has a positive" and "has a negative" of anchor 512 t + r.
-/
import proofs.«175013_j38981123178915_2_alg».proof.Proof.KIFold
import proofs.«175013_j38981123178915_2_alg».proof.Proof.Spec
import Idealize.ShloMosaic.PureOps.Ideal.Laws
import Idealize.ShloMosaic.PureOps.Reduce
import Idealize.ShloMosaic.Lib.Pipeline.Value
import Idealize.ShloMosaic.Lib.ValueIdx

noncomputable section

namespace Cert.KIWalk1

open Cert.KernelIdeal Cert.KernelIdeal.Gen Cert.KernelIdeal.Fold
open Idealize.ShloMosaic Idealize.ShloMosaic.ValueIdx
open scoped BigOperators

/-- The dot's operand indices, coordinate by coordinate: at output index i and contraction index q the left operand is
    read at (i 0, q) and the right operand at (q, i 1). -/
theorem dot_lhs_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
theorem dot_lhs_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem dot_rhs_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem dot_rhs_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- The transposed block read at (c, j) is the block at (j, c). -/
theorem transpose_read (v34 : Vec Ideal S512x128 .f32) (c : Fin 128) (j : Fin 512) :
    transpose S128x512 [1, 0] v34 transposes_S512x128_p1_0_S128x512 (ix2 c j) = v34 (ix2 j c) :=
  transpose_apply [1, 0] v34 transposes_S512x128_p1_0_S128x512 (ix2 c j) (ix2 j c) (fun b => match b with
    | ⟨0, _⟩ => rfl
    | ⟨1, _⟩ => rfl)

/-- The chunk product read at (r, j): the inner product of row r of the first block and row j of the second. -/
theorem pay1_apply (v0 v34 : Vec Ideal S512x128 .f32) (r j : Fin 512) :
    k0_pay1 (F := Ideal) v0 v34 (ix2 r j) = ∑ c : Fin 128, v0 (ix2 r c) * v34 (ix2 j c) := by
  unfold k0_pay1
  simp only [matmul]
  rw [Ideal.matmul_constant_zero_apply,
    ← Equiv.sum_comp (contrEquiv1 dot_S512x128_S128x512_S512x512_1_0_0_1_n_n 128 rfl rfl).symm]
  refine Finset.sum_congr rfl fun c _ => ?_
  have hk := contrEquiv1_symm_val dot_S512x128_S128x512_S512x512_1_0_0_1_n_n 128 rfl rfl c
  have el : dot_S512x128_S128x512_S512x512_1_0_0_1_n_n.lhsIdx (ix2 r j)
      ((contrEquiv1 dot_S512x128_S128x512_S512x512_1_0_0_1_n_n 128 rfl rfl).symm c) = ix2 r c :=
    funext fun a => Fin.ext (by
      match a with
      | ⟨0, _⟩ => exact dot_lhs_0 _ _
      | ⟨1, _⟩ => exact (dot_lhs_1 _ _).trans hk)
  have er : dot_S512x128_S128x512_S512x512_1_0_0_1_n_n.rhsIdx (ix2 r j)
      ((contrEquiv1 dot_S512x128_S128x512_S512x512_1_0_0_1_n_n 128 rfl rfl).symm c) = ix2 c j :=
    funext fun a => Fin.ext (by
      match a with
      | ⟨0, _⟩ => exact (dot_rhs_0 _ _).trans hk
      | ⟨1, _⟩ => exact dot_rhs_1 _ _)
  rw [el, er, transpose_read]

/-! ## Words -/

theorem posInf_eq_top : Ideal.ofBits .f32 0x7F800000#32 = (⊤ : EReal) := by simp [Ideal.ofBits, Ideal.ieee]
theorem negInf_eq_bot : Ideal.ofBits .f32 0xFF800000#32 = (⊥ : EReal) := by simp [Ideal.ofBits, Ideal.ieee]

theorem cmpi_eq_one (a b : BitVec 32) : IntOp.cmpi .eq a b = 1#1 ↔ a = b := by
  show BitVec.ofBool (a == b) = 1#1 ↔ a = b
  by_cases h : a = b
  · subst h; simp
  · rw [beq_eq_false_iff_ne.mpr h]
    exact ⟨fun h' => absurd h' (by decide), fun h' => absurd h' h⟩

theorem cmp_olt_one (a b : EReal) : Ideal.cmp .olt a b = 1#1 ↔ a < b := by
  unfold Ideal.cmp
  by_cases h : a < b <;> simp [h]

theorem cmp_ogt_one (a b : EReal) : Ideal.cmp .ogt a b = 1#1 ↔ b < a := by
  unfold Ideal.cmp
  by_cases h : b < a <;> simp [h]

theorem andi_one (a b : BitVec 1) : IntOp.andi a b = 1#1 ↔ a = 1#1 ∧ b = 1#1 := by
  rcases BitVec.eq_zero_or_eq_one a with h | h <;> rcases BitVec.eq_zero_or_eq_one b with h' | h' <;>
    subst h <;> subst h' <;> decide

theorem ori_one (a b : BitVec 1) : IntOp.ori a b = 1#1 ↔ a = 1#1 ∨ b = 1#1 := by
  rcases BitVec.eq_zero_or_eq_one a with h | h <;> rcases BitVec.eq_zero_or_eq_one b with h' | h' <;>
    subst h <;> subst h' <;> decide

theorem xori_true_one (a : BitVec 1) : IntOp.xori a 1#1 = 1#1 ↔ ¬ a = 1#1 := by
  rcases BitVec.eq_zero_or_eq_one a with h | h <;> subst h <;> decide

/-! ## The masks at (r, j) -/

/-- The label comparison at (r, j) compares the column's label r with the row's label j. -/
theorem pay2_apply (v2 : IVec S512x1 32) (v36 : Vec Ideal S1x512 .i32) (r j : Fin 512) :
    k0_pay2 (F := Ideal) v2 v36 (ix2 r j) = IntOp.cmpi .eq (v2 (ix2 r (0 : Fin 1))) (v36 (ix2 (0 : Fin 1) j)) := by
  unfold k0_pay2
  rw [shapeCast_self]
  show IntOp.cmpi .eq (broadcastTo S512x512 v2 broadcasts_S512x1_S512x512 (ix2 r j))
    (broadcastTo S512x512 v36 broadcasts_S1x512_S512x512 (ix2 r j)) = _
  rw [broadcastTo_apply v2 broadcasts_S512x1_S512x512 (ix2 r j) (ix2 r (0 : Fin 1)) (fun a => match a with
      | ⟨0, _⟩ => by show r.val = if (512 : Nat) = 1 then 0 else r.val; rw [if_neg (by decide)]
      | ⟨1, _⟩ => by show 0 = if (1 : Nat) = 1 then 0 else j.val; rw [if_pos rfl]),
    broadcastTo_apply v36 broadcasts_S1x512_S512x512 (ix2 r j) (ix2 (0 : Fin 1) j) (fun a => match a with
      | ⟨0, _⟩ => by show 0 = if (1 : Nat) = 1 then 0 else r.val; rw [if_pos rfl]
      | ⟨1, _⟩ => by show j.val = if (512 : Nat) = 1 then 0 else j.val; rw [if_neg (by decide)])]

theorem pay2_one (v2 : IVec S512x1 32) (v36 : Vec Ideal S1x512 .i32) (r j : Fin 512) :
    k0_pay2 (F := Ideal) v2 v36 (ix2 r j) = 1#1 ↔ v2 (ix2 r (0 : Fin 1)) = v36 (ix2 (0 : Fin 1) j) := by
  rw [pay2_apply]; exact cmpi_eq_one _ _

/-- The positive mask at (r, j): the labels agree and the product is below one. -/
theorem pay3_one (v0 : Vec Ideal S512x128 .f32) (v2 : IVec S512x1 32) (v34 : Vec Ideal S512x128 .f32) (v36 : Vec Ideal S1x512 .i32)
    (r j : Fin 512) :
    k0_pay3 (F := Ideal) v0 v2 v34 v36 (ix2 r j) = 1#1 ↔
      v2 (ix2 r (0 : Fin 1)) = v36 (ix2 (0 : Fin 1) j) ∧ k0_pay1 (F := Ideal) v0 v34 (ix2 r j) < Ideal.ofBits .f32 0x3F800000#32 := by
  have e : k0_pay3 (F := Ideal) v0 v2 v34 v36 (ix2 r j) = IntOp.andi (k0_pay2 (F := Ideal) v2 v36 (ix2 r j))
      (Ideal.cmp .olt (k0_pay1 (F := Ideal) v0 v34 (ix2 r j)) (Ideal.ofBits .f32 0x3F800000#32)) := rfl
  rw [e, andi_one, pay2_one, cmp_olt_one]

/-- The negative mask at (r, j): the labels differ. -/
theorem pay4_one (v2 : IVec S512x1 32) (v36 : Vec Ideal S1x512 .i32) (r j : Fin 512) :
    k0_pay4 (F := Ideal) v2 v36 (ix2 r j) = 1#1 ↔ ¬ v2 (ix2 r (0 : Fin 1)) = v36 (ix2 (0 : Fin 1) j) := by
  have e : k0_pay4 (F := Ideal) v2 v36 (ix2 r j) = IntOp.xori (k0_pay2 (F := Ideal) v2 v36 (ix2 r j)) 1#1 := rfl
  rw [e, xori_true_one, pay2_one]

/-! ## A lane reduction of a chunk, read at a row -/

theorem fold_minimumf_eq_inf {ι : Type} (s : Finset ι) (f : ι → EReal) :
    s.fold (FloatOps.minimumf (F := Ideal) (φ := .f32)) (FloatOps.ofBits (F := Ideal) .f32 0x7F800000#32) f = s.inf f := by
  classical
  induction s using Finset.induction_on with
  | empty => rw [Finset.fold_empty, Finset.inf_empty]; exact posInf_eq_top
  | insert a s ha ih => rw [Finset.fold_insert ha, Finset.inf_insert, ih]; rfl

theorem fold_maximumf_eq_sup {ι : Type} (s : Finset ι) (f : ι → EReal) :
    s.fold (FloatOps.maximumf (F := Ideal) (φ := .f32)) (FloatOps.ofBits (F := Ideal) .f32 0xFF800000#32) f = s.sup f := by
  classical
  induction s using Finset.induction_on with
  | empty => rw [Finset.fold_empty, Finset.sup_empty]; exact negInf_eq_bot
  | insert a s ha ih => rw [Finset.fold_insert ha, Finset.sup_insert, ih]; rfl

/-- The source index over row r with lane k. -/
theorem lift_row (r k : Fin 512) : reduces_S512x512_S512.lift (ix1 r) k = ix2 r k := by
  funext c
  refine Fin.ext ?_
  match c with
  | ⟨0, _⟩ => rfl
  | ⟨1, _⟩ => rfl

/-- The column cast [512] → [512, 1] read at (r, 0). -/
theorem shapeCast_col {α : Type} (v : S512.Idx → α) (r : Fin 512) :
    shapeCast S512x1 v shapeCasts_S512_S512x1 (ix2 r (0 : Fin 1)) = v (ix1 r) :=
  shapeCast_apply v shapeCasts_S512_S512x1 (ix2 r (0 : Fin 1)) (ix1 r) (by
    rw [Shape.rowMajor_val_one, Shape.rowMajor_val_two]; show r.val = r.val * 1 + 0; omega)

/-- A minimum over the lanes from +∞, at row r: the infimum over the lanes. -/
theorem min_lanes (src : FVec Ideal S512x512 .f32) (r : Fin 512) :
    multiReduction .minimumf [1] S512 src 0x7F800000#32 reduces_S512x512_S512 (.inl rfl) rfl (ix1 r)
      = Finset.univ.inf fun j : Fin 512 => src (ix2 r j) := by
  refine (multiReduction_minimumf_eq_fold src _ reduces_S512x512_S512 _ _ (ix1 r)).trans ?_
  refine (reduces_S512x512_S512.fold_filter_drop_single _ _ src (ix1 r)).trans ?_
  rw [fold_minimumf_eq_inf]
  exact Finset.inf_congr rfl fun k _ => congrArg src (lift_row r k)

/-- A maximum over the lanes from −∞, at row r: the supremum over the lanes. -/
theorem max_lanes (src : FVec Ideal S512x512 .f32) (r : Fin 512) :
    multiReduction .maximumf [1] S512 src 0xFF800000#32 reduces_S512x512_S512 (.inl rfl) rfl (ix1 r)
      = Finset.univ.sup fun j : Fin 512 => src (ix2 r j) := by
  refine (multiReduction_maximumf_eq_fold src _ reduces_S512x512_S512 _ _ (ix1 r)).trans ?_
  refine (reduces_S512x512_S512.fold_filter_drop_single _ _ src (ix1 r)).trans ?_
  rw [fold_maximumf_eq_sup]
  exact Finset.sup_congr rfl fun k _ => congrArg src (lift_row r k)

/-! ## One step of the first walk at row r -/

/-- The least-positive component after a chunk: the carried value or the chunk's infimum of select(positive, product, +∞). -/
theorem pay5_apply (v0 : Vec Ideal S512x128 .f32) (v2 : IVec S512x1 32) (arg8 : FVec Ideal S512x1 .f32)
    (v34 : Vec Ideal S512x128 .f32) (v36 : Vec Ideal S1x512 .i32) (r : Fin 512) :
    k0_pay5 (F := Ideal) v0 v2 arg8 v34 v36 (ix2 r (0 : Fin 1)) =
      min (arg8 (ix2 r (0 : Fin 1))) (Finset.univ.inf fun j : Fin 512 =>
        Scalar.select (k0_pay3 (F := Ideal) v0 v2 v34 v36 (ix2 r j)) (k0_pay1 (F := Ideal) v0 v34 (ix2 r j)) (⊤ : EReal)) := by
  unfold k0_pay5
  rw [minimumf_apply, shapeCast_col, min_lanes]
  refine congrArg (min _) (Finset.inf_congr rfl fun j _ => ?_)
  show Scalar.select _ _ (Ideal.ofBits .f32 0x7F800000#32) = _
  rw [posInf_eq_top]

/-- The greatest-negative component after a chunk. -/
theorem pay6_apply (v0 : Vec Ideal S512x128 .f32) (v2 : IVec S512x1 32) (arg9 : FVec Ideal S512x1 .f32)
    (v34 : Vec Ideal S512x128 .f32) (v36 : Vec Ideal S1x512 .i32) (r : Fin 512) :
    k0_pay6 (F := Ideal) v0 v2 arg9 v34 v36 (ix2 r (0 : Fin 1)) =
      max (arg9 (ix2 r (0 : Fin 1))) (Finset.univ.sup fun j : Fin 512 =>
        Scalar.select (k0_pay4 (F := Ideal) v2 v36 (ix2 r j)) (k0_pay1 (F := Ideal) v0 v34 (ix2 r j)) (⊥ : EReal)) := by
  unfold k0_pay6
  rw [maximumf_apply, shapeCast_col, max_lanes]
  refine congrArg (max _) (Finset.sup_congr rfl fun j _ => ?_)
  show Scalar.select _ _ (Ideal.ofBits .f32 0xFF800000#32) = _
  rw [negInf_eq_bot]

theorem one_f32 : Ideal.ofBits .f32 0x3F800000#32 = (1 : EReal) := by
  simp [Ideal.ofBits, Ideal.ieee, -EReal.coe_mul]; norm_num

theorem ori_apply {s : Shape} {w : Nat} (a b : IVec s w) (i : s.Idx) : ori a b i = IntOp.ori (a i) (b i) := rfl

/-- select(mask, 1, 0) maximised over the lanes from −∞ is above 0 exactly when some lane has the mask. -/
theorem any_lanes (m : IVec S512x512 1) (r : Fin 512) :
    Ideal.cmp .ogt (Finset.univ.sup fun j : Fin 512 =>
        Scalar.select (m (ix2 r j)) (Ideal.ofBits .f32 0x3F800000#32) (Ideal.ofBits .f32 0x00000000#32))
      (Ideal.ofBits .f32 0x00000000#32) = 1#1 ↔ ∃ j : Fin 512, m (ix2 r j) = 1#1 := by
  rw [cmp_ogt_one, Finset.lt_sup_iff]
  constructor
  · rintro ⟨j, _, hj⟩
    refine ⟨j, ?_⟩
    by_contra hne
    rw [eq_zero_of_ne_one hne, select_zero] at hj
    exact lt_irrefl _ hj
  · rintro ⟨j, hj⟩
    refine ⟨j, Finset.mem_univ _, ?_⟩
    rw [hj, select_one, Ideal.ofBits_zero_f32, one_f32]
    exact zero_lt_one

/-- The positive-seen bit after a chunk: carried, or some lane of the chunk is a positive. -/
theorem pay7_one (v0 : Vec Ideal S512x128 .f32) (v2 : IVec S512x1 32) (arg10 : IVec S512x1 1)
    (v34 : Vec Ideal S512x128 .f32) (v36 : Vec Ideal S1x512 .i32) (r : Fin 512) :
    k0_pay7 (F := Ideal) v0 v2 arg10 v34 v36 (ix2 r (0 : Fin 1)) = 1#1 ↔
      arg10 (ix2 r (0 : Fin 1)) = 1#1 ∨ ∃ j : Fin 512, k0_pay3 (F := Ideal) v0 v2 v34 v36 (ix2 r j) = 1#1 := by
  unfold k0_pay7
  rw [ori_apply, ori_one, shapeCast_col, cmpf_apply, max_lanes, Ideal.cmpf_def]
  exact or_congr Iff.rfl (any_lanes _ r)

/-- The chunk's negative-seen bit: some lane of the chunk is a negative. -/
theorem pay8_one (v2 : IVec S512x1 32) (v36 : Vec Ideal S1x512 .i32) (r : Fin 512) :
    k0_pay8 (F := Ideal) v2 v36 (ix2 r (0 : Fin 1)) = 1#1 ↔ ∃ j : Fin 512, k0_pay4 (F := Ideal) v2 v36 (ix2 r j) = 1#1 := by
  unfold k0_pay8
  rw [shapeCast_col, cmpf_apply, max_lanes, Ideal.cmpf_def]
  exact any_lanes _ r

theorem pay20_one (arg11 v71 : IVec S512x1 1) (i : S512x1.Idx) :
    k0_pay20 arg11 v71 i = 1#1 ↔ arg11 i = 1#1 ∨ v71 i = 1#1 := by
  unfold k0_pay20
  rw [ori_apply, ori_one]

/-! ## The keys below 512 (k + 1): those below 512 k, and chunk k -/

/-- Key j of chunk k (also: anchor r of block t). -/
def key (k : Fin 16) (j : Fin 512) : Fin 8192 := ⟨512 * k.val + j.val, by have := k.isLt; have := j.isLt; omega⟩

/-- The keys below n. -/
def below (n : ℕ) : Finset (Fin 8192) := Finset.univ.filter fun j => j.val < n

theorem below_zero : below 0 = ∅ := by
  ext j; simp [below]

theorem below_all : below (512 * 16) = Finset.univ := by
  ext j
  have := j.isLt
  simp only [below, Finset.mem_filter, Finset.mem_univ, true_and, iff_true]
  omega

theorem below_succ (k : ℕ) (h : k < 16) :
    below (512 * (k + 1)) = below (512 * k) ∪ Finset.univ.image (key ⟨k, h⟩) := by
  ext j
  simp only [below, Finset.mem_filter, Finset.mem_univ, true_and, Finset.mem_union, Finset.mem_image]
  constructor
  · intro hj
    by_cases h' : j.val < 512 * k
    · exact Or.inl h'
    · exact Or.inr ⟨⟨j.val - 512 * k, by omega⟩, Fin.ext (by show 512 * k + (j.val - 512 * k) = j.val; omega)⟩
  · rintro (hj | ⟨c, rfl⟩)
    · omega
    · have := c.isLt
      show 512 * k + c.val < 512 * (k + 1)
      omega

theorem inf_below_succ (g : Fin 8192 → EReal) (k : ℕ) (h : k < 16) :
    (below (512 * (k + 1))).inf g = min ((below (512 * k)).inf g) (Finset.univ.inf fun j : Fin 512 => g (key ⟨k, h⟩ j)) := by
  rw [below_succ k h, Finset.inf_union, Finset.inf_image]; rfl

theorem sup_below_succ (g : Fin 8192 → EReal) (k : ℕ) (h : k < 16) :
    (below (512 * (k + 1))).sup g = max ((below (512 * k)).sup g) (Finset.univ.sup fun j : Fin 512 => g (key ⟨k, h⟩ j)) := by
  rw [below_succ k h, Finset.sup_union, Finset.sup_image]; rfl

theorem exists_below_succ (P : Fin 8192 → Prop) (k : ℕ) (h : k < 16) :
    (∃ j ∈ below (512 * (k + 1)), P j) ↔ (∃ j ∈ below (512 * k), P j) ∨ ∃ j : Fin 512, P (key ⟨k, h⟩ j) := by
  rw [below_succ k h]
  constructor
  · rintro ⟨j, hj, hP⟩
    rcases Finset.mem_union.mp hj with h' | h'
    · exact Or.inl ⟨j, h', hP⟩
    · obtain ⟨c, _, rfl⟩ := Finset.mem_image.mp h'
      exact Or.inr ⟨c, hP⟩
  · rintro (⟨j, hj, hP⟩ | ⟨c, hP⟩)
    · exact ⟨j, Finset.mem_union_left _ hj, hP⟩
    · exact ⟨key ⟨k, h⟩ c, Finset.mem_union_right _ (Finset.mem_image_of_mem _ (Finset.mem_univ _)), hP⟩

/-! ## The chunk's arithmetic on the matrix and the labels -/

section Walk

open Classical

variable (x : Cert.Spec.SX.Idx → EReal) (tg : Cert.Spec.ST.Idx → BitVec 32) (t : Fin 16)

/-- The product of block t's row r with chunk k's row j is the similarity of anchor 512 t + r and key 512 k + j. -/
theorem sim_chunk (k : Fin 16) (r j : Fin 512) :
    k0_pay1 (F := Ideal) (xchunk x t) (xchunk x k) (ix2 r j) = Cert.Spec.sim x (key t r) (key k j) := by
  rw [pay1_apply]; rfl

theorem lbl_col (r : Fin 512) :
    k0_pay15 (F := Ideal) (lblBlock (F := Ideal) tg t) (ix2 r (0 : Fin 1)) = tg (ix1 (key t r)) := by
  unfold k0_pay15; rw [shapeCast_self]; rfl

theorem lbl_row (k : Fin 16) (j : Fin 512) :
    tchunk (F := Ideal) (lblRow (F := Ideal) tg) k (ix2 (0 : Fin 1) j) = tg (ix1 (key k j)) := rfl

theorem pos_chunk (k : Fin 16) (r j : Fin 512) :
    k0_pay3 (F := Ideal) (xchunk x t) (k0_pay15 (F := Ideal) (lblBlock (F := Ideal) tg t)) (xchunk x k)
      (tchunk (F := Ideal) (lblRow (F := Ideal) tg) k) (ix2 r j) = 1#1 ↔ Cert.Spec.pos x tg (key t r) (key k j) := by
  rw [pay3_one, sim_chunk, lbl_col, lbl_row]; exact Iff.rfl

theorem neg_chunk (k : Fin 16) (r j : Fin 512) :
    k0_pay4 (F := Ideal) (k0_pay15 (F := Ideal) (lblBlock (F := Ideal) tg t))
      (tchunk (F := Ideal) (lblRow (F := Ideal) tg) k) (ix2 r j) = 1#1 ↔ Cert.Spec.neg tg (key t r) (key k j) := by
  rw [pay4_one, lbl_col, lbl_row]; exact Iff.rfl

/-- The four functions of a key the first walk folds, for anchor i. -/
def gMin (i j : Fin 8192) : EReal := if Cert.Spec.pos x tg i j then Cert.Spec.sim x i j else Cert.Spec.cPosInf
def gMax (i j : Fin 8192) : EReal := if Cert.Spec.neg tg i j then Cert.Spec.sim x i j else Cert.Spec.cNegInf

/-- One step of the walk, component by component, at row r. -/
theorem step_min (k : Fin 16) (a : Carry Ideal) (r : Fin 512) :
    (step1 (F := Ideal) (xchunk x t) (lblBlock (F := Ideal) tg t) (xchunk x k) (tchunk (F := Ideal) (lblRow (F := Ideal) tg) k) a).1
        (ix2 r (0 : Fin 1))
      = min (a.1 (ix2 r (0 : Fin 1))) (Finset.univ.inf fun j : Fin 512 => gMin x tg (key t r) (key k j)) := by
  show k0_pay5 (F := Ideal) _ _ _ _ _ (ix2 r (0 : Fin 1)) = _
  rw [pay5_apply]
  refine congrArg (min _) (Finset.inf_congr rfl fun j _ => ?_)
  rw [sim_chunk]
  unfold gMin
  by_cases h : Cert.Spec.pos x tg (key t r) (key k j)
  · rw [if_pos h, (pos_chunk x tg t k r j).mpr h, select_one]
  · rw [if_neg h, eq_zero_of_ne_one (fun h' => h ((pos_chunk x tg t k r j).mp h')), select_zero]
    exact posInf_eq_top.symm

theorem step_max (k : Fin 16) (a : Carry Ideal) (r : Fin 512) :
    (step1 (F := Ideal) (xchunk x t) (lblBlock (F := Ideal) tg t) (xchunk x k) (tchunk (F := Ideal) (lblRow (F := Ideal) tg) k) a).2.1
        (ix2 r (0 : Fin 1))
      = max (a.2.1 (ix2 r (0 : Fin 1))) (Finset.univ.sup fun j : Fin 512 => gMax x tg (key t r) (key k j)) := by
  show k0_pay6 (F := Ideal) _ _ _ _ _ (ix2 r (0 : Fin 1)) = _
  rw [pay6_apply]
  refine congrArg (max _) (Finset.sup_congr rfl fun j _ => ?_)
  rw [sim_chunk]
  unfold gMax
  by_cases h : Cert.Spec.neg tg (key t r) (key k j)
  · rw [if_pos h, (neg_chunk tg t k r j).mpr h, select_one]
  · rw [if_neg h, eq_zero_of_ne_one (fun h' => h ((neg_chunk tg t k r j).mp h')), select_zero]
    exact negInf_eq_bot.symm

theorem step_anyPos (k : Fin 16) (a : Carry Ideal) (r : Fin 512) :
    (step1 (F := Ideal) (xchunk x t) (lblBlock (F := Ideal) tg t) (xchunk x k) (tchunk (F := Ideal) (lblRow (F := Ideal) tg) k) a).2.2.1
        (ix2 r (0 : Fin 1)) = 1#1
      ↔ a.2.2.1 (ix2 r (0 : Fin 1)) = 1#1 ∨ ∃ j : Fin 512, Cert.Spec.pos x tg (key t r) (key k j) := by
  show k0_pay7 (F := Ideal) _ _ _ _ _ (ix2 r (0 : Fin 1)) = 1#1 ↔ _
  rw [pay7_one]
  exact or_congr Iff.rfl (exists_congr fun j => pos_chunk x tg t k r j)

theorem step_anyNeg (k : Fin 16) (a : Carry Ideal) (r : Fin 512) :
    (step1 (F := Ideal) (xchunk x t) (lblBlock (F := Ideal) tg t) (xchunk x k) (tchunk (F := Ideal) (lblRow (F := Ideal) tg) k) a).2.2.2
        (ix2 r (0 : Fin 1)) = 1#1
      ↔ a.2.2.2 (ix2 r (0 : Fin 1)) = 1#1 ∨ ∃ j : Fin 512, Cert.Spec.neg tg (key t r) (key k j) := by
  show k0_pay20 _ (k0_pay8 (F := Ideal) _ _) (ix2 r (0 : Fin 1)) = 1#1 ↔ _
  rw [pay20_one, pay8_one]
  exact or_congr Iff.rfl (exists_congr fun j => neg_chunk tg t k r j)

end Walk

/-! ## The walk's invariant: before chunk k, row r holds the folds over the keys below 512 k -/

section Inv

open Classical

variable (x : Cert.Spec.SX.Idx → EReal) (tg : Cert.Spec.ST.Idx → BitVec 32) (t : Fin 16) (r : Fin 512)

theorem inv_min : ∀ (k : ℕ), k ≤ 16 →
    (carry1 (F := Ideal) (xchunk x t) (lblBlock (F := Ideal) tg t) x (lblRow (F := Ideal) tg) k).1 (ix2 r (0 : Fin 1))
      = (below (512 * k)).inf (gMin x tg (key t r))
  | 0, _ => by
    rw [Nat.mul_zero, below_zero, Finset.inf_empty]
    exact posInf_eq_top
  | k + 1, hk => by
    have h : k < 16 := hk
    rw [carry1, dif_pos h, step_min x tg t ⟨k, h⟩ _ r, inv_min k (le_of_lt h), inf_below_succ _ k h]

theorem inv_max : ∀ (k : ℕ), k ≤ 16 →
    (carry1 (F := Ideal) (xchunk x t) (lblBlock (F := Ideal) tg t) x (lblRow (F := Ideal) tg) k).2.1 (ix2 r (0 : Fin 1))
      = (below (512 * k)).sup (gMax x tg (key t r))
  | 0, _ => by
    rw [Nat.mul_zero, below_zero, Finset.sup_empty]
    exact negInf_eq_bot
  | k + 1, hk => by
    have h : k < 16 := hk
    rw [carry1, dif_pos h, step_max x tg t ⟨k, h⟩ _ r, inv_max k (le_of_lt h), sup_below_succ _ k h]

theorem inv_anyPos : ∀ (k : ℕ), k ≤ 16 →
    ((carry1 (F := Ideal) (xchunk x t) (lblBlock (F := Ideal) tg t) x (lblRow (F := Ideal) tg) k).2.2.1 (ix2 r (0 : Fin 1)) = 1#1
      ↔ ∃ j ∈ below (512 * k), Cert.Spec.pos x tg (key t r) j)
  | 0, _ => by
    rw [Nat.mul_zero, below_zero]
    constructor
    · intro h
      have h' : (0#1 : BitVec 1) = 1#1 := h
      exact absurd h' (by decide)
    · rintro ⟨j, hj, _⟩
      exact absurd hj (Finset.notMem_empty j)
  | k + 1, hk => by
    have h : k < 16 := hk
    rw [carry1, dif_pos h, step_anyPos x tg t ⟨k, h⟩ _ r, inv_anyPos k (le_of_lt h)]
    exact (exists_below_succ (fun j => Cert.Spec.pos x tg (key t r) j) k h).symm

theorem inv_anyNeg : ∀ (k : ℕ), k ≤ 16 →
    ((carry1 (F := Ideal) (xchunk x t) (lblBlock (F := Ideal) tg t) x (lblRow (F := Ideal) tg) k).2.2.2 (ix2 r (0 : Fin 1)) = 1#1
      ↔ ∃ j ∈ below (512 * k), Cert.Spec.neg tg (key t r) j)
  | 0, _ => by
    rw [Nat.mul_zero, below_zero]
    constructor
    · intro h
      have h' : (0#1 : BitVec 1) = 1#1 := h
      exact absurd h' (by decide)
    · rintro ⟨j, hj, _⟩
      exact absurd hj (Finset.notMem_empty j)
  | k + 1, hk => by
    have h : k < 16 := hk
    rw [carry1, dif_pos h, step_anyNeg x tg t ⟨k, h⟩ _ r, inv_anyNeg k (le_of_lt h)]
    exact (exists_below_succ (fun j => Cert.Spec.neg tg (key t r) j) k h).symm

/-! ## After the sixteen chunks -/

/-- The walk's least positive similarity at row r of block t is the specification's, for anchor 512 t + r. -/
theorem walk1_min :
    (carry1 (F := Ideal) (xchunk x t) (lblBlock (F := Ideal) tg t) x (lblRow (F := Ideal) tg) 16).1 (ix2 r (0 : Fin 1))
      = Cert.Spec.minPos x tg ⟨512 * t.val + r.val, by have := t.isLt; have := r.isLt; omega⟩ := by
  rw [inv_min x tg t r 16 le_rfl, below_all]; rfl

/-- The walk's greatest negative similarity likewise. -/
theorem walk1_max :
    (carry1 (F := Ideal) (xchunk x t) (lblBlock (F := Ideal) tg t) x (lblRow (F := Ideal) tg) 16).2.1 (ix2 r (0 : Fin 1))
      = Cert.Spec.maxNeg x tg ⟨512 * t.val + r.val, by have := t.isLt; have := r.isLt; omega⟩ := by
  rw [inv_max x tg t r 16 le_rfl, below_all]; rfl

/-- The walk's positive-seen bit is set exactly when the anchor has a positive. -/
theorem walk1_anyPos :
    (carry1 (F := Ideal) (xchunk x t) (lblBlock (F := Ideal) tg t) x (lblRow (F := Ideal) tg) 16).2.2.1 (ix2 r (0 : Fin 1)) = 1#1
      ↔ ∃ j, Cert.Spec.pos x tg ⟨512 * t.val + r.val, by have := t.isLt; have := r.isLt; omega⟩ j := by
  rw [inv_anyPos x tg t r 16 le_rfl, below_all]
  exact ⟨fun ⟨j, _, h⟩ => ⟨j, h⟩, fun ⟨j, h⟩ => ⟨j, Finset.mem_univ _, h⟩⟩

/-- The walk's negative-seen bit is set exactly when the anchor has a negative. -/
theorem walk1_anyNeg :
    (carry1 (F := Ideal) (xchunk x t) (lblBlock (F := Ideal) tg t) x (lblRow (F := Ideal) tg) 16).2.2.2 (ix2 r (0 : Fin 1)) = 1#1
      ↔ ∃ j, Cert.Spec.neg tg ⟨512 * t.val + r.val, by have := t.isLt; have := r.isLt; omega⟩ j := by
  rw [inv_anyNeg x tg t r 16 le_rfl, below_all]
  exact ⟨fun ⟨j, _, h⟩ => ⟨j, h⟩, fun ⟨j, h⟩ => ⟨j, Finset.mem_univ _, h⟩⟩

end Inv

end Cert.KIWalk1
end
-- ==== Proof.KIWalk2.lean ====
/-
  The second walk over the keys and the two outputs of one block of 512 anchors.

  For the anchors 512 t + r (r < 512) and the keys 512 k + j (k < 16, j < 512): entry (r, j) of the chunk product is the
  inner product of rows 512 t + r and 512 k + j; the chunk's label comparison, negative selection and positive selection at
  (r, j) are the relations same, negSel, posSel of anchor 512 t + r and key 512 k + j, once the two columns lo, hi hold the
  anchors' least positive and greatest negative similarity. A chunk's lane sum is a sum over j < 512, its lane maximum of
  a 0/1 mask is positive exactly when some lane is selected. By induction on the number of chunks walked the carried sums
  are the sums over the keys below 512 k and the carried flags say whether a key below 512 k was selected; at k = 16 this is
  every key. The block's loss and validity flag then read off the four existence statements and the two sums.
-/
import proofs.«175013_j38981123178915_2_alg».proof.Proof.KIFold
import proofs.«175013_j38981123178915_2_alg».proof.Proof.Spec
import Idealize.ShloMosaic.PureOps.Ideal.Laws
import Idealize.ShloMosaic.Lib.Pipeline.Value
import Idealize.ShloMosaic.Lib.ValueIdx
import Idealize.ShloMosaic.Lib.IdealHost

noncomputable section

namespace Cert.KIWalk2

open Cert.KernelIdeal Cert.KernelIdeal.Gen Cert.KernelIdeal.Fold
open Idealize.ShloMosaic Idealize.ShloMosaic.ValueIdx
open scoped BigOperators
open Classical

/-- Row r of block t of a matrix of 16 blocks of 512 rows. -/
abbrev gi (t : Fin 16) (r : Fin 512) : Fin 8192 := ⟨512 * t.val + r.val, by have := t.isLt; have := r.isLt; omega⟩

theorem xchunk_eq (x : Cert.Spec.SX.Idx → EReal) (k : Fin 16) (y : S512x128.Idx) (a : Fin 512) (c : Fin 128)
    (h0 : (y 0).val = a.val) (h1 : (y 1).val = c.val) : xchunk (F := Ideal) x k y = x (ix2 (gi k a) c) := by
  unfold xchunk
  refine congrArg x ?_
  funext d
  match d with
  | ⟨0, _⟩ => exact Fin.ext (by show 512 * k.val + (y 0).val = 512 * k.val + a.val; rw [h0])
  | ⟨1, _⟩ => exact Fin.ext h1

/-- The dimension numbers of the chunk product. -/
abbrev DD : DotDims S512x128 S128x512 S512x512 := dot_S512x128_S128x512_S512x512_1_0_0_1_n_n

theorem lhs0 (i : S512x512.Idx) (q : DD.contr.Idx) : (DD.lhsIdx i q 0).val = (i 0).val := by
  unfold DotDims.lhsIdx
  rw [dif_neg (show ¬(0 : Fin S512x128.rank) ∈ DD.lhsBatch by decide), dif_pos (show (0 : Fin S512x128.rank) ∈ DD.lhsNonContracting by decide)]
  rfl
theorem lhs1 (i : S512x512.Idx) (q : DD.contr.Idx) : (DD.lhsIdx i q 1).val = (q ⟨0, by decide⟩).val :=
  DD.lhsIdx_val_of_single rfl i q
theorem rhs0 (i : S512x512.Idx) (q : DD.contr.Idx) : (DD.rhsIdx i q 0).val = (q ⟨0, by decide⟩).val :=
  DD.rhsIdx_val_of_single rfl i q
theorem rhs1 (i : S512x512.Idx) (q : DD.contr.Idx) : (DD.rhsIdx i q 1).val = (i 1).val := by
  unfold DotDims.rhsIdx
  rw [dif_neg (show ¬(1 : Fin S128x512.rank) ∈ DD.rhsBatch by decide), dif_pos (show (1 : Fin S128x512.rank) ∈ DD.rhsNonContracting by decide)]
  rfl

/-- Entry (r, j) of the product of block t with the transpose of block k: the inner product of rows 512 t + r and 512 k + j. -/
theorem pay9_apply (x : Cert.Spec.SX.Idx → EReal) (t k : Fin 16) (r j : Fin 512) :
    k0_pay9 (F := Ideal) (xchunk x t) (xchunk x k) (ix2 r j) = Cert.Spec.sim x (gi t r) (gi k j) := by
  unfold k0_pay9
  simp only [matmul]
  rw [Ideal.matmul_constant_zero_apply, ← Equiv.sum_comp (contrEquiv1 DD 128 rfl rfl).symm]
  unfold Cert.Spec.sim
  refine Finset.sum_congr rfl fun c _ => ?_
  have hk := contrEquiv1_symm_val DD 128 rfl rfl c
  refine congrArg₂ (· * ·) ?_ ?_
  · exact xchunk_eq x t _ r c (lhs0 _ _) ((lhs1 _ _).trans hk)
  · refine (transpose_apply [1, 0] (xchunk (F := Ideal) x k) transposes_S512x128_p1_0_S128x512 _ (ix2 j c) (fun b => ?_)).trans ?_
    · match b with
      | ⟨0, _⟩ => exact ((rhs0 _ _).trans hk).symm
      | ⟨1, _⟩ => exact (rhs1 (ix2 r j) _).symm
    · exact xchunk_eq x k _ j c rfl rfl

/-! ## One-bit words -/

theorem andi_one {a b : BitVec 1} : IntOp.andi a b = 1#1 ↔ a = 1#1 ∧ b = 1#1 := by
  rcases BitVec.eq_zero_or_eq_one a with rfl | rfl <;> rcases BitVec.eq_zero_or_eq_one b with rfl | rfl <;> decide
theorem ori_one {a b : BitVec 1} : IntOp.ori a b = 1#1 ↔ a = 1#1 ∨ b = 1#1 := by
  rcases BitVec.eq_zero_or_eq_one a with rfl | rfl <;> rcases BitVec.eq_zero_or_eq_one b with rfl | rfl <;> decide
theorem xori_one {a : BitVec 1} : IntOp.xori a 1#1 = 1#1 ↔ ¬ a = 1#1 := by
  rcases BitVec.eq_zero_or_eq_one a with rfl | rfl <;> decide
theorem ofBool_one {b : Bool} : BitVec.ofBool b = 1#1 ↔ b = true := by
  cases b <;> decide
theorem cmp_ogt_one {a b : EReal} : Ideal.cmp .ogt a b = 1#1 ↔ b < a := by
  unfold Ideal.cmp; rw [ofBool_one]; exact decide_eq_true_iff
theorem cmp_olt_one {a b : EReal} : Ideal.cmp .olt a b = 1#1 ↔ a < b := by
  unfold Ideal.cmp; rw [ofBool_one]; exact decide_eq_true_iff
theorem cmpi_eq_one {w : Nat} {a b : BitVec w} : IntOp.cmpi .eq a b = 1#1 ↔ a = b := by
  unfold IntOp.cmpi; rw [ofBool_one]; exact beq_iff_eq

/-! ## Columns and rows spread over a square -/

theorem bcast_col {α : Type} (v : S512x1.Idx → α) (r j : Fin 512) :
    broadcastTo S512x512 v broadcasts_S512x1_S512x512 (ix2 r j) = v (ix2 r 0) :=
  broadcastTo_apply v broadcasts_S512x1_S512x512 (ix2 r j) (ix2 r 0) (fun a => match a with
    | ⟨0, _⟩ => by show r.val = if (512 : Nat) = 1 then 0 else r.val; rw [if_neg (by decide)]
    | ⟨1, _⟩ => by show (0 : Nat) = if (1 : Nat) = 1 then 0 else j.val; rw [if_pos rfl])
theorem bcast_row {α : Type} (v : S1x512.Idx → α) (r j : Fin 512) :
    broadcastTo S512x512 v broadcasts_S1x512_S512x512 (ix2 r j) = v (ix2 0 j) :=
  broadcastTo_apply v broadcasts_S1x512_S512x512 (ix2 r j) (ix2 0 j) (fun a => match a with
    | ⟨0, _⟩ => by show (0 : Nat) = if (1 : Nat) = 1 then 0 else r.val; rw [if_pos rfl]
    | ⟨1, _⟩ => by show j.val = if (512 : Nat) = 1 then 0 else j.val; rw [if_neg (by decide)])

variable (x : Cert.Spec.SX.Idx → EReal) (tg : Cert.Spec.ST.Idx → BitVec 32)

/-- The label comparison at (r, j): the labels of anchor 512 t + r and key 512 k + j agree. -/
theorem pay10_apply (t k : Fin 16) (r j : Fin 512) :
    k0_pay10 (F := Ideal) (k0_pay15 (F := Ideal) (lblBlock tg t)) (tchunk (F := Ideal) (lblRow tg) k) (ix2 r j) = 1#1
      ↔ Cert.Spec.same tg (gi t r) (gi k j) := by
  unfold k0_pay10 k0_pay15
  rw [shapeCast_self, shapeCast_self]
  show IntOp.cmpi .eq (broadcastTo S512x512 _ broadcasts_S512x1_S512x512 (ix2 r j)) (broadcastTo S512x512 _ broadcasts_S1x512_S512x512 (ix2 r j)) = 1#1 ↔ _
  rw [bcast_col, bcast_row, cmpi_eq_one]
  exact Iff.rfl

/-- The negative selection at (r, j), once lo holds the anchors' least positive similarity. -/
theorem pay11_apply (t k : Fin 16) (r j : Fin 512) (lo : FVec Ideal S512x1 .f32)
    (hlo : ∀ r : Fin 512, lo (ix2 r 0) = Cert.Spec.minPos x tg (gi t r)) :
    k0_pay11 (F := Ideal) (xchunk x t) (k0_pay15 (F := Ideal) (lblBlock tg t)) lo (xchunk x k) (tchunk (F := Ideal) (lblRow tg) k) (ix2 r j) = 1#1
      ↔ Cert.Spec.negSel x tg (gi t r) (gi k j) := by
  unfold k0_pay11
  show IntOp.andi (IntOp.xori (k0_pay10 (F := Ideal) _ _ (ix2 r j)) 1#1)
      (Ideal.cmp .ogt (k0_pay9 (F := Ideal) _ _ (ix2 r j) + Cert.Spec.cEps) (broadcastTo S512x512 lo broadcasts_S512x1_S512x512 (ix2 r j))) = 1#1 ↔ _
  rw [andi_one, xori_one, pay10_apply, cmp_ogt_one, pay9_apply, bcast_col, hlo]
  exact Iff.rfl

/-- The positive selection at (r, j), once hi holds the anchors' greatest negative similarity. -/
theorem pay12_apply (t k : Fin 16) (r j : Fin 512) (hi : FVec Ideal S512x1 .f32)
    (hhi : ∀ r : Fin 512, hi (ix2 r 0) = Cert.Spec.maxNeg x tg (gi t r)) :
    k0_pay12 (F := Ideal) (xchunk x t) (k0_pay15 (F := Ideal) (lblBlock tg t)) hi (xchunk x k) (tchunk (F := Ideal) (lblRow tg) k) (ix2 r j) = 1#1
      ↔ Cert.Spec.posSel x tg (gi t r) (gi k j) := by
  unfold k0_pay12
  show IntOp.andi (IntOp.andi (k0_pay10 (F := Ideal) _ _ (ix2 r j)) (Ideal.cmp .olt (k0_pay9 (F := Ideal) _ _ (ix2 r j)) Cert.Spec.cOne))
      (Ideal.cmp .olt (k0_pay9 (F := Ideal) _ _ (ix2 r j) - Cert.Spec.cEps) (broadcastTo S512x512 hi broadcasts_S512x1_S512x512 (ix2 r j))) = 1#1 ↔ _
  rw [andi_one, andi_one, pay10_apply, cmp_olt_one, cmp_olt_one, pay9_apply, bcast_col, hhi]
  exact Iff.rfl

/-! ## Lane reductions of a square, read at a row -/

theorem cast_col {α : Type} (v : S512.Idx → α) (r : Fin 512) :
    shapeCast S512x1 v shapeCasts_S512_S512x1 (ix2 r 0) = v (ix1 r) :=
  shapeCast_apply v shapeCasts_S512_S512x1 _ _ (by
    rw [Shape.rowMajor_val_two, Shape.rowMajor_val_one]
    show r.val = r.val * 1 + 0
    omega)

theorem lift_eq (r j : Fin 512) : reduces_S512x512_S512.lift (ix1 r) j = ix2 r j := by
  funext d
  match d with
  | ⟨0, _⟩ => rfl
  | ⟨1, _⟩ => rfl

theorem lane_sum (v : FVec Ideal S512x512 .f32) (r : Fin 512) (hφ : FKind.Formats .f32)
    (hacc : (0x00000000#32 : BitVec 32) = FKind.add.neutral .f32 hφ) :
    multiReduction .add [1] S512 v 0x00000000#32 reduces_S512x512_S512 hφ hacc (ix1 r) = ∑ j : Fin 512, v (ix2 r j) := by
  refine (Ideal.multiReduction_add_single v _ reduces_S512x512_S512 hφ hacc (ix1 r)).trans ?_
  show (∑ j : Fin 512, v (reduces_S512x512_S512.lift (ix1 r) j)) = _
  exact Finset.sum_congr rfl fun j _ => congrArg v (lift_eq r j)

theorem lane_max_pos (v : FVec Ideal S512x512 .f32) (r : Fin 512) (hφ : FKind.Formats .f32)
    (hacc : (0xFF800000#32 : BitVec 32) = FKind.maximumf.neutral .f32 hφ) :
    0 < multiReduction .maximumf [1] S512 v 0xFF800000#32 reduces_S512x512_S512 hφ hacc (ix1 r) ↔ ∃ j : Fin 512, 0 < v (ix2 r j) := by
  have e := Ideal.multiReduction_maximumf_single v 0xFF800000#32 reduces_S512x512_S512 hφ hacc (ix1 r)
  refine (iff_of_eq (congrArg (0 < ·) e)).trans ?_
  refine (Finset.lt_fold_max 0).trans ?_
  have hbot : FloatOps.ofBits (F := Ideal) .f32 0xFF800000#32 = (⊥ : EReal) := by
    show Ideal.ofBits .f32 0xFF800000#32 = ⊥
    simp [Ideal.ofBits, Ideal.ieee]
  constructor
  · rintro (h | ⟨j, _, h⟩)
    · exact absurd (lt_of_lt_of_eq h hbot) not_lt_bot
    · exact ⟨j, by rw [← lift_eq r j]; exact h⟩
  · rintro ⟨j, h⟩
    exact Or.inr ⟨j, Finset.mem_univ _, by show 0 < v (reduces_S512x512_S512.lift (ix1 r) j); rw [lift_eq r j]; exact h⟩

/-- A lane maximum of a 0/1 mask is positive exactly when some lane is set; the carried flag is or-ed with that. -/
theorem pay26_apply (a : IVec S512x1 1) (m : IVec S512x512 1) (r : Fin 512) :
    k0_pay26 (F := Ideal) a m (ix2 r 0) = 1#1 ↔ a (ix2 r 0) = 1#1 ∨ ∃ j : Fin 512, m (ix2 r j) = 1#1 := by
  unfold k0_pay26
  dsimp only
  show IntOp.ori (a (ix2 r 0)) (shapeCast S512x1 _ shapeCasts_S512_S512x1 (ix2 r 0)) = 1#1 ↔ _
  rw [ori_one, cast_col, cmpf_apply, Ideal.cmpf_def, cmp_ogt_one, broadcast_apply, Ideal.ofBits_def, Ideal.ofBits_zero_f32]
  refine or_congr Iff.rfl ((lane_max_pos _ r _ _).trans (exists_congr fun j => ?_))
  rw [select_apply, broadcast_apply, broadcast_apply, Ideal.ofBits_def, Ideal.ofBits_one_f32]
  rcases BitVec.eq_zero_or_eq_one (m (ix2 r j)) with h | h
  · rw [h, select_zero]; exact iff_of_false (lt_irrefl _) (by decide)
  · rw [h, select_one]; exact iff_of_true zero_lt_one rfl

theorem pay27_apply (a : IVec S512x1 1) (m : IVec S512x512 1) (r : Fin 512) :
    k0_pay27 (F := Ideal) a m (ix2 r 0) = 1#1 ↔ a (ix2 r 0) = 1#1 ∨ ∃ j : Fin 512, m (ix2 r j) = 1#1 := by
  unfold k0_pay27
  dsimp only
  show IntOp.ori (a (ix2 r 0)) (shapeCast S512x1 _ shapeCasts_S512_S512x1 (ix2 r 0)) = 1#1 ↔ _
  rw [ori_one, cast_col, cmpf_apply, Ideal.cmpf_def, cmp_ogt_one, broadcast_apply, Ideal.ofBits_def, Ideal.ofBits_zero_f32]
  refine or_congr Iff.rfl ((lane_max_pos _ r _ _).trans (exists_congr fun j => ?_))
  rw [select_apply, broadcast_apply, broadcast_apply, Ideal.ofBits_def, Ideal.ofBits_one_f32]
  rcases BitVec.eq_zero_or_eq_one (m (ix2 r j)) with h | h
  · rw [h, select_zero]; exact iff_of_false (lt_irrefl _) (by decide)
  · rw [h, select_one]; exact iff_of_true zero_lt_one rfl

/-- The weight of a selected positive and of a selected negative. -/
def posTerm (i j : Fin 8192) : EReal :=
  if Cert.Spec.posSel x tg i j then Ideal.exp (Cert.Spec.cMinusTwo * (Cert.Spec.sim x i j - Cert.Spec.cHalf)) else Cert.Spec.cZero
def negTerm (i j : Fin 8192) : EReal :=
  if Cert.Spec.negSel x tg i j then Ideal.exp (Cert.Spec.cFive * (Cert.Spec.sim x i j - Cert.Spec.cHalf)) else Cert.Spec.cZero

/-- One chunk adds its selected positives' weights to the carried sum. -/
theorem pay13_apply (t k : Fin 16) (r : Fin 512) (hi acc : FVec Ideal S512x1 .f32)
    (hhi : ∀ r : Fin 512, hi (ix2 r 0) = Cert.Spec.maxNeg x tg (gi t r)) :
    k0_pay13 (F := Ideal) (xchunk x t) (k0_pay15 (F := Ideal) (lblBlock tg t)) hi acc (xchunk x k) (tchunk (F := Ideal) (lblRow tg) k) (ix2 r 0)
      = acc (ix2 r 0) + ∑ j : Fin 512, posTerm x tg (gi t r) (gi k j) := by
  unfold k0_pay13
  dsimp only
  show acc (ix2 r 0) + shapeCast S512x1 _ shapeCasts_S512_S512x1 (ix2 r 0) = _
  rw [cast_col]
  refine congrArg (acc (ix2 r 0) + ·) ((lane_sum _ r _ _).trans (Finset.sum_congr rfl fun j _ => ?_))
  show Scalar.select (k0_pay12 (F := Ideal) _ _ hi _ _ (ix2 r j))
    (Ideal.exp (Cert.Spec.cMinusTwo * (k0_pay9 (F := Ideal) _ _ (ix2 r j) - Cert.Spec.cHalf))) Cert.Spec.cZero = _
  rw [pay9_apply]
  unfold posTerm
  by_cases h : Cert.Spec.posSel x tg (gi t r) (gi k j)
  · rw [if_pos h, (pay12_apply x tg t k r j hi hhi).2 h, select_one]
  · rw [if_neg h, eq_zero_of_ne_one (mt (pay12_apply x tg t k r j hi hhi).1 h), select_zero]

/-- One chunk adds its selected negatives' weights to the carried sum. -/
theorem pay25_apply (t k : Fin 16) (r : Fin 512) (lo acc : FVec Ideal S512x1 .f32)
    (hlo : ∀ r : Fin 512, lo (ix2 r 0) = Cert.Spec.minPos x tg (gi t r)) :
    k0_pay25 (F := Ideal) acc (k0_pay14 (F := Ideal) (xchunk x t) (k0_pay15 (F := Ideal) (lblBlock tg t)) lo (xchunk x k) (tchunk (F := Ideal) (lblRow tg) k)) (ix2 r 0)
      = acc (ix2 r 0) + ∑ j : Fin 512, negTerm x tg (gi t r) (gi k j) := by
  unfold k0_pay25
  dsimp only
  show acc (ix2 r 0) + shapeCast S512x1 _ shapeCasts_S512_S512x1 (ix2 r 0) = _
  rw [cast_col]
  refine congrArg (acc (ix2 r 0) + ·) ((lane_sum _ r _ _).trans (Finset.sum_congr rfl fun j _ => ?_))
  unfold k0_pay14
  show Scalar.select (k0_pay11 (F := Ideal) _ _ lo _ _ (ix2 r j))
    (Ideal.exp (Cert.Spec.cFive * (k0_pay9 (F := Ideal) _ _ (ix2 r j) - Cert.Spec.cHalf))) Cert.Spec.cZero = _
  rw [pay9_apply]
  unfold negTerm
  by_cases h : Cert.Spec.negSel x tg (gi t r) (gi k j)
  · rw [if_pos h, (pay11_apply x tg t k r j lo hlo).2 h, select_one]
  · rw [if_neg h, eq_zero_of_ne_one (mt (pay11_apply x tg t k r j lo hlo).1 h), select_zero]

/-! ## Sixteen chunks of 512 keys are the 8192 keys -/

theorem exists_key {P : Fin 8192 → Prop} : (∃ i, P i) ↔ ∃ (k : Fin 16) (j : Fin 512), P (gi k j) := by
  constructor
  · rintro ⟨i, h⟩
    have hi := i.isLt
    refine ⟨⟨i.val / 512, by omega⟩, ⟨i.val % 512, by omega⟩, ?_⟩
    have e : gi ⟨i.val / 512, by omega⟩ ⟨i.val % 512, by omega⟩ = i :=
      Fin.ext (by show 512 * (i.val / 512) + i.val % 512 = i.val; omega)
    rw [e]; exact h
  · rintro ⟨k, j, h⟩; exact ⟨_, h⟩

/-- The pair (chunk, lane) of a key. -/
def keyEquiv : Fin 16 × Fin 512 ≃ Fin 8192 := finProdFinEquiv

theorem keyEquiv_apply (k : Fin 16) (j : Fin 512) : keyEquiv (k, j) = gi k j :=
  Fin.ext (by show j.val + 512 * k.val = 512 * k.val + j.val; omega)

theorem sum_key (f : Fin 8192 → EReal) : ∑ i, f i = ∑ k : Fin 16, ∑ j : Fin 512, f (gi k j) := by
  rw [← Equiv.sum_comp keyEquiv f, Fintype.sum_prod_type]
  exact Finset.sum_congr rfl fun k _ => Finset.sum_congr rfl fun j _ => congrArg f (keyEquiv_apply k j)

theorem sum_lt_succ (A : Fin 16 → EReal) (n : ℕ) (h : n < 16) :
    (∑ k : Fin 16, if k.val < n + 1 then A k else 0) = (∑ k : Fin 16, if k.val < n then A k else 0) + A ⟨n, h⟩ := by
  have e : ∀ k : Fin 16, (if k.val < n + 1 then A k else 0)
      = (if k.val < n then A k else 0) + (if k = ⟨n, h⟩ then A k else 0) := by
    intro k
    by_cases h1 : k.val < n
    · have h2 : k ≠ ⟨n, h⟩ := fun e => by rw [e] at h1; exact lt_irrefl _ h1
      rw [if_pos h1, if_pos (Nat.lt_succ_of_lt h1), if_neg h2, add_zero]
    · by_cases h2 : k = ⟨n, h⟩
      · rw [if_neg h1, if_pos h2, if_pos (by rw [h2]; exact Nat.lt_succ_self n), zero_add]
      · have h3 : ¬ k.val < n + 1 := fun h3 => h2 (Fin.ext (by show k.val = n; omega))
        rw [if_neg h1, if_neg h2, if_neg h3, add_zero]
  rw [Finset.sum_congr rfl fun k _ => e k, Finset.sum_add_distrib, Finset.sum_ite_eq' Finset.univ (⟨n, h⟩ : Fin 16) A,
    if_pos (Finset.mem_univ _)]

theorem exists_lt_succ (Q : Fin 16 → Prop) (n : ℕ) (h : n < 16) :
    (∃ k : Fin 16, k.val < n + 1 ∧ Q k) ↔ (∃ k : Fin 16, k.val < n ∧ Q k) ∨ Q ⟨n, h⟩ := by
  constructor
  · rintro ⟨k, hk, q⟩
    by_cases h1 : k.val < n
    · exact Or.inl ⟨k, h1, q⟩
    · have e : k = ⟨n, h⟩ := Fin.ext (by show k.val = n; omega)
      exact Or.inr (e ▸ q)
  · rintro (⟨k, hk, q⟩ | q)
    · exact ⟨k, Nat.lt_succ_of_lt hk, q⟩
    · exact ⟨⟨n, h⟩, Nat.lt_succ_self n, q⟩

/-! ## The second walk -/

/-- Before chunk n the carried sums are the sums over the keys of chunks below n, and the carried flags say whether such a key
    was selected. -/
theorem walk2_inv (t : Fin 16) (lo hi : FVec Ideal S512x1 .f32)
    (hlo : ∀ r : Fin 512, lo (ix2 r 0) = Cert.Spec.minPos x tg (gi t r))
    (hhi : ∀ r : Fin 512, hi (ix2 r 0) = Cert.Spec.maxNeg x tg (gi t r)) (r : Fin 512) (n : ℕ) (hn : n ≤ 16) :
    (carry2 (F := Ideal) (xchunk x t) (lblBlock tg t) lo hi x (lblRow tg) n).1 (ix2 r 0)
        = (∑ k : Fin 16, if k.val < n then ∑ j : Fin 512, posTerm x tg (gi t r) (gi k j) else 0)
    ∧ (carry2 (F := Ideal) (xchunk x t) (lblBlock tg t) lo hi x (lblRow tg) n).2.1 (ix2 r 0)
        = (∑ k : Fin 16, if k.val < n then ∑ j : Fin 512, negTerm x tg (gi t r) (gi k j) else 0)
    ∧ ((carry2 (F := Ideal) (xchunk x t) (lblBlock tg t) lo hi x (lblRow tg) n).2.2.1 (ix2 r 0) = 1#1
        ↔ ∃ k : Fin 16, k.val < n ∧ ∃ j : Fin 512, Cert.Spec.posSel x tg (gi t r) (gi k j))
    ∧ ((carry2 (F := Ideal) (xchunk x t) (lblBlock tg t) lo hi x (lblRow tg) n).2.2.2 (ix2 r 0) = 1#1
        ↔ ∃ k : Fin 16, k.val < n ∧ ∃ j : Fin 512, Cert.Spec.negSel x tg (gi t r) (gi k j)) := by
  induction n with
  | zero =>
    refine ⟨?_, ?_, ?_, ?_⟩
    · show Ideal.ofBits .f32 0x00000000#32 = _
      rw [Ideal.ofBits_zero_f32]
      exact (Finset.sum_eq_zero fun k _ => if_neg (Nat.not_lt_zero _)).symm
    · show Ideal.ofBits .f32 0x00000000#32 = _
      rw [Ideal.ofBits_zero_f32]
      exact (Finset.sum_eq_zero fun k _ => if_neg (Nat.not_lt_zero _)).symm
    · show (0#1 : BitVec 1) = 1#1 ↔ _
      exact iff_of_false (by decide) (fun ⟨k, hk, _⟩ => Nat.not_lt_zero _ hk)
    · show (0#1 : BitVec 1) = 1#1 ↔ _
      exact iff_of_false (by decide) (fun ⟨k, hk, _⟩ => Nat.not_lt_zero _ hk)
  | succ n ih =>
    have h : n < 16 := hn
    obtain ⟨i1, i2, i3, i4⟩ := ih (Nat.le_of_lt h)
    have e : carry2 (F := Ideal) (xchunk x t) (lblBlock tg t) lo hi x (lblRow tg) (n + 1)
        = step2 (F := Ideal) (xchunk x t) (lblBlock tg t) lo hi (xchunk x ⟨n, h⟩) (tchunk (lblRow tg) ⟨n, h⟩)
            (carry2 (F := Ideal) (xchunk x t) (lblBlock tg t) lo hi x (lblRow tg) n) := by
      rw [carry2, dif_pos h]
    rw [e]
    refine ⟨?_, ?_, ?_, ?_⟩
    · show k0_pay13 (F := Ideal) _ _ hi _ _ _ (ix2 r 0) = _
      rw [pay13_apply x tg t ⟨n, h⟩ r hi _ hhi, i1]
      exact (sum_lt_succ (fun k => ∑ j : Fin 512, posTerm x tg (gi t r) (gi k j)) n h).symm
    · show k0_pay25 (F := Ideal) _ (k0_pay14 (F := Ideal) _ _ lo _ _) (ix2 r 0) = _
      rw [pay25_apply x tg t ⟨n, h⟩ r lo _ hlo, i2]
      exact (sum_lt_succ (fun k => ∑ j : Fin 512, negTerm x tg (gi t r) (gi k j)) n h).symm
    · show k0_pay26 (F := Ideal) _ (k0_pay12 (F := Ideal) _ _ hi _ _) (ix2 r 0) = 1#1 ↔ _
      exact (pay26_apply _ _ r).trans ((or_congr i3 (exists_congr fun j => pay12_apply x tg t ⟨n, h⟩ r j hi hhi)).trans
        (exists_lt_succ (fun k => ∃ j : Fin 512, Cert.Spec.posSel x tg (gi t r) (gi k j)) n h).symm)
    · show k0_pay27 (F := Ideal) _ (k0_pay11 (F := Ideal) _ _ lo _ _) (ix2 r 0) = 1#1 ↔ _
      exact (pay27_apply _ _ r).trans ((or_congr i4 (exists_congr fun j => pay11_apply x tg t ⟨n, h⟩ r j lo hlo)).trans
        (exists_lt_succ (fun k => ∃ j : Fin 512, Cert.Spec.negSel x tg (gi t r) (gi k j)) n h).symm)

/-! ## The walk's end: every key -/

section Ends
variable (t : Fin 16) (lo hi : FVec Ideal S512x1 .f32)

theorem walk2_pos (hlo : ∀ r : Fin 512, lo (ix2 r 0) = Cert.Spec.minPos x tg (gi t r))
    (hhi : ∀ r : Fin 512, hi (ix2 r 0) = Cert.Spec.maxNeg x tg (gi t r)) (r : Fin 512) :
    (carry2 (F := Ideal) (xchunk x t) (lblBlock tg t) lo hi x (lblRow tg) 16).1 (ix2 r 0) = Cert.Spec.posSum x tg (gi t r) := by
  rw [(walk2_inv x tg t lo hi hlo hhi r 16 le_rfl).1]
  unfold Cert.Spec.posSum
  rw [sum_key]
  exact Finset.sum_congr rfl fun k _ => if_pos k.isLt

theorem walk2_neg (hlo : ∀ r : Fin 512, lo (ix2 r 0) = Cert.Spec.minPos x tg (gi t r))
    (hhi : ∀ r : Fin 512, hi (ix2 r 0) = Cert.Spec.maxNeg x tg (gi t r)) (r : Fin 512) :
    (carry2 (F := Ideal) (xchunk x t) (lblBlock tg t) lo hi x (lblRow tg) 16).2.1 (ix2 r 0) = Cert.Spec.negSum x tg (gi t r) := by
  rw [(walk2_inv x tg t lo hi hlo hhi r 16 le_rfl).2.1]
  unfold Cert.Spec.negSum
  rw [sum_key]
  exact Finset.sum_congr rfl fun k _ => if_pos k.isLt

theorem walk2_anyPos (hlo : ∀ r : Fin 512, lo (ix2 r 0) = Cert.Spec.minPos x tg (gi t r))
    (hhi : ∀ r : Fin 512, hi (ix2 r 0) = Cert.Spec.maxNeg x tg (gi t r)) (r : Fin 512) :
    (carry2 (F := Ideal) (xchunk x t) (lblBlock tg t) lo hi x (lblRow tg) 16).2.2.1 (ix2 r 0) = 1#1
      ↔ ∃ j, Cert.Spec.posSel x tg (gi t r) j := by
  refine (walk2_inv x tg t lo hi hlo hhi r 16 le_rfl).2.2.1.trans ?_
  constructor
  · rintro ⟨k, _, j, h⟩; exact ⟨gi k j, h⟩
  · intro h
    obtain ⟨k, j, h'⟩ := exists_key.1 h
    exact ⟨k, k.isLt, j, h'⟩

theorem walk2_anyNeg (hlo : ∀ r : Fin 512, lo (ix2 r 0) = Cert.Spec.minPos x tg (gi t r))
    (hhi : ∀ r : Fin 512, hi (ix2 r 0) = Cert.Spec.maxNeg x tg (gi t r)) (r : Fin 512) :
    (carry2 (F := Ideal) (xchunk x t) (lblBlock tg t) lo hi x (lblRow tg) 16).2.2.2 (ix2 r 0) = 1#1
      ↔ ∃ j, Cert.Spec.negSel x tg (gi t r) j := by
  refine (walk2_inv x tg t lo hi hlo hhi r 16 le_rfl).2.2.2.trans ?_
  constructor
  · rintro ⟨k, _, j, h⟩; exact ⟨gi k j, h⟩
  · intro h
    obtain ⟨k, j, h'⟩ := exists_key.1 h
    exact ⟨k, k.isLt, j, h'⟩

end Ends

/-! ## The block's two outputs -/

theorem pay28_apply (a3 a4 b3 b4 : IVec S512x1 1) (i : S512x1.Idx) :
    k0_pay28 a3 a4 b3 b4 i = 1#1 ↔ ((a3 i = 1#1 ∧ a4 i = 1#1) ∧ b3 i = 1#1) ∧ b4 i = 1#1 := by
  unfold k0_pay28
  show IntOp.andi (IntOp.andi (IntOp.andi (a3 i) (a4 i)) (b3 i)) (b4 i) = 1#1 ↔ _
  rw [andi_one, andi_one, andi_one]

theorem pay29_apply (a3 a4 : IVec S512x1 1) (b1 b2 : FVec Ideal S512x1 .f32) (b3 b4 : IVec S512x1 1) (i : S512x1.Idx) :
    k0_pay29 (F := Ideal) a3 a4 b1 b2 b3 b4 i = Scalar.select (k0_pay28 a3 a4 b3 b4 i)
      (Ideal.div (Ideal.log1p (b1 i)) Cert.Spec.cTwo + Ideal.div (Ideal.log1p (b2 i)) Cert.Spec.cFive) Cert.Spec.cZero := rfl

theorem pay30_apply (a3 a4 b3 b4 : IVec S512x1 1) (i : S512x1.Idx) :
    k0_pay30 (F := Ideal) a3 a4 b3 b4 i = ((((k0_pay28 a3 a4 b3 b4 i).setWidth 32).toInt : ℝ) : EReal) := rfl

section Outputs
variable (t : Fin 16)
  (h1 : ∀ r : Fin 512, (carry1 (F := Ideal) (xchunk x t) (lblBlock tg t) x (lblRow tg) 16).1 (ix2 r 0) = Cert.Spec.minPos x tg (gi t r))
  (h2 : ∀ r : Fin 512, (carry1 (F := Ideal) (xchunk x t) (lblBlock tg t) x (lblRow tg) 16).2.1 (ix2 r 0) = Cert.Spec.maxNeg x tg (gi t r))
  (h3 : ∀ r : Fin 512, (carry1 (F := Ideal) (xchunk x t) (lblBlock tg t) x (lblRow tg) 16).2.2.1 (ix2 r 0) = 1#1 ↔ ∃ j, Cert.Spec.pos x tg (gi t r) j)
  (h4 : ∀ r : Fin 512, (carry1 (F := Ideal) (xchunk x t) (lblBlock tg t) x (lblRow tg) 16).2.2.2 (ix2 r 0) = 1#1 ↔ ∃ j, Cert.Spec.neg tg (gi t r) j)
include h1 h2 h3 h4

/-- The block's validity bit at row r is the validity of anchor 512 t + r. -/
theorem valid_iff (r : Fin 512) :
    k0_pay28 (carry1 (F := Ideal) (xchunk x t) (lblBlock tg t) x (lblRow tg) 16).2.2.1
        (carry1 (F := Ideal) (xchunk x t) (lblBlock tg t) x (lblRow tg) 16).2.2.2
        (carry2 (F := Ideal) (xchunk x t) (lblBlock tg t)
          (carry1 (F := Ideal) (xchunk x t) (lblBlock tg t) x (lblRow tg) 16).1
          (carry1 (F := Ideal) (xchunk x t) (lblBlock tg t) x (lblRow tg) 16).2.1 x (lblRow tg) 16).2.2.1
        (carry2 (F := Ideal) (xchunk x t) (lblBlock tg t)
          (carry1 (F := Ideal) (xchunk x t) (lblBlock tg t) x (lblRow tg) 16).1
          (carry1 (F := Ideal) (xchunk x t) (lblBlock tg t) x (lblRow tg) 16).2.1 x (lblRow tg) 16).2.2.2 (ix2 r 0) = 1#1
      ↔ Cert.Spec.valid x tg (gi t r) := by
  refine (pay28_apply _ _ _ _ _).trans ?_
  have p := walk2_anyPos x tg t _ _ h1 h2 r
  have q := walk2_anyNeg x tg t _ _ h1 h2 r
  unfold Cert.Spec.valid
  constructor
  · rintro ⟨⟨⟨a, b⟩, c⟩, d⟩
    exact ⟨(h3 r).1 a, (h4 r).1 b, p.1 c, q.1 d⟩
  · rintro ⟨a, b, c, d⟩
    exact ⟨⟨⟨(h3 r).2 a, (h4 r).2 b⟩, p.2 c⟩, q.2 d⟩

theorem blockLoss_spec (r : Fin 512) :
    blockLoss (F := Ideal) (xchunk x t) (lblBlock tg t) x (lblRow tg) (ix2 r 0) = Cert.Spec.perAnchor x tg (gi t r) := by
  unfold blockLoss
  rw [pay29_apply, walk2_pos x tg t _ _ h1 h2 r, walk2_neg x tg t _ _ h1 h2 r]
  unfold Cert.Spec.perAnchor
  by_cases hv : Cert.Spec.valid x tg (gi t r)
  · rw [if_pos hv, (valid_iff x tg t h1 h2 h3 h4 r).2 hv, select_one]
  · rw [if_neg hv, eq_zero_of_ne_one (mt (valid_iff x tg t h1 h2 h3 h4 r).1 hv), select_zero]

theorem blockValid_spec (r : Fin 512) :
    blockValid (F := Ideal) (xchunk x t) (lblBlock tg t) x (lblRow tg) (ix2 r 0) = Cert.Spec.validF x tg (gi t r) := by
  unfold blockValid
  rw [pay30_apply]
  unfold Cert.Spec.validF
  by_cases hv : Cert.Spec.valid x tg (gi t r)
  · rw [if_pos hv, (valid_iff x tg t h1 h2 h3 h4 r).2 hv]
    norm_num
  · rw [if_neg hv, eq_zero_of_ne_one (mt (valid_iff x tg t h1 h2 h3 h4 r).1 hv)]
    norm_num

end Outputs

end Cert.KIWalk2
end
-- ==== Proof.lean ====
/-
  The certificate of a multi-similarity loss kernel against its reference.

  The kernel computes, for 8192 embeddings of dimension 128 with integer labels, the loss of pair mining with an ε margin:
  per anchor the least similarity among its positives and the greatest among its negatives, the positives and negatives
  those two extremes select, the two exponentially weighted sums over the selected pairs, and the mean over the valid
  anchors of log(1 + Σ₊)/2 + log(1 + Σ₋)/5. It tiles the anchors in sixteen blocks of 512 and walks the keys in sixteen
  chunks of 512, twice; the reference forms the whole 8192 × 8192 similarity matrix once. On the extended reals the two are
  the same function of the arguments: an infimum, a supremum, a sum or an existence over 8192 keys is the same taken chunk
  by chunk, and a sum over 8192 anchors the same taken block by block.

  The three frames: the reference's is its run with the result dropped; the kernel's two (as printed, and idealized) are the
  run of the pipelined call between the host lines around it, at any float instance. Nothing was rewritten by the
  idealization, so what it preserves is trivial.
-/
import proofs.«175013_j38981123178915_2_alg».proof.Defs
import proofs.«175013_j38981123178915_2_alg».proof.Proof.Gen.Kernel
import proofs.«175013_j38981123178915_2_alg».proof.Proof.Gen.KernelIdeal
import proofs.«175013_j38981123178915_2_alg».proof.Proof.Gen.ReferenceIdeal
import proofs.«175013_j38981123178915_2_alg».proof.Proof.Gen.Pre_finite_inputs
import proofs.«175013_j38981123178915_2_alg».proof.Proof.RefRunP
import proofs.«175013_j38981123178915_2_alg».proof.Proof.RefReadP
import proofs.«175013_j38981123178915_2_alg».proof.Proof.KFrame
import proofs.«175013_j38981123178915_2_alg».proof.Proof.KIFrame
import proofs.«175013_j38981123178915_2_alg».proof.Proof.KITail
import proofs.«175013_j38981123178915_2_alg».proof.Proof.KIWalk1
import proofs.«175013_j38981123178915_2_alg».proof.Proof.KIWalk2
import proofs.«175013_j38981123178915_2_alg».proof.Proof.RefSpec
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- One grid point's pure arithmetic gives, at row r of block t, the loss of anchor 512 t + r: the first walk ends with that anchor's
    two extremes and two existences, the second walk (given them) with its two sums and two existences. -/
theorem lossFact : Cert.KernelIdeal.Body.LossFact := fun x tg t r =>
  Cert.KIWalk2.blockLoss_spec x tg t (fun r' => Cert.KIWalk1.walk1_min x tg t r') (fun r' => Cert.KIWalk1.walk1_max x tg t r')
    (fun r' => Cert.KIWalk1.walk1_anyPos x tg t r') (fun r' => Cert.KIWalk1.walk1_anyNeg x tg t r') r
/-- and its validity flag. -/
theorem validFact : Cert.KernelIdeal.Body.ValidFact := fun x tg t r =>
  Cert.KIWalk2.blockValid_spec x tg t (fun r' => Cert.KIWalk1.walk1_min x tg t r') (fun r' => Cert.KIWalk1.walk1_max x tg t r')
    (fun r' => Cert.KIWalk1.walk1_anyPos x tg t r') (fun r' => Cert.KIWalk1.walk1_anyNeg x tg t r') r

/-- On the extended reals both programs end with the specification's result of the argument arrays: the idealized kernel by its
    value run, the reference by its run read one operation at a time; the arguments agree, so the two results are equal. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => (fun _ => Cert.Spec.result (Cert.KernelIdeal.Body.xA m c) (Cert.KernelIdeal.Body.tgA m c)),
    Cert.KernelIdeal.Body.run_value m lossFact validFact ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq, Cert.RefSpec.ref_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
